-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg4 : FVec F S2x256x256 .f32) (main_arg5 : FVec F S2x256 .f32) (main_v13 : IVec S_ 1) (main_v16 : IVec S2x256 1) : IVec S_ 1 :=
  let main_c_5 : IVec S_ 1 := constantI S_ 1 1#1
  let main_v17 : IVec S_ 1 := (fun x v => Host.reduce IntOp.andi x v reducesTo_S2x256_S_d0_1 h_S_) main_v16 main_c_5
  let main_v18 : IVec S_ 1 := andi main_v13 main_v17
  let main_v19 : FVec F S2x256x256 .f32 := Host.absf main_arg4
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg5
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  main_v28

def fn {F : FTy → Type} [FloatOps F] (main_arg0 : FVec F S8x2048x256 .f32) (main_arg1 : FVec F S8x2048x2048 .f32) (main_arg2 : FVec F S2x256x256 .f32) (main_arg3 : FVec F S2x256 .f32) (main_arg4 : FVec F S2x256x256 .f32) (main_arg5 : FVec F S2x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S2x256x256 .f32 := Host.absf main_arg2
  let main_cst_2 : FVec F S_ .f32 := constant S_ .f32 0x7F800000#32
  let main_v10 : FVec F S2x256x256 .f32 := broadcastInDim S2x256x256 ![] bcast_S_S2x256x256 main_cst_2
  let main_v11 : IVec S2x256x256 1 := cmpf .olt main_v9 main_v10
  let main_c_3 : IVec S_ 1 := constantI S_ 1 1#1
  let main_v12 : IVec S_ 1 := (fun x v => Host.reduce IntOp.andi x v reducesTo_S2x256x256_S_d0_1_2 h_S_) main_v11 main_c_3
  let main_v13 : IVec S_ 1 := andi main_v8 main_v12
  let main_v14 : FVec F S2x256 .f32 := Host.absf main_arg3
  let main_cst_4 : FVec F S_ .f32 := constant S_ .f32 0x7F800000#32
  let main_v15 : FVec F S2x256 .f32 := broadcastInDim S2x256 ![] bcast_S_S2x256 main_cst_4
  let main_v16 : IVec S2x256 1 := cmpf .olt main_v14 main_v15
  fn_part1 (F := F) main_arg4 main_arg5 main_v13 main_v16
-- ==== Kernel.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S2x1x256 : Shape := ⟨3, ![2, 1, 256]⟩
abbrev S1x256x256 : Shape := ⟨3, ![1, 256, 256]⟩
abbrev S256x256 : Shape := ⟨2, ![256, 256]⟩
abbrev S1x1x256 : Shape := ⟨3, ![1, 1, 256]⟩
abbrev S1x256 : Shape := ⟨2, ![1, 256]⟩
abbrev S1x2048x256 : Shape := ⟨3, ![1, 2048, 256]⟩
abbrev S1x2048x512 : Shape := ⟨3, ![1, 2048, 512]⟩
abbrev S2048x256 : Shape := ⟨2, ![2048, 256]⟩
abbrev S2048x1 : Shape := ⟨2, ![2048, 1]⟩
abbrev S1x512x256 : Shape := ⟨3, ![1, 512, 256]⟩
abbrev S512x256 : Shape := ⟨2, ![512, 256]⟩
abbrev S2048x512 : Shape := ⟨2, ![2048, 512]⟩
abbrev S2048 : Shape := ⟨1, ![2048]⟩

abbrev nBuf : Space → Nat
  | .hbm => 28
  | .vmem => 26
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S2x256x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S2x256x256, .f32⟩
  | .hbm, ⟨7, _⟩ => ⟨S2x256x256, .f32⟩
  | .hbm, ⟨8, _⟩ => ⟨S2x1x256, .f32⟩
  | .hbm, ⟨9, _⟩ => ⟨S2x1x256, .f32⟩
  | .hbm, ⟨10, _⟩ => ⟨S1x256x256, .f32⟩
  | .hbm, ⟨11, _⟩ => ⟨S256x256, .f32⟩
  | .hbm, ⟨12, _⟩ => ⟨S1x1x256, .f32⟩
  | .hbm, ⟨13, _⟩ => ⟨S1x256, .f32⟩
  | .hbm, ⟨14, _⟩ => ⟨S1x256x256, .f32⟩
  | .hbm, ⟨15, _⟩ => ⟨S256x256, .f32⟩
  | .hbm, ⟨16, _⟩ => ⟨S1x1x256, .f32⟩
  | .hbm, ⟨17, _⟩ => ⟨S1x256, .f32⟩
  | .hbm, ⟨18, _⟩ => ⟨S8x2048x256, .f32⟩
  | .hbm, ⟨19, _⟩ => ⟨S1x256x256, .f32⟩
  | .hbm, ⟨20, _⟩ => ⟨S256x256, .f32⟩
  | .hbm, ⟨21, _⟩ => ⟨S1x1x256, .f32⟩
  | .hbm, ⟨22, _⟩ => ⟨S1x256, .f32⟩
  | .hbm, ⟨23, _⟩ => ⟨S1x256x256, .f32⟩
  | .hbm, ⟨24, _⟩ => ⟨S256x256, .f32⟩
  | .hbm, ⟨25, _⟩ => ⟨S1x1x256, .f32⟩
  | .hbm, ⟨26, _⟩ => ⟨S1x256, .f32⟩
  | .hbm, ⟨27, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x512, .f32⟩
  | .local _ .vmem, ⟨3, _⟩ => ⟨S1x2048x512, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x2048x256, .f32⟩
  | .local _ .vmem, ⟨9, _⟩ => ⟨S1x2048x256, .f32⟩
  | .local _ .vmem, ⟨10, _⟩ => ⟨S2048x256, .f32⟩
  | .local _ .vmem, ⟨11, _⟩ => ⟨S2048x1, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x512, .f32⟩
  | .local _ .vmem, ⟨15, _⟩ => ⟨S1x2048x512, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x2048x256, .f32⟩
  | .local _ .vmem, ⟨21, _⟩ => ⟨S1x2048x256, .f32⟩
  | .local _ .vmem, ⟨22, _⟩ => ⟨S1x2048x256, .f32⟩
  | .local _ .vmem, ⟨23, _⟩ => ⟨S1x2048x256, .f32⟩
  | .local _ .vmem, ⟨24, _⟩ => ⟨S2048x256, .f32⟩
  | .local _ .vmem, ⟨25, _⟩ => ⟨S2048x1, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def k1_cond2 (i : grid1.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_19 : BitVec 32 := 0#32
  let v36 : BitVec 1 := Scalar.cmpi .ne v35 c0_i32_19
  v36

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  transposes_S2x256x256_S2x256x256_0_2_1 : S2x256x256.Transposes [0, 2, 1] S2x256x256
  shapeCasts_S2x256_S2x1x256 : S2x256.ShapeCasts S2x1x256
  slices_S2x256x256_S1x256x256_0_0_0 : S2x256x256.Slices ![0, 0, 0] S1x256x256
  shapeCasts_S1x256x256_S256x256 : S1x256x256.ShapeCasts S256x256
  slices_S2x1x256_S1x1x256_0_0_0 : S2x1x256.Slices ![0, 0, 0] S1x1x256
  shapeCasts_S1x1x256_S1x256 : S1x1x256.ShapeCasts S1x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  h_S1x512x256 : 0 < S1x512x256.numel
  shapeCasts_S1x512x256_S512x256 : S1x512x256.ShapeCasts S512x256
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x256_S512x256 : S1x256.Broadcasts S512x256
  reduces_S2048x512_S2048 : S2048x512.Reduces [1] S2048
  shapeCasts_S2048_S2048x1 : S2048.ShapeCasts S2048x1
  broadcasts_S2048x1_S2048x256 : S2048x1.Broadcasts S2048x256
  shapeCasts_S2048x256_S1x2048x256 : S2048x256.ShapeCasts S1x2048x256
  slices_S2x256x256_S1x256x256_1_0_0 : S2x256x256.Slices ![1, 0, 0] S1x256x256
  slices_S2x1x256_S1x1x256_1_0_0 : S2x1x256.Slices ![1, 0, 0] S1x1x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S2048x512_S512x256_S2048x256_1_0_0_1_n_n_wf : DotDims.WF S2048x512 S512x256 S2048x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x2048.size a
  hwx0_1 : ∀ i : grid0.Coords, EltTy.bits .f32 = 32 ∨ (Rect.block (s := S8x2048x2048) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x256.size a ≤ S8x2048x256.size a
  hwx0_6 : ∀ i : grid0.Coords, EltTy.bits .f32 = 32 ∨ (Rect.block (s := S8x2048x256) S1x2048x256.size (cc0_transform_6 i) (hinb0_6 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S1x512x256.size a ≤ S1x2048x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S8x2048x256.size a
  hwx1_0 : ∀ i : grid1.Coords, EltTy.bits .f32 = 32 ∨ (Rect.block (s := S8x2048x256) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S8x2048x2048.size a
  hwx1_1 : ∀ i : grid1.Coords, EltTy.bits .f32 = 32 ∨ (Rect.block (s := S8x2048x2048) S1x2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048x256.size a ≤ S8x2048x256.size a
  hwx1_6 : ∀ i : grid1.Coords, EltTy.bits .f32 = 32 ∨ (Rect.block (s := S8x2048x256) S1x2048x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2048x256.size a ≤ S8x2048x256.size a
  hwx1_7 : ∀ i : grid1.Coords, EltTy.bits .f32 = 32 ∨ (Rect.block (s := S8x2048x256) S1x2048x256.size (cc1_transform_7 i) (hinb1_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v12) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S1x2048x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21) S1x2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S2x256x256 : Shape := ⟨3, ![2, 256, 256]⟩
abbrev S2x256 : Shape := ⟨2, ![2, 256]⟩
abbrev S_ : Shape := ⟨0, ![]⟩
abbrev S8x2048 : Shape := ⟨2, ![8, 2048]⟩
abbrev S8x2048x1 : Shape := ⟨3, ![8, 2048, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S2x256x256, .f32⟩
  | .hbm, ⟨3, _⟩ => ⟨S2x256, .f32⟩
  | .hbm, ⟨4, _⟩ => ⟨S2x256x256, .f32⟩
  | .hbm, ⟨5, _⟩ => ⟨S2x256, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S1x256x256, .f32⟩
  | .hbm, ⟨13, _⟩ => ⟨S256x256, .f32⟩
  | .hbm, ⟨14, _⟩ => ⟨S8x2048x256, .f32⟩
  | .hbm, ⟨15, _⟩ => ⟨S1x256, .f32⟩
  | .hbm, ⟨16, _⟩ => ⟨S256, .f32⟩
  | .hbm, ⟨17, _⟩ => ⟨S1x1x256, .f32⟩
  | .hbm, ⟨18, _⟩ => ⟨S8x2048x256, .f32⟩
  | .hbm, ⟨19, _⟩ => ⟨S8x2048x256, .f32⟩
  | .hbm, ⟨20, _⟩ => ⟨S8x2048x256, .f32⟩
  | .hbm, ⟨21, _⟩ => ⟨S1x256x256, .f32⟩
  | .hbm, ⟨22, _⟩ => ⟨S256x256, .f32⟩
  | .hbm, ⟨23, _⟩ => ⟨S8x2048x256, .f32⟩
  | .hbm, ⟨24, _⟩ => ⟨S1x256, .f32⟩
  | .hbm, ⟨25, _⟩ => ⟨S256, .f32⟩
  | .hbm, ⟨26, _⟩ => ⟨S1x1x256, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S_, .f32⟩
  | .hbm, ⟨33, _⟩ => ⟨S8x2048x256, .f32⟩
  | .hbm, ⟨34, _⟩ => ⟨S8x2048x256, .f32⟩
  | .hbm, ⟨35, _⟩ => ⟨S1x256x256, .f32⟩
  | .hbm, ⟨36, _⟩ => ⟨S256x256, .f32⟩
  | .hbm, ⟨37, _⟩ => ⟨S8x2048x256, .f32⟩
  | .hbm, ⟨38, _⟩ => ⟨S1x256, .f32⟩
  | .hbm, ⟨39, _⟩ => ⟨S256, .f32⟩
  | .hbm, ⟨40, _⟩ => ⟨S1x1x256, .f32⟩
  | .hbm, ⟨41, _⟩ => ⟨S8x2048x256, .f32⟩
  | .hbm, ⟨42, _⟩ => ⟨S8x2048x256, .f32⟩
  | .hbm, ⟨43, _⟩ => ⟨S8x2048x256, .f32⟩
  | .hbm, ⟨44, _⟩ => ⟨S1x256x256, .f32⟩
  | .hbm, ⟨45, _⟩ => ⟨S256x256, .f32⟩
  | .hbm, ⟨46, _⟩ => ⟨S8x2048x256, .f32⟩
  | .hbm, ⟨47, _⟩ => ⟨S1x256, .f32⟩
  | .hbm, ⟨48, _⟩ => ⟨S256, .f32⟩
  | .hbm, ⟨49, _⟩ => ⟨S1x1x256, .f32⟩
  | .hbm, ⟨50, _⟩ => ⟨S8x2048x256, .f32⟩
  | .hbm, ⟨51, _⟩ => ⟨S8x2048x256, .f32⟩
  | .hbm, ⟨52, _⟩ => ⟨S8x2048x256, .f32⟩
  | .hbm, ⟨53, _⟩ => ⟨S8x2048x256, .f32⟩
  | .hbm, ⟨54, _⟩ => ⟨S8x2048x256, .f32⟩
  | .hbm, ⟨55, _⟩ => ⟨S_, .f32⟩
  | .hbm, ⟨56, _⟩ => ⟨S8x2048x256, .f32⟩
  | .hbm, ⟨57, _⟩ => ⟨S8x2048x256, .f32⟩
  | .hbm, ⟨58, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_cst : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_call1_cst : Ref sig .tc := ⟨.hbm, 55, rfl⟩
abbrev main_call1_v0 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S8x2048x1_S8x2048x256_0_1_2 : S8x2048x1.BroadcastsInDim S8x2048x256 (![0, 1, 2] : Fin 3 → Fin S8x2048x256.rank)
  bcast_S_S8x2048x256 : S_.BroadcastsInDim S8x2048x256 (![] : Fin 0 → Fin S8x2048x256.rank)
  slices_S2x256x256_S1x256x256_1_0_0 : S2x256x256.Slices ![1, 0, 0] S1x256x256
  slices_S2x256_S1x256_1_0 : S2x256.Slices ![1, 0] S1x256
  dot_S8x2048x256_S256x256_S8x2048x256_2_1_01_0_n_n_wf : DotDims.WF S8x2048x256 S256x256 S8x2048x256 [2] [1] [0, 1] [0] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.BKit0.lean ====
/-
  (The same statements for the program as printed, read at the word level: nothing here depends on the
  float instance.)
  Region 0 of the program (the first layer's kernel) at any entry contents `V`: each window's block at a grid
  point; the staging and scratch memrefs the body is called with; the body's two branch conditions in closed form
  over the 32 grid points (the point is 4·b + k: the first branch is taken when k = 0, the second when k = 3);
  where the output window is idle; and the region invariant before the first point spelled over the two scratch
  buffers (the accumulator [2048,256] and the row-sum column [2048,1]).
-/
import proofs.«156158_j51213190037828_2_alg».proof.Proof.Gen.Kernel.Launch
import proofs.«156158_j51213190037828_2_alg».proof.Proof.Gen.Kernel.Skeleton
import proofs.«156158_j51213190037828_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Every input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The branch conditions -/

/-- The first branch (reset the row sums, seed the accumulator with the self term): taken when k = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (normalise, clamp at zero, store the output block): taken when k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

abbrev VO0_6 : View sig .tc .vmem S1x2048x256 .f32 := (Memref.whole cc0_stg6_0 : Memref sig .tc .vmem S1x2048x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .f32 := win0_6.stage (cfg0.slots t 6)
abbrev hs0_6 (t : Fin cfg0.N) : (ms0_6 t).IsWhole := hstage0_6 ((cfg0.slots t 6).cast nbuf0_6)
/-- The accumulator and the row-sum column: whole scoped buffers of the kernel's own. -/
abbrev scM0_0 : Memref sig .tc .vmem S2048x256 .f32 := Memref.whole cc0_scratch0
abbrev scM0_1 : Memref sig .tc .vmem S2048x1 .f32 := Memref.whole cc0_scratch1
abbrev VS0_0 : View sig .tc .vmem S2048x256 .f32 := scM0_0.view
abbrev VS0_1 : View sig .tc .vmem S2048x1 .f32 := scM0_1.view

/-- The scoped buffers of the OTHER region (its staging buffers and its two scratch buffers), each whole at some
    contents: region 0 never touches them; they ride through its invariant untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region invariant before the first point: both scratch buffers at some contents, the other region's scoped
    buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.Kernel.Hand

end
-- ==== Proof.BRun0A.lean ====
/-
  (The same statements for the program as printed, read at the word level: nothing here depends on the
  float instance.)
  Region 0's body at the first K-tile (k = 0: the first branch taken, the second not). The row-sum column is
  reset to zero and the accumulator seeded with the self term x·W0ᵀ + b0 before this tile's contribution is added;
  both scratch buffers may hold anything on entry (what the body loads from them before its first store is never
  used), and the output window's buffer is handed back untouched.
-/
import proofs.«156158_j51213190037828_2_alg».proof.Proof.BKit0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) :
    Σ' (L6 : List (View.Piece (Elt F) S1x2048x256 .f32)) (LS0 : List (View.Piece (Elt F) S2048x256 .f32)), { LS1 : List (View.Piece (Elt F) S2048x1 .f32) //
      ∀ (xi6 : Vec F S1x2048x256 .f32) (xs0 : Vec F S2048x256 .f32) (xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨[], ?_, ?_, fun xi6 xs0 xs1 E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.BRun0B.lean ====
/-
  (The same statements for the program as printed, read at the word level: nothing here depends on the
  float instance.)
  Region 0's body at a middle K-tile (k = 1 or 2: neither branch taken). On whole staging memrefs holding the
  input blocks, the accumulator and the row-sum column at what the point before left, the output window's buffer
  at any contents (handed back untouched), the body runs and leaves the accumulator and the row-sum column each
  with its stores written; the stores are found by running the body.
-/
import proofs.«156158_j51213190037828_2_alg».proof.Proof.BKit0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    Σ' (L6 : List (View.Piece (Elt F) S1x2048x256 .f32)) (LS0 : List (View.Piece (Elt F) S2048x256 .f32)), { LS1 : List (View.Piece (Elt F) S2048x1 .f32) //
      ∀ (xi6 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.BRun0C.lean ====
/-
  (The same statements for the program as printed, read at the word level: nothing here depends on the
  float instance.)
  Region 0's body at the last K-tile (k = 3: the first branch not taken, the second taken). After this tile's
  contribution is added, the output block is stored: the accumulator divided row by row by (row sum + 1), clamped
  below at zero. The output window's buffer may hold anything on entry.
-/
import proofs.«156158_j51213190037828_2_alg».proof.Proof.BKit0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    Σ' (L6 : List (View.Piece (Elt F) S1x2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Hand

end
-- ==== Proof.BPieces0.lean ====
/-
  (The same statements for the program as printed, read at the word level: nothing here depends on the
  float instance.)
  Region 0: what each case of the body leaves in the output window's staging buffer, in the accumulator and in the
  row-sum column — the case's stores read back — and that the stores into a buffer cover it.
-/
import proofs.«156158_j51213190037828_2_alg».proof.Proof.BRun0A
import proofs.«156158_j51213190037828_2_alg».proof.Proof.BRun0B
import proofs.«156158_j51213190037828_2_alg».proof.Proof.BRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- What case A leaves in the output window's staging buffer: its stores read back (none: the window is idle there, and nothing consults this). -/
def out0_A_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S1x2048x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
/-- Case A's stores into the accumulator cover it. -/
theorem scover0_A_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (y : S2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S2048x256.size (by sl_kernel_rfl) y
/-- What case A leaves in the accumulator. -/
def sout0_A_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S2048x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)
/-- Case A's stores into the row-sum column cover it. -/
theorem scover0_A_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S2048x1.size (by sl_kernel_rfl) y
/-- What case A leaves in the row-sum column. -/
def sout0_A_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What case B leaves in the output window's staging buffer: its stores read back (none: the window is idle there, and nothing consults this). -/
def out0_B_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S1x2048x256 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)
/-- Case B's stores into the accumulator cover it. -/
theorem scover0_B_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S2048x256.size (by sl_kernel_rfl) y
/-- What case B leaves in the accumulator. -/
def sout0_B_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)
/-- Case B's stores into the row-sum column cover it. -/
theorem scover0_B_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S2048x1.size (by sl_kernel_rfl) y
/-- What case B leaves in the row-sum column. -/
def sout0_B_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What case C leaves in the output window's staging buffer: its stores read back. -/
def out0_C_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S1x2048x256 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)
/-- Case C's stores into the accumulator cover it. -/
theorem scover0_C_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S2048x256.size (by sl_kernel_rfl) y
/-- What case C leaves in the accumulator. -/
def sout0_C_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
/-- Case C's stores into the row-sum column cover it. -/
theorem scover0_C_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S2048x1.size (by sl_kernel_rfl) y
/-- What case C leaves in the row-sum column. -/
def sout0_C_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-- Case C's store into the output window's buffer covers it. -/
theorem cover0_C_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1x2048x256.size (by sl_kernel_rfl) y

end Cert.Kernel.Hand

end
-- ==== Proof.BFrame0.lean ====
/-
  (The same statements for the program as printed, read at the word level: nothing here depends on the
  float instance.)
  Region 0: the contents of the output window's buffer and of the two scratch buffers after every grid point (a
  recursion over the 32 points: per graph b, tile k = 0 resets and seeds, k = 1, 2 accumulate, k = 3 accumulates and
  writes the normalised, clamped output block), the region's invariant carrying both scratch buffers from point to
  point, its proof data, and the body obligation at a generic point by cases on k.
-/
import proofs.«156158_j51213190037828_2_alg».proof.Proof.BPieces0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- THE ACCUMULATION over the grid: what the output window's buffer, the accumulator and the row-sum column hold
    after the body at position `n` — the case the closed forms select (k = n mod 4: first tile, middle tile, last
    tile), run at the point's memrefs and input blocks, the two scratch buffers entering a middle or last tile at
    what position `n - 1` left. -/
def outsAt0 (c : Dev nD) : (n : ℕ) → n < cfg0.N → Vec F S1x2048x256 .f32 × Vec F S2048x256 .f32 × Vec F S2048x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the windows do not stage
    at anything; afterwards the accumulator and the row-sum column at what the point before left, the other region's
    scoped buffers and the generator register riding along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- The proof data of region 0 on core `c`: the arrays as the region finds them; after the body at point `t` each
    input's buffer at its block and the output's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in;
    the case's run applies; the invariant hands the body the two scratch buffers at what the point before left (at
    anything before the first point) and takes them back at this point's contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨%ds0, HS0⟩, ⟨%ds1, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1; (try dsimp only)
      by_cases hz : t.val = 0
      · exfalso; omega
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Region0

end Cert.Kernel.Hand

end
-- ==== Proof.BKit1.lean ====
/-
  (The same statements for the program as printed, read at the word level: nothing here depends on the
  float instance.)
  Region 1 of the program (the second layer's kernel, which also adds the original node features) at any entry
  contents `V`: each window's block at a grid point; the staging and scratch memrefs the body is called with; the
  body's two branch conditions in closed form over the 32 grid points (the point is 4·b + k: the first branch is
  taken when k = 0, the second when k = 3); where the output window is idle; and the region invariant before the
  first point split into the two scratch buffers, the other region's scoped buffers and the generator register.
-/
import proofs.«156158_j51213190037828_2_alg».proof.Proof.Gen.Kernel.Launch
import proofs.«156158_j51213190037828_2_alg».proof.Proof.Gen.Kernel.Skeleton
import proofs.«156158_j51213190037828_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The memrefs the body is called with -/

abbrev VO1_7 : View sig .tc .vmem S1x2048x256 .f32 := (Memref.whole cc1_stg7_0 : Memref sig .tc .vmem S1x2048x256 .f32).view
abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2048x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x256 .f32 := win1_7.stage (cfg1.slots t 7)
abbrev hs1_7 (t : Fin cfg1.N) : (ms1_7 t).IsWhole := hstage1_7 ((cfg1.slots t 7).cast nbuf1_7)
abbrev scM1_0 : Memref sig .tc .vmem S2048x256 .f32 := Memref.whole cc1_scratch0
abbrev scM1_1 : Memref sig .tc .vmem S2048x1 .f32 := Memref.whole cc1_scratch1
abbrev VS1_0 : View sig .tc .vmem S2048x256 .f32 := scM1_0.view
abbrev VS1_1 : View sig .tc .vmem S2048x1 .f32 := scM1_1.view

/-- The scoped buffers of the OTHER region (its staging buffers and its two scratch buffers), each whole at some
    contents: region 1 never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_raw (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The invariant before the first point, split: both scratch buffers at some contents, the other region's scoped
    buffers, the generator register at some state. -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ rest1 c) ∗ (∃ r, prngReg c r)) := by
  rw [PhiA1_raw]; unfold rest1
  iintro ⟨⟨R0, R1, R2, R3, R4, R5, R6, R7, R8, R9, R10, R11, HS0, HS1⟩, Hg⟩
  isplitr [Hg]
  · isplitl [HS0]; · iexact HS0
    isplitl [HS1]; · iexact HS1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

/-- And joined again. -/
theorem PhiA1_join (c : Dev nD) :
    iprop(iprop((∃ d, owns (c : Thread nD τ) scM1_0 fullShare d) ∗ (∃ d, owns (c : Thread nD τ) scM1_1 fullShare d) ∗ rest1 c) ∗ (∃ r, prngReg c r))
      ⊢ (Pipeline.ΦA spec1 c : sProp 𝕄) := by
  rw [PhiA1_raw]; unfold rest1
  iintro ⟨⟨HS0, HS1, R0, R1, R2, R3, R4, R5, R6, R7, R8, R9, R10, R11⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    iexact HS1
  iexact Hg

end Cert.Kernel.Hand

end
-- ==== Proof.BRun1A.lean ====
/-
  (The same statements for the program as printed, read at the word level: nothing here depends on the
  float instance.)
  Region 1's body at the first K-tile (k = 0: the first branch taken, the second not). The row-sum column is
  reset to zero and the accumulator seeded with the self term x·W0ᵀ + b0 before this tile's contribution is added;
  both scratch buffers may hold anything on entry (what the body loads from them before its first store is never
  used), and the output window's buffer is handed back untouched.
-/
import proofs.«156158_j51213190037828_2_alg».proof.Proof.BKit1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) :
    Σ' (L7 : List (View.Piece (Elt F) S1x2048x256 .f32)) (LS0 : List (View.Piece (Elt F) S2048x256 .f32)), { LS1 : List (View.Piece (Elt F) S2048x1 .f32) //
      ∀ (xi : Vec F S1x2048x256 .f32) (xs0 : Vec F S2048x256 .f32) (xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨[], ?_, ?_, fun xi xs0 xs1 E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    isplitl [HS0]; · iexists _; iexact HS0
    iexists _; iexact HS1

end Cert.Kernel.Hand

end
-- ==== Proof.BRun1B.lean ====
/-
  (The same statements for the program as printed, read at the word level: nothing here depends on the
  float instance.)
  Region 1's body at a middle K-tile (k = 1 or 2: neither branch taken). On whole staging memrefs holding the
  input blocks, the accumulator and the row-sum column at what the point before left, the output window's buffer
  at any contents (handed back untouched), the body runs and leaves the accumulator and the row-sum column each
  with its stores written; the stores are found by running the body.
-/
import proofs.«156158_j51213190037828_2_alg».proof.Proof.BKit1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    Σ' (L7 : List (View.Piece (Elt F) S1x2048x256 .f32)) (LS0 : List (View.Piece (Elt F) S2048x256 .f32)), { LS1 : List (View.Piece (Elt F) S2048x1 .f32) //
      ∀ (xi : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨[], ?_, ?_, fun xi E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfo; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    isplitl [HS0]; · iexists _; iexact HS0
    iexists _; iexact HS1

end Cert.Kernel.Hand

end
-- ==== Proof.BRun1C.lean ====
/-
  (The same statements for the program as printed, read at the word level: nothing here depends on the
  float instance.)
  Region 1's body at the last K-tile (k = 3: the first branch not taken, the second taken). After this tile's
  contribution is added, the output block is stored: the accumulator divided row by row by (row sum + 1), clamped
  below at zero, added to the block of the original node features. The output window's buffer may hold anything on entry.
-/
import proofs.«156158_j51213190037828_2_alg».proof.Proof.BKit1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    Σ' (L7 : List (View.Piece (Elt F) S1x2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    isplitl [HS0]; · iexists _; iexact HS0
    iexists _; iexact HS1

end Cert.Kernel.Hand

end
-- ==== Proof.BPieces1.lean ====
/-
  (The same statements for the program as printed, read at the word level: nothing here depends on the
  float instance.)
  Region 1: what each case of the body leaves in the output window's staging buffer, in the accumulator and in the
  row-sum column — the case's stores read back — and that the stores into a buffer cover it.
-/
import proofs.«156158_j51213190037828_2_alg».proof.Proof.BRun1A
import proofs.«156158_j51213190037828_2_alg».proof.Proof.BRun1B
import proofs.«156158_j51213190037828_2_alg».proof.Proof.BRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

def out1_A_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S1x2048x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)
theorem scover1_A_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S2048x256.size (by sl_kernel_rfl) y
def sout1_A_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S2048x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)
theorem scover1_A_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S2048x1.size (by sl_kernel_rfl) y
def sout1_A_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

def out1_B_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S1x2048x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).1)
theorem scover1_B_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x256.size (by sl_kernel_rfl) y
def sout1_B_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1)
theorem scover1_B_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S2048x1.size (by sl_kernel_rfl) y
def sout1_B_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

def out1_C_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S1x2048x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1)
theorem scover1_C_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x256.size (by sl_kernel_rfl) y
def sout1_C_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)
theorem scover1_C_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S2048x1.size (by sl_kernel_rfl) y
def sout1_C_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

theorem cover1_C_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S1x2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1x2048x256.size (by sl_kernel_rfl) y

end Cert.Kernel.Hand

end
-- ==== Proof.BFrame1.lean ====
/-
  (The same statements for the program as printed, read at the word level: nothing here depends on the
  float instance.)
  Region 1: the contents of the output window's buffer and of the two scratch buffers after every grid point (a
  recursion over the 32 points: per graph b, tile k = 0 resets and seeds, k = 1, 2 accumulate, k = 3 accumulates and
  writes the output block), the region's invariant carrying both scratch buffers from point to point, its proof
  data, and the body obligation at a generic point by cases on k.
-/
import proofs.«156158_j51213190037828_2_alg».proof.Proof.BPieces1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

def outsAt1 (c : Dev nD) : (n : ℕ) → n < cfg1.N → Vec F S1x2048x256 .f32 × Vec F S2048x256 .f32 × Vec F S2048x1 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ rest1 c) ∗ (∃ r, prngReg c r)) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1; (try dsimp only)
      by_cases hz : t.val = 0
      ·
        rw [PhiS1_castSucc V c t, PhiS1_zero V c _ _ hz]
        refine (sep_mono (PhiA1_split c) .rfl).trans ?_
        iintro ⟨⟨⟨⟨%ds0, HS0⟩, ⟨%ds1, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0 sout1_C_1; (try dsimp only)
      by_cases hz : t.val = 0
      · exfalso; omega
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexists _; iexact HO
        isplitl [HS0]; · iexact HS0
        isplitl [HS1]; · iexact HS1
        iintro ⟨H0, H1, H2, H3, H4, H5, H6, ⟨%eO, HO⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact HO
        ipureintro; exact View.read_writes_of_cover _ _ _ _ _ (cover1_C_7 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join c)
  iintro ⟨⟨HS0, HS1, Hr⟩, Hg⟩
  isplitl [HS0 HS1 Hr]
  · isplitl [HS0]; · iexists _; iexact HS0
    isplitl [HS1]; · iexists _; iexact HS1
    iexact Hr
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.BMainRun.lean ====
/-
  (The same statements for the program as printed, read at the word level: nothing here depends on the
  float instance.)
  The whole program: the contents of the unscoped buffers at each boundary of @main — the launch memory, after the
  first stretch of host operations (the weights transposed, sliced and reshaped), after the first kernel region (its
  output array at what its write-backs leave), after the second stretch, after the second region — each region as a
  segment over those contents, and the run: every weakly fair execution terminates, the result buffer ends at what
  the second region's write-backs leave, and each argument array ends as launched.
-/
import proofs.«156158_j51213190037828_2_alg».proof.Proof.BFrame0
import proofs.«156158_j51213190037828_2_alg».proof.Proof.BFrame1
import proofs.«156158_j51213190037828_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

abbrev W0 (c : Dev nD) : Valuation τ sig (Elt F) := fun b => m (c, b)
abbrev V0 : (c : Dev nD) → (b : Ref sig .tc) → Buf (Elt F) ((c : Thread nD τ).loc b) := fun c b => W0 m c b
/-- After the first host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 6).trans (((dat1 (V3 m) c).arrAt_in 6 rfl _).trans (A_eq1 (V3 m) c 6))
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result buffer ends at what region 1's write-backs leave in its output array. -/
theorem W4_main_v21 (c : Dev nD) : W4 m c (Proc.devRef .tc main_v21) = (dat1 (V3 m) c).arrAt 7 cfg1.N := W4_arr m c 7

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at the boundary's contents, left at the
    next boundary's. Its arrays split out of the unscoped buffers and put back at the exit contents; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left at the
    next boundary's. Its arrays split out of the unscoped buffers and put back at the exit contents; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine (hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any `F`: from any memory with zero counters every weakly fair execution of @main terminates, nothing
    faulting; the result buffer ends at what region 1's write-backs leave, each argument array as launched. -/
theorem run_main : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v21 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

/-- THE FRAME, at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.Kit0.lean ====
/-
  Region 0 of the program (the first layer's kernel) at any entry contents `V`: each window's block at a grid
  point; the staging and scratch memrefs the body is called with; the body's two branch conditions in closed form
  over the 32 grid points (the point is 4·b + k: the first branch is taken when k = 0, the second when k = 3);
  where the output window is idle; and the region invariant before the first point spelled over the two scratch
  buffers (the accumulator [2048,256] and the row-sum column [2048,1]).
-/
import proofs.«156158_j51213190037828_2_alg».proof.Proof.Gen.KernelIdeal.Launch
import proofs.«156158_j51213190037828_2_alg».proof.Proof.Gen.KernelIdeal.Skeleton
import proofs.«156158_j51213190037828_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Every input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The branch conditions -/

/-- The first branch (reset the row sums, seed the accumulator with the self term): taken when k = 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second branch (normalise, clamp at zero, store the output block): taken when k = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

abbrev VO0_6 : View sig .tc .vmem S1x2048x256 .f32 := (Memref.whole cc0_stg6_0 : Memref sig .tc .vmem S1x2048x256 .f32).view
abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x256 .f32 := win0_6.stage (cfg0.slots t 6)
abbrev hs0_6 (t : Fin cfg0.N) : (ms0_6 t).IsWhole := hstage0_6 ((cfg0.slots t 6).cast nbuf0_6)
/-- The accumulator and the row-sum column: whole scoped buffers of the kernel's own. -/
abbrev scM0_0 : Memref sig .tc .vmem S2048x256 .f32 := Memref.whole cc0_scratch0
abbrev scM0_1 : Memref sig .tc .vmem S2048x1 .f32 := Memref.whole cc0_scratch1
abbrev VS0_0 : View sig .tc .vmem S2048x256 .f32 := scM0_0.view
abbrev VS0_1 : View sig .tc .vmem S2048x1 .f32 := scM0_1.view

/-- The scoped buffers of the OTHER region (its staging buffers and its two scratch buffers), each whole at some
    contents: region 0 never touches them; they ride through its invariant untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region invariant before the first point: both scratch buffers at some contents, the other region's scoped
    buffers, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

end Cert.KernelIdeal.Hand

end
-- ==== Proof.Run0A.lean ====
/-
  Region 0's body at the first K-tile (k = 0: the first branch taken, the second not). The row-sum column is
  reset to zero and the accumulator seeded with the self term x·W0ᵀ + b0 before this tile's contribution is added;
  both scratch buffers may hold anything on entry (what the body loads from them before its first store is never
  used), and the output window's buffer is handed back untouched.
-/
import proofs.«156158_j51213190037828_2_alg».proof.Proof.Kit0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_A (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) :
    Σ' (L6 : List (View.Piece (Elt F) S1x2048x256 .f32)) (LS0 : List (View.Piece (Elt F) S2048x256 .f32)), { LS1 : List (View.Piece (Elt F) S2048x1 .f32) //
      ∀ (xi6 : Vec F S1x2048x256 .f32) (xs0 : Vec F S2048x256 .f32) (xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨[], ?_, ?_, fun xi6 xs0 xs1 E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.Run0B.lean ====
/-
  Region 0's body at a middle K-tile (k = 1 or 2: neither branch taken). On whole staging memrefs holding the
  input blocks, the accumulator and the row-sum column at what the point before left, the output window's buffer
  at any contents (handed back untouched), the body runs and leaves the accumulator and the row-sum column each
  with its stores written; the stores are found by running the body.
-/
import proofs.«156158_j51213190037828_2_alg».proof.Proof.Kit0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_B (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    Σ' (L6 : List (View.Piece (Elt F) S1x2048x256 .f32)) (LS0 : List (View.Piece (Elt F) S2048x256 .f32)), { LS1 : List (View.Piece (Elt F) S2048x1 .f32) //
      ∀ (xi6 : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.Run0C.lean ====
/-
  Region 0's body at the last K-tile (k = 3: the first branch not taken, the second taken). After this tile's
  contribution is added, the output block is stored: the accumulator divided row by row by (row sum + 1), clamped
  below at zero. The output window's buffer may hold anything on entry.
-/
import proofs.«156158_j51213190037828_2_alg».proof.Proof.Kit0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun0_C (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    Σ' (L6 : List (View.Piece (Elt F) S1x2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gcn_layer_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gcn_layer_kernel_eq_skeleton]; unfold cc0__gcn_layer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Hand

end
-- ==== Proof.Pieces0.lean ====
/-
  Region 0: what each case of the body leaves in the output window's staging buffer, in the accumulator and in the
  row-sum column — the case's stores read back — and that the stores into a buffer cover it.
-/
import proofs.«156158_j51213190037828_2_alg».proof.Proof.Run0A
import proofs.«156158_j51213190037828_2_alg».proof.Proof.Run0B
import proofs.«156158_j51213190037828_2_alg».proof.Proof.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What case A leaves in the output window's staging buffer: its stores read back (none: the window is idle there, and nothing consults this). -/
def out0_A_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S1x2048x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
/-- Case A's stores into the accumulator cover it. -/
theorem scover0_A_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (y : S2048x256.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S2048x256.size (by sl_kernel_rfl) y
/-- What case A leaves in the accumulator. -/
def sout0_A_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S2048x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)
/-- Case A's stores into the row-sum column cover it. -/
theorem scover0_A_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (y : S2048x1.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S2048x1.size (by sl_kernel_rfl) y
/-- What case A leaves in the row-sum column. -/
def sout0_A_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What case B leaves in the output window's staging buffer: its stores read back (none: the window is idle there, and nothing consults this). -/
def out0_B_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S1x2048x256 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)
/-- Case B's stores into the accumulator cover it. -/
theorem scover0_B_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x256.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S2048x256.size (by sl_kernel_rfl) y
/-- What case B leaves in the accumulator. -/
def sout0_B_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)
/-- Case B's stores into the row-sum column cover it. -/
theorem scover0_B_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S2048x1.size (by sl_kernel_rfl) y
/-- What case B leaves in the row-sum column. -/
def sout0_B_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What case C leaves in the output window's staging buffer: its stores read back. -/
def out0_C_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S1x2048x256 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)
/-- Case C's stores into the accumulator cover it. -/
theorem scover0_C_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S2048x256.size (by sl_kernel_rfl) y
/-- What case C leaves in the accumulator. -/
def sout0_C_0 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)
/-- Case C's stores into the row-sum column cover it. -/
theorem scover0_C_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S2048x1.size (by sl_kernel_rfl) y
/-- What case C leaves in the row-sum column. -/
def sout0_C_1 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-- Case C's store into the output window's buffer covers it. -/
theorem cover0_C_6 (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) (y : S1x2048x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1x2048x256.size (by sl_kernel_rfl) y

end Cert.KernelIdeal.Hand

end
-- ==== Proof.Frame0.lean ====
/-
  Region 0: the contents of the output window's buffer and of the two scratch buffers after every grid point (a
  recursion over the 32 points: per graph b, tile k = 0 resets and seeds, k = 1, 2 accumulate, k = 3 accumulates and
  writes the normalised, clamped output block), the region's invariant carrying both scratch buffers from point to
  point, its proof data, and the body obligation at a generic point by cases on k.
-/
import proofs.«156158_j51213190037828_2_alg».proof.Proof.Pieces0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- THE ACCUMULATION over the grid: what the output window's buffer, the accumulator and the row-sum column hold
    after the body at position `n` — the case the closed forms select (k = n mod 4: first tile, middle tile, last
    tile), run at the point's memrefs and input blocks, the two scratch buffers entering a middle or last tile at
    what position `n - 1` left. -/
def outsAt0 (c : Dev nD) : (n : ℕ) → n < cfg0.N → Vec F S1x2048x256 .f32 × Vec F S2048x256 .f32 × Vec F S2048x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point every scoped buffer the windows do not stage
    at anything; afterwards the accumulator and the row-sum column at what the point before left, the other region's
    scoped buffers and the generator register riding along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ rest0 c) ∗ (∃ r, prngReg c r)) := by
  cases n with
  | zero => exact absurd rfl hz
  | succ n => rfl

/-- The proof data of region 0 on core `c`: the arrays as the region finds them; after the body at point `t` each
    input's buffer at its block and the output's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the closed forms say which case the point is in;
    the case's run applies; the invariant hands the body the two scratch buffers at what the point before left (at
    anything before the first point) and takes them back at this point's contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0 sout0_A_1; (try dsimp only)
      by_cases hz : t.val = 0
      ·
        rw [PhiS0_castSucc V c t, PhiS0_zero V c _ _ hz, PhiA0_eq]
        iintro ⟨⟨⟨⟨%ds0, HS0⟩, ⟨%ds1, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0 sout0_C_1; (try dsimp only)
      by_cases hz : t.val = 0
      · exfalso; omega
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      ·
        rw [PhiS0_castSucc V c t, PhiS0_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the scratch contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hr⟩, Hg⟩
  isplitl [HS0 HS1 Hr]
  · isplitl [HS0]; · iexists _; iexact HS0
    isplitl [HS1]; · iexists _; iexact HS1
    iexact Hr
  iexact Hg

theorem hout0 (c : Dev nD) : (dat0 V c).Φ (Fin.last cfg0.N) ⊢ Pipeline.ΦA spec0 c :=
  Phi_out0 V c _ (by rw [Fin.val_last]; have : cfg0.N = 32 := N_0; omega)

end Region0

end Cert.KernelIdeal.Hand

end
-- ==== Proof.Kit1.lean ====
/-
  Region 1 of the program (the second layer's kernel, which also adds the original node features) at any entry
  contents `V`: each window's block at a grid point; the staging and scratch memrefs the body is called with; the
  body's two branch conditions in closed form over the 32 grid points (the point is 4·b + k: the first branch is
  taken when k = 0, the second when k = 3); where the output window is idle; and the region invariant before the
  first point split into the two scratch buffers, the other region's scoped buffers and the generator register.
-/
import proofs.«156158_j51213190037828_2_alg».proof.Proof.Gen.KernelIdeal.Launch
import proofs.«156158_j51213190037828_2_alg».proof.Proof.Gen.KernelIdeal.Skeleton
import proofs.«156158_j51213190037828_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The branch conditions -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The memrefs the body is called with -/

abbrev VO1_7 : View sig .tc .vmem S1x2048x256 .f32 := (Memref.whole cc1_stg7_0 : Memref sig .tc .vmem S1x2048x256 .f32).view
abbrev ms1_0 (t : Fin cfg1.N) : Memref sig .tc .vmem S1x2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2048x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x256 .f32 := win1_7.stage (cfg1.slots t 7)
abbrev hs1_7 (t : Fin cfg1.N) : (ms1_7 t).IsWhole := hstage1_7 ((cfg1.slots t 7).cast nbuf1_7)
abbrev scM1_0 : Memref sig .tc .vmem S2048x256 .f32 := Memref.whole cc1_scratch0
abbrev scM1_1 : Memref sig .tc .vmem S2048x1 .f32 := Memref.whole cc1_scratch1
abbrev VS1_0 : View sig .tc .vmem S2048x256 .f32 := scM1_0.view
abbrev VS1_1 : View sig .tc .vmem S2048x1 .f32 := scM1_1.view

/-- The scoped buffers of the OTHER region (its staging buffers and its two scratch buffers), each whole at some
    contents: region 1 never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem PhiA1_raw (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The invariant before the first point, split: both scratch buffers at some contents, the other region's scoped
    buffers, the generator register at some state. -/
theorem PhiA1_split (c : Dev nD) :
    (Pipeline.ΦA spec1 c : sProp 𝕄)
      ⊢ iprop(iprop((∃ d, owns (c : Thread nD τ) scM1_0 fullShare d) ∗ (∃ d, owns (c : Thread nD τ) scM1_1 fullShare d) ∗ rest1 c) ∗ (∃ r, prngReg c r)) := by
  rw [PhiA1_raw]; unfold rest1
  iintro ⟨⟨R0, R1, R2, R3, R4, R5, R6, R7, R8, R9, R10, R11, HS0, HS1⟩, Hg⟩
  isplitr [Hg]
  · isplitl [HS0]; · iexact HS0
    isplitl [HS1]; · iexact HS1
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    iexact R11
  iexact Hg

/-- And joined again. -/
theorem PhiA1_join (c : Dev nD) :
    iprop(iprop((∃ d, owns (c : Thread nD τ) scM1_0 fullShare d) ∗ (∃ d, owns (c : Thread nD τ) scM1_1 fullShare d) ∗ rest1 c) ∗ (∃ r, prngReg c r))
      ⊢ (Pipeline.ΦA spec1 c : sProp 𝕄) := by
  rw [PhiA1_raw]; unfold rest1
  iintro ⟨⟨HS0, HS1, R0, R1, R2, R3, R4, R5, R6, R7, R8, R9, R10, R11⟩, Hg⟩
  isplitr [Hg]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [HS0]; · iexact HS0
    iexact HS1
  iexact Hg

end Cert.KernelIdeal.Hand

end
-- ==== Proof.Run1A.lean ====
/-
  Region 1's body at the first K-tile (k = 0: the first branch taken, the second not). The row-sum column is
  reset to zero and the accumulator seeded with the self term x·W0ᵀ + b0 before this tile's contribution is added;
  both scratch buffers may hold anything on entry (what the body loads from them before its first store is never
  used), and the output window's buffer is handed back untouched.
-/
import proofs.«156158_j51213190037828_2_alg».proof.Proof.Kit1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_A (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) :
    Σ' (L7 : List (View.Piece (Elt F) S1x2048x256 .f32)) (LS0 : List (View.Piece (Elt F) S2048x256 .f32)), { LS1 : List (View.Piece (Elt F) S2048x1 .f32) //
      ∀ (xi : Vec F S1x2048x256 .f32) (xs0 : Vec F S2048x256 .f32) (xs1 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨[], ?_, ?_, fun xi xs0 xs1 E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    isplitl [HS0]; · iexists _; iexact HS0
    iexists _; iexact HS1

end Cert.KernelIdeal.Hand

end
-- ==== Proof.Run1B.lean ====
/-
  Region 1's body at a middle K-tile (k = 1 or 2: neither branch taken). On whole staging memrefs holding the
  input blocks, the accumulator and the row-sum column at what the point before left, the output window's buffer
  at any contents (handed back untouched), the body runs and leaves the accumulator and the row-sum column each
  with its stores written; the stores are found by running the body.
-/
import proofs.«156158_j51213190037828_2_alg».proof.Proof.Kit1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_B (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    Σ' (L7 : List (View.Piece (Elt F) S1x2048x256 .f32)) (LS0 : List (View.Piece (Elt F) S2048x256 .f32)), { LS1 : List (View.Piece (Elt F) S2048x1 .f32) //
      ∀ (xi : Vec F S1x2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨[], ?_, ?_, fun xi E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fo, %hfo, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hfo; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]
    · iexists _; isplitr; · ipureintro; exact harg9.read_unread _
      iexact HO
    isplitl [HS0]; · iexists _; iexact HS0
    iexists _; iexact HS1

end Cert.KernelIdeal.Hand

end
-- ==== Proof.Run1C.lean ====
/-
  Region 1's body at the last K-tile (k = 3: the first branch not taken, the second taken). After this tile's
  contribution is added, the output block is stored: the accumulator divided row by row by (row sum + 1), clamped
  below at zero, added to the block of the original node features. The output window's buffer may hold anything on entry.
-/
import proofs.«156158_j51213190037828_2_alg».proof.Proof.Kit1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 4000000 in
noncomputable def kernelRun1_C (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    Σ' (L7 : List (View.Piece (Elt F) S1x2048x256 .f32)) (LS0 : List (View.Piece (Elt F) S2048x256 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__gcn_layer_kernel_residual i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__gcn_layer_kernel_residual_eq_skeleton]; unfold cc1__gcn_layer_kernel_residual_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%dO, %fo, -, HO⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HO]; · iexists _; iexact HO
    isplitl [HS0]; · iexists _; iexact HS0
    iexists _; iexact HS1

end Cert.KernelIdeal.Hand

end
-- ==== Proof.Pieces1.lean ====
/-
  Region 1: what each case of the body leaves in the output window's staging buffer, in the accumulator and in the
  row-sum column — the case's stores read back — and that the stores into a buffer cover it.
-/
import proofs.«156158_j51213190037828_2_alg».proof.Proof.Run1A
import proofs.«156158_j51213190037828_2_alg».proof.Proof.Run1B
import proofs.«156158_j51213190037828_2_alg».proof.Proof.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

def out1_A_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S1x2048x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 hc1 x0 x1 x2 x3 x4 x5 x6).1)
theorem scover1_A_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (y : S2048x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S2048x256.size (by sl_kernel_rfl) y
def sout1_A_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S2048x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.1)
theorem scover1_A_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (y : S2048x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S2048x1.size (by sl_kernel_rfl) y
def sout1_A_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) : Vec F S2048x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1)

def out1_B_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S1x2048x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).1)
theorem scover1_B_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x256.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x256.size (by sl_kernel_rfl) y
def sout1_B_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.1)
theorem scover1_B_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S2048x1.size (by sl_kernel_rfl) y
def sout1_B_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

def out1_C_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S1x2048x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1)
theorem scover1_C_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1 S2048x256.size (by sl_kernel_rfl) y
def sout1_C_0 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.1)
theorem scover1_C_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S2048x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1 S2048x1.size (by sl_kernel_rfl) y
def sout1_C_1 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).2.2.1)

theorem cover1_C_7 (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) (y : S1x2048x256.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 xs0 xs1).1 S1x2048x256.size (by sl_kernel_rfl) y

end Cert.KernelIdeal.Hand

end
-- ==== Proof.Frame1.lean ====
/-
  Region 1: the contents of the output window's buffer and of the two scratch buffers after every grid point (a
  recursion over the 32 points: per graph b, tile k = 0 resets and seeds, k = 1, 2 accumulate, k = 3 accumulates and
  writes the output block), the region's invariant carrying both scratch buffers from point to point, its proof
  data, and the body obligation at a generic point by cases on k.
-/
import proofs.«156158_j51213190037828_2_alg».proof.Proof.Pieces1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

def outsAt1 (c : Dev nD) : (n : ℕ) → n < cfg1.N → Vec F S1x2048x256 .f32 × Vec F S2048x256 .f32 × Vec F S2048x1 .f32
  | 0, hn => (out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 4 = 0 then
      if h1 : (n + 1) % 4 = 3 then
        False.elim (by omega)
      else
        (out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)
      else
        (out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.1 (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ rest1 c) ∗ (∃ r, prngReg c r)) := by
  cases n with
  | zero => exact absurd rfl hz
  | succ n => rfl

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0 sout1_A_1; (try dsimp only)
      by_cases hz : t.val = 0
      ·
        rw [PhiS1_castSucc V c t, PhiS1_zero V c _ _ hz]
        refine (sep_mono (PhiA1_split c) .rfl).trans ?_
        iintro ⟨⟨⟨⟨%ds0, HS0⟩, ⟨%ds1, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0 sout1_C_1; (try dsimp only)
      by_cases hz : t.val = 0
      · exfalso; omega
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexists _; iexact HO
        isplitl [HS0]; · iexact HS0
        isplitl [HS1]; · iexact HS1
        iintro ⟨H0, H1, H2, H3, H4, H5, H6, ⟨%eO, HO⟩, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact HO
        ipureintro; exact View.read_writes_of_cover _ _ _ _ _ (cover1_C_7 c _ _ _ _ _ _ _ _ _ _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t], after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0 sout1_B_1; (try dsimp only)
      by_cases hz : t.val = 0
      · exfalso; omega
      ·
        rw [PhiS1_castSucc V c t, PhiS1_pos V c _ _ hz]
        iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%dO, HO⟩⟩
        iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HO]; · iexact HO
        isplitl [HS0]; · iexact HS0
        isplitl [HS1]; · iexact HS1
        iintro ⟨H0, H1, H2, H3, H4, H5, H6, HO, ⟨%es0, HS0⟩, ⟨%es1, HS1⟩⟩
        isplitl [HS0 HS1 Hr Hg]
        · isplitl [HS0 HS1 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact HO

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join c)
  iintro ⟨⟨HS0, HS1, Hr⟩, Hg⟩
  isplitl [HS0 HS1 Hr]
  · isplitl [HS0]; · iexists _; iexact HS0
    isplitl [HS1]; · iexists _; iexact HS1
    iexact Hr
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.MainRun.lean ====
/-
  The whole program: the contents of the unscoped buffers at each boundary of @main — the launch memory, after the
  first stretch of host operations (the weights transposed, sliced and reshaped), after the first kernel region (its
  output array at what its write-backs leave), after the second stretch, after the second region — each region as a
  segment over those contents, and the run: every weakly fair execution terminates, the result buffer ends at what
  the second region's write-backs leave, and each argument array ends as launched.
-/
import proofs.«156158_j51213190037828_2_alg».proof.Proof.Frame0
import proofs.«156158_j51213190037828_2_alg».proof.Proof.Frame1
import proofs.«156158_j51213190037828_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

abbrev W0 (c : Dev nD) : Valuation τ sig (Elt F) := fun b => m (c, b)
abbrev V0 : (c : Dev nD) → (b : Ref sig .tc) → Buf (Elt F) ((c : Thread nD τ).loc b) := fun c b => W0 m c b
/-- After the first host stretch. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- After region 1. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation and no region writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 6).trans (((dat1 (V3 m) c).arrAt_in 6 rfl _).trans (A_eq1 (V3 m) c 6))
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_writes_sub hostOps1 _ hostOps1_writes (by decide)
    _ = W1 m c (Proc.devRef .tc main_arg1) := (W2_arr m c 1).trans (((dat0 (V1 m) c).arrAt_in 1 rfl _).trans (A_eq0 (V1 m) c 1))
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- The result buffer ends at what region 1's write-backs leave in its output array. -/
theorem W4_main_v21 (c : Dev nD) : W4 m c (Proc.devRef .tc main_v21) = (dat1 (V3 m) c).arrAt 7 cfg1.N := W4_arr m c 7

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- REGION 0 over the thread state: entered from every unscoped buffer at the boundary's contents, left at the
    next boundary's. Its arrays split out of the unscoped buffers and put back at the exit contents; the generator
    register into the region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine (hout0 (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left at the
    next boundary's. Its arrays split out of the unscoped buffers and put back at the exit contents; the generator
    register into the region's invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    refine (hout1 (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any `F`: from any memory with zero counters every weakly fair execution of @main terminates, nothing
    faulting; the result buffer ends at what region 1's write-backs leave, each argument array as launched. -/
theorem run_main : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v21 (by decide)),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c)⟩)

/-- THE FRAME, at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.PieceVal0.lean ====
/-
  Region 0: what each case of the body leaves in its buffers, as the body's named payloads of the blocks it loads.
-/
import proofs.«156158_j51213190037828_2_alg».proof.Proof.Pieces0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access of rank two, as the constant function. -/
theorem offs_zero2 : (![0, 0] : Fin 2 → Nat) = fun _ => 0 := funext fun a => by fin_cases a <;> rfl
/-- The zero offsets of a whole-buffer access of rank three, as the constant function. -/
theorem offs_zero3 : (![0, 0, 0] : Fin 3 → Nat) = fun _ => 0 := funext fun a => by fin_cases a <;> rfl

/-- The rows of the features block the body loads at a point: the 512 rows of the point's column tile. -/
def rows0 (i : grid0.Coords) (x0 : Vec F S1x2048x256 .f32) : Vec F S1x512x256 .f32 :=
  View.ld x0 (Rect.unit (s := S1x2048x256) (k0_off1 i) S1x512x256.size (k0_off1_inb i))

/-! ## At the first column tile: the buffers are reset, then the tile is added -/

/-- The row-sum column: the tile's row sums added to the zero column. -/
theorem sout0_A_1_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) :
    sout0_A_1 c i arg2 harg2 arg3 harg3 arg4 harg4 arg5 harg5 arg6 harg6 arg7 harg7 arg8 harg8 arg9 harg9 arg10 harg10 hc0 hc1 x0 x1 x2 x3 x4 x5 = k0_pay1 (k0_pay7 x1 k0_pay3) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x1) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]

/-- The accumulator: the tile's product added to the self term. -/
theorem sout0_A_0_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) :
    sout0_A_0 c i arg2 harg2 arg3 harg3 arg4 harg4 arg5 harg5 arg6 harg6 arg7 harg7 arg8 harg8 arg9 harg9 arg10 harg10 hc0 hc1 x0 x1 x2 x3 x4 x5 = k0_pay6 (rows0 i x0) x1 x2 x3 (k0_pay4 x0 x4 x5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S2048x256) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]
  rfl

/-! ## At a middle column tile: the tile is added to what the buffers hold -/

/-- The row-sum column: the tile's row sums added to the column on entry. -/
theorem sout0_B_1_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = k0_pay1 (k0_pay7 x1 xs1) := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero (S := S2048x1) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]

/-- The accumulator: the tile's product added to the accumulator on entry. -/
theorem sout0_B_0_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = k0_pay6 (rows0 i x0) x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_cons_unit_zero (S := S2048x256) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]
  rfl

/-! ## At the last column tile: the tile is added, then the output block is computed from the two buffers -/

/-- The row-sum column: the tile's row sums added to the column on entry. -/
theorem sout0_C_1_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = k0_pay1 (k0_pay7 x1 xs1) := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S2048x1) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]

/-- The accumulator: the tile's product added to the accumulator on entry. -/
theorem sout0_C_0_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = k0_pay6 (rows0 i x0) x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S2048x256) offs_zero2]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]
  rfl

/-- The output block: the normalised, clamped quotient of the two buffers as this point has just left them. -/
theorem out0_C_6_val (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay2 (k0_pay1 (k0_pay7 x1 xs1)) (k0_pay6 (rows0 i x0) x1 x2 x3 xs0) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_cons_unit_zero (S := S1x2048x256) offs_zero3]
  simp only [View.readAt_eq_ld, harg2.read_unread, harg3.read_unread, harg4.read_unread, harg5.read_unread, harg6.read_unread, harg7.read_unread, harg9.read_unread, harg10.read_unread,
    View.ld_unit_zero (S := S1x2048x512) offs_zero3, View.ld_unit_zero (S := S1x2048x256) offs_zero3, View.ld_unit_zero (S := S256x256) offs_zero2, View.ld_unit_zero (S := S1x256) offs_zero2, View.ld_unit_zero (S := S2048x256) offs_zero2, View.ld_unit_zero (S := S2048x1) offs_zero2,
    View.readCov_unit_zero (S := S2048x256) _ offs_zero2, View.readCov_unit_zero (S := S2048x1) _ offs_zero2]
  rfl

/-- The same, over the two buffers' final contents by name. -/
theorem out0_C_6_eq (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec F S1x2048x256 .f32) (x1 : Vec F S1x2048x512 .f32) (x2 : Vec F S256x256 .f32) (x3 : Vec F S1x256 .f32) (x4 : Vec F S256x256 .f32) (x5 : Vec F S1x256 .f32) (xs0 : Vec F S2048x256 .f32) (xs1 : Vec F S2048x1 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay2 (sout0_C_1 c i arg2 harg2 arg3 harg3 arg4 harg4 arg5 harg5 arg6 harg6 arg7 harg7 arg8 harg8 arg9 harg9 arg10 harg10 hc0 hc1 x0 x1 x2 x3 x4 x5 xs0 xs1) (sout0_C_0 c i arg2 harg2 arg3 harg3 arg4 harg4 arg5 harg5 arg6 harg6 arg7 harg7 arg8 harg8 arg9 harg9 arg10 harg10 hc0 hc1 x0 x1 x2 x3 x4 x5 xs0 xs1) := by
  rw [sout0_C_1_eq, sout0_C_0_eq]
  exact out0_C_6_val c i arg2 harg2 arg3 harg3 arg4 harg4 arg5 harg5 arg6 harg6 arg7 harg7 arg8 harg8 arg9 harg9 arg10 harg10 hc0 hc1 x0 x1 x2 x3 x4 x5 xs0 xs1

end Cert.KernelIdeal.Hand
-- ==== Proof.Pay0.lean ====
/-
  The pure values the two kernels' bodies store, read at an index on the extended reals: each named payload of the
  skeleton as an explicit formula in the loaded vectors' entries.
-/
import proofs.«156158_j51213190037828_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandVal

open Idealize.ShloMosaic Idealize.ShloMosaic.ValueIdx Idealize.SL.Sem
open Cert.KernelIdeal Cert.KernelIdeal.Gen

/-! ## Layout operations the library does not spell: the kept unit column -/

section Column
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The three matrix products into the zero accumulator, at an index -/

/-- A plain product `[m, K] × [K, n]` into the zero accumulator, whatever record names it: given what the record's
    operand indices are on each axis, the entry at `(p, q)` is the sum over the contraction coordinate. -/
theorem matmul_zero_ix2 {m K n : ℕ} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (l : FVec Ideal ⟨2, ![m, K]⟩ φ₁) (r : FVec Ideal ⟨2, ![K, n]⟩ φ₂) (p : Fin m) (q : Fin n) :
    FloatOps.matmul D none l r (constant (F := Ideal) ⟨2, ![m, n]⟩ .f32 0x00000000#32) (ix2 p q)
      = ∑ e : Fin K, l (ix2 p e) * r (ix2 e q) := by
  refine (Ideal.matmul_constant_zero_apply D none l r (ix2 p q)).trans ?_
  rw [← Equiv.sum_comp (contrEquiv1 D K hr hs).symm]
  refine Finset.sum_congr rfl fun e _ => ?_
  have hk := contrEquiv1_symm_val D K hr hs e
  have el : D.lhsIdx (ix2 p q) ((contrEquiv1 D K hr hs).symm e) = ix2 p e := funext fun a => Fin.ext (by
    match a with
    | ⟨0, _⟩ => exact hl0 _ _
    | ⟨1, _⟩ => exact (hl1 _ _).trans hk)
  have er : D.rhsIdx (ix2 p q) ((contrEquiv1 D K hr hs).symm e) = ix2 e q := funext fun a => Fin.ext (by
    match a with
    | ⟨0, _⟩ => exact (hr0 _ _).trans hk
    | ⟨1, _⟩ => exact hr1 _ _)
  rw [el, er]

/-- All the rows of the features times a weight matrix: `[2048, 256] × [256, 256]`. -/
theorem matmul_2048_256_256 {φ₁ φ₂ : FTy} (l : FVec Ideal S2048x256 φ₁) (r : FVec Ideal S256x256 φ₂) (p : Fin 2048) (q : Fin 256) :
    FloatOps.matmul dot_S2048x256_S256x256_S2048x256_1_0_0_1_n_n none l r (constant (F := Ideal) S2048x256 .f32 0x00000000#32) (ix2 p q)
      = ∑ e : Fin 256, l (ix2 p e) * r (ix2 e q) :=
  matmul_zero_ix2 dot_S2048x256_S256x256_S2048x256_1_0_0_1_n_n rfl rfl
    (fun j k => by
      unfold DotDims.lhsIdx
      rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
      rfl)
    (fun j k => dot_S2048x256_S256x256_S2048x256_1_0_0_1_n_n.lhsIdx_val_of_single rfl j k)
    (fun j k => dot_S2048x256_S256x256_S2048x256_1_0_0_1_n_n.rhsIdx_val_of_single rfl j k)
    (fun j k => by
      unfold DotDims.rhsIdx
      rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
      rfl)
    l r p q

/-- One tile's rows of the features times a weight matrix: `[512, 256] × [256, 256]`. -/
theorem matmul_512_256_256 {φ₁ φ₂ : FTy} (l : FVec Ideal S512x256 φ₁) (r : FVec Ideal S256x256 φ₂) (p : Fin 512) (q : Fin 256) :
    FloatOps.matmul dot_S512x256_S256x256_S512x256_1_0_0_1_n_n none l r (constant (F := Ideal) S512x256 .f32 0x00000000#32) (ix2 p q)
      = ∑ e : Fin 256, l (ix2 p e) * r (ix2 e q) :=
  matmul_zero_ix2 dot_S512x256_S256x256_S512x256_1_0_0_1_n_n rfl rfl
    (fun j k => by
      unfold DotDims.lhsIdx
      rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
      rfl)
    (fun j k => dot_S512x256_S256x256_S512x256_1_0_0_1_n_n.lhsIdx_val_of_single rfl j k)
    (fun j k => dot_S512x256_S256x256_S512x256_1_0_0_1_n_n.rhsIdx_val_of_single rfl j k)
    (fun j k => by
      unfold DotDims.rhsIdx
      rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
      rfl)
    l r p q

/-- The adjacency tile times the tile's transformed rows: `[2048, 512] × [512, 256]`. -/
theorem matmul_2048_512_256 {φ₁ φ₂ : FTy} (l : FVec Ideal S2048x512 φ₁) (r : FVec Ideal S512x256 φ₂) (p : Fin 2048) (q : Fin 256) :
    FloatOps.matmul dot_S2048x512_S512x256_S2048x256_1_0_0_1_n_n none l r (constant (F := Ideal) S2048x256 .f32 0x00000000#32) (ix2 p q)
      = ∑ e : Fin 512, l (ix2 p e) * r (ix2 e q) :=
  matmul_zero_ix2 dot_S2048x512_S512x256_S2048x256_1_0_0_1_n_n rfl rfl
    (fun j k => by
      unfold DotDims.lhsIdx
      rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
      rfl)
    (fun j k => dot_S2048x512_S512x256_S2048x256_1_0_0_1_n_n.lhsIdx_val_of_single rfl j k)
    (fun j k => dot_S2048x512_S512x256_S2048x256_1_0_0_1_n_n.rhsIdx_val_of_single rfl j k)
    (fun j k => by
      unfold DotDims.rhsIdx
      rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
      rfl)
    l r p q

/-! ## The lane sum of the adjacency tile -/

/-- The sum over the lanes of a `[2048, 512]` vector from the zero word, at row `n`: the sum of the row's entries. The
    hypothesis on the initial word is typed as the printed payload's proof of it is. -/
theorem rowSum_apply (src : FVec Ideal S2048x512 .f32) (hφ : FKind.Formats .f32)
    (hacc : (0x00000000#32 : BitVec 32) = FKind.add.neutral .f32 hφ) (n : Fin 2048) :
    multiReduction (F := Ideal) .add [1] S2048 src 0x00000000#32 reduces_S2048x512_S2048 hφ hacc (ix1 n)
      = ∑ q : Fin 512, src (ix2 n q) := by
  refine (Ideal.multiReduction_add_single src 0x00000000#32 reduces_S2048x512_S2048 hφ hacc (ix1 n)).trans ?_
  refine Finset.sum_congr rfl fun q _ => ?_
  exact congrArg src (funext fun a => Fin.ext (by match a with | ⟨0, _⟩ => rfl | ⟨1, _⟩ => rfl))

/-! ## The first kernel's payloads at an index -/

/-- The row-sum column's initial value: zero. -/
theorem k0_pay3_apply (n : Fin 2048) : k0_pay3 (F := Ideal) (ix2 n (0 : Fin 1)) = 0 := by
  unfold k0_pay3
  refine (congrFun (shapeCast_self _ _) _).trans ?_
  exact Ideal.ofBits_zero_f32

/-- The row-sum column as it is stored back: unchanged. -/
theorem k0_pay1_apply (v30 : FVec Ideal S2048x1 .f32) (n : Fin 2048) :
    k0_pay1 v30 (ix2 n (0 : Fin 1)) = v30 (ix2 n (0 : Fin 1)) := by
  unfold k0_pay1
  exact congrFun (shapeCast_self _ _) _

/-- The adjacency tile without its leading unit axis. -/
theorem k0_pay5_apply (v8 : Vec Ideal S1x2048x512 .f32) (n : Fin 2048) (q : Fin 512) :
    k0_pay5 v8 (ix2 n q) = v8 (ix3 (0 : Fin 1) n q) := by
  unfold k0_pay5
  exact shapeCast_1ab_ab_apply v8 _ n q

/-- The row-sum column after a tile: the column before plus the tile's row sums. -/
theorem k0_pay7_apply (v8 : Vec Ideal S1x2048x512 .f32) (v27 : Vec Ideal S2048x1 .f32) (n : Fin 2048) :
    k0_pay7 v8 v27 (ix2 n (0 : Fin 1)) = v27 (ix2 n (0 : Fin 1)) + ∑ q : Fin 512, v8 (ix3 (0 : Fin 1) n q) := by
  unfold k0_pay7
  refine (addf_apply _ _ _).trans ?_
  refine congrArg (v27 (ix2 n (0 : Fin 1)) + ·) ?_
  refine (shapeCast_a_a1_apply _ _ n (0 : Fin 1)).trans ?_
  refine (rowSum_apply _ _ _ n).trans ?_
  exact Finset.sum_congr rfl fun q _ => k0_pay5_apply v8 n q

/-- The accumulator's initial value: the features times the self weight plus its bias. -/
theorem k0_pay4_apply (v41 : Vec Ideal S1x2048x256 .f32) (v44 : Vec Ideal S256x256 .f32) (v48 : Vec Ideal S1x256 .f32)
    (n : Fin 2048) (j : Fin 256) :
    k0_pay4 v41 v44 v48 (ix2 n j)
      = (∑ e : Fin 256, v41 (ix3 (0 : Fin 1) n e) * v44 (ix2 e j)) + v48 (ix2 (0 : Fin 1) j) := by
  unfold k0_pay4
  refine (congrFun (shapeCast_self _ _) _).trans ?_
  refine (addf_apply _ _ _).trans ?_
  refine congrArg₂ (· + ·) ?_ ?_
  · refine (matmul_2048_256_256 _ _ n j).trans ?_
    refine Finset.sum_congr rfl fun e _ => congrArg₂ (· * ·) ?_ ?_
    · exact shapeCast_1ab_ab_apply v41 _ n e
    · exact congrFun (shapeCast_self v44 _) _
  · refine (broadcastTo_1b_ab_apply _ _ n j).trans ?_
    exact congrFun (shapeCast_self v48 _) _

/-- The accumulator after a tile: the accumulator before plus the adjacency tile times the tile's rows of the features
    transformed by the neighbour weight and bias. -/
theorem k0_pay6_apply (v6 : Vec Ideal S1x512x256 .f32) (v8 : Vec Ideal S1x2048x512 .f32) (v11 : Vec Ideal S256x256 .f32)
    (v15 : Vec Ideal S1x256 .f32) (v22 : Vec Ideal S2048x256 .f32) (n : Fin 2048) (j : Fin 256) :
    k0_pay6 v6 v8 v11 v15 v22 (ix2 n j)
      = v22 (ix2 n j) + ∑ q : Fin 512, v8 (ix3 (0 : Fin 1) n q)
          * ((∑ e : Fin 256, v6 (ix3 (0 : Fin 1) q e) * v11 (ix2 e j)) + v15 (ix2 (0 : Fin 1) j)) := by
  unfold k0_pay6
  refine (congrFun (shapeCast_self _ _) _).trans ?_
  refine (addf_apply _ _ _).trans ?_
  refine congrArg (v22 (ix2 n j) + ·) ?_
  refine (matmul_2048_512_256 _ _ n j).trans ?_
  refine Finset.sum_congr rfl fun q _ => congrArg₂ (· * ·) ?_ ?_
  · exact k0_pay5_apply v8 n q
  · refine (addf_apply _ _ _).trans ?_
    refine congrArg₂ (· + ·) ?_ ?_
    · refine (matmul_512_256_256 _ _ q j).trans ?_
      refine Finset.sum_congr rfl fun e _ => congrArg₂ (· * ·) ?_ ?_
      · exact shapeCast_1ab_ab_apply v6 _ q e
      · exact congrFun (shapeCast_self v11 _) _
    · refine (broadcastTo_1b_ab_apply _ _ q j).trans ?_
      exact congrFun (shapeCast_self v15 _) _

/-- The output block: the accumulator divided by the row sum plus one, clamped below at zero. -/
theorem k0_pay2_apply (v37 : Vec Ideal S2048x1 .f32) (v40 : Vec Ideal S2048x256 .f32) (n : Fin 2048) (j : Fin 256) :
    k0_pay2 v37 v40 (ix3 (0 : Fin 1) n j)
      = max (Ideal.div (v40 (ix2 n j)) (v37 (ix2 n (0 : Fin 1)) + Ideal.ofBits .f32 0x3F800000#32))
          (Ideal.ofBits .f32 0x00000000#32) := by
  unfold k0_pay2
  refine (shapeCast_ab_1ab_apply _ _ (0 : Fin 1) n j).trans ?_
  refine (maximumf_apply _ _ _).trans ?_
  refine congrArg₂ max ?_ rfl
  refine (divf_apply _ _ _).trans ?_
  refine congrArg (Ideal.div (v40 (ix2 n j))) ?_
  exact broadcastTo_a1_ab_apply _ _ n j

/-! ## The second kernel's payloads at an index: the same body, with the nodes block added to what it stores -/

/-- The row-sum column's initial value: zero. -/
theorem k1_pay3_apply (n : Fin 2048) : k1_pay3 (F := Ideal) (ix2 n (0 : Fin 1)) = 0 := by
  unfold k1_pay3
  refine (congrFun (shapeCast_self _ _) _).trans ?_
  exact Ideal.ofBits_zero_f32

/-- The row-sum column as it is stored back: unchanged. -/
theorem k1_pay1_apply (v30 : FVec Ideal S2048x1 .f32) (n : Fin 2048) :
    k1_pay1 v30 (ix2 n (0 : Fin 1)) = v30 (ix2 n (0 : Fin 1)) := by
  unfold k1_pay1
  exact congrFun (shapeCast_self _ _) _

/-- The adjacency tile without its leading unit axis. -/
theorem k1_pay5_apply (v8 : Vec Ideal S1x2048x512 .f32) (n : Fin 2048) (q : Fin 512) :
    k1_pay5 v8 (ix2 n q) = v8 (ix3 (0 : Fin 1) n q) := by
  unfold k1_pay5
  exact shapeCast_1ab_ab_apply v8 _ n q

/-- The row-sum column after a tile: the column before plus the tile's row sums. -/
theorem k1_pay7_apply (v8 : Vec Ideal S1x2048x512 .f32) (v27 : Vec Ideal S2048x1 .f32) (n : Fin 2048) :
    k1_pay7 v8 v27 (ix2 n (0 : Fin 1)) = v27 (ix2 n (0 : Fin 1)) + ∑ q : Fin 512, v8 (ix3 (0 : Fin 1) n q) := by
  unfold k1_pay7
  refine (addf_apply _ _ _).trans ?_
  refine congrArg (v27 (ix2 n (0 : Fin 1)) + ·) ?_
  refine (shapeCast_a_a1_apply _ _ n (0 : Fin 1)).trans ?_
  refine (rowSum_apply _ _ _ n).trans ?_
  exact Finset.sum_congr rfl fun q _ => k1_pay5_apply v8 n q

/-- The accumulator's initial value: the features times the self weight plus its bias. -/
theorem k1_pay4_apply (v41 : Vec Ideal S1x2048x256 .f32) (v44 : Vec Ideal S256x256 .f32) (v48 : Vec Ideal S1x256 .f32)
    (n : Fin 2048) (j : Fin 256) :
    k1_pay4 v41 v44 v48 (ix2 n j)
      = (∑ e : Fin 256, v41 (ix3 (0 : Fin 1) n e) * v44 (ix2 e j)) + v48 (ix2 (0 : Fin 1) j) := by
  unfold k1_pay4
  refine (congrFun (shapeCast_self _ _) _).trans ?_
  refine (addf_apply _ _ _).trans ?_
  refine congrArg₂ (· + ·) ?_ ?_
  · refine (matmul_2048_256_256 _ _ n j).trans ?_
    refine Finset.sum_congr rfl fun e _ => congrArg₂ (· * ·) ?_ ?_
    · exact shapeCast_1ab_ab_apply v41 _ n e
    · exact congrFun (shapeCast_self v44 _) _
  · refine (broadcastTo_1b_ab_apply _ _ n j).trans ?_
    exact congrFun (shapeCast_self v48 _) _

/-- The accumulator after a tile: the accumulator before plus the adjacency tile times the tile's rows of the features
    transformed by the neighbour weight and bias. -/
theorem k1_pay6_apply (v6 : Vec Ideal S1x512x256 .f32) (v8 : Vec Ideal S1x2048x512 .f32) (v11 : Vec Ideal S256x256 .f32)
    (v15 : Vec Ideal S1x256 .f32) (v22 : Vec Ideal S2048x256 .f32) (n : Fin 2048) (j : Fin 256) :
    k1_pay6 v6 v8 v11 v15 v22 (ix2 n j)
      = v22 (ix2 n j) + ∑ q : Fin 512, v8 (ix3 (0 : Fin 1) n q)
          * ((∑ e : Fin 256, v6 (ix3 (0 : Fin 1) q e) * v11 (ix2 e j)) + v15 (ix2 (0 : Fin 1) j)) := by
  unfold k1_pay6
  refine (congrFun (shapeCast_self _ _) _).trans ?_
  refine (addf_apply _ _ _).trans ?_
  refine congrArg (v22 (ix2 n j) + ·) ?_
  refine (matmul_2048_512_256 _ _ n j).trans ?_
  refine Finset.sum_congr rfl fun q _ => congrArg₂ (· * ·) ?_ ?_
  · exact k1_pay5_apply v8 n q
  · refine (addf_apply _ _ _).trans ?_
    refine congrArg₂ (· + ·) ?_ ?_
    · refine (matmul_512_256_256 _ _ q j).trans ?_
      refine Finset.sum_congr rfl fun e _ => congrArg₂ (· * ·) ?_ ?_
      · exact shapeCast_1ab_ab_apply v6 _ q e
      · exact congrFun (shapeCast_self v11 _) _
    · refine (broadcastTo_1b_ab_apply _ _ q j).trans ?_
      exact congrFun (shapeCast_self v15 _) _

/-- The output block with the residual: the nodes block plus the accumulator divided by the row sum plus one, clamped
    below at zero. -/
theorem k1_pay2_apply (v37 : Vec Ideal S2048x1 .f32) (v40 : Vec Ideal S2048x256 .f32) (v45 : Vec Ideal S1x2048x256 .f32)
    (n : Fin 2048) (j : Fin 256) :
    k1_pay2 v37 v40 v45 (ix3 (0 : Fin 1) n j)
      = v45 (ix3 (0 : Fin 1) n j)
          + max (Ideal.div (v40 (ix2 n j)) (v37 (ix2 n (0 : Fin 1)) + Ideal.ofBits .f32 0x3F800000#32))
              (Ideal.ofBits .f32 0x00000000#32) := by
  unfold k1_pay2
  refine (shapeCast_ab_1ab_apply _ _ (0 : Fin 1) n j).trans ?_
  refine (addf_apply _ _ _).trans ?_
  refine congrArg₂ (· + ·) ?_ ?_
  · exact shapeCast_1ab_ab_apply v45 _ n j
  · refine (maximumf_apply _ _ _).trans ?_
    refine congrArg₂ max ?_ rfl
    refine (divf_apply _ _ _).trans ?_
    refine congrArg (Ideal.div (v40 (ix2 n j))) ?_
    exact broadcastTo_a1_ab_apply _ _ n j

end Cert.KernelIdeal.HandVal
-- ==== Proof.Spec.lean ====
/-
  The specification: two rounds of dense message passing over a batch of 8 graphs of 2048 nodes with 256
  features, as one function of the six argument arrays, index by index, on the extended reals.

  One round maps node features x to
      relu( (A · (x Wrᵀ + br)  +  (x W0ᵀ + b0)) / (rowsum(A) + 1) ),
  where A is the [2048, 2048] adjacency of the graph, the product A · y sums over all 2048 neighbours, the
  division is row by row and relu is the maximum with zero. The result adds the input features to the output of
  the second round (whose input is the output of the first, with the second pair of weight matrices).
-/
import Idealize.ShloMosaic.PureOps.Ideal
import Idealize.ShloMosaic.Lib.ValueIdx

noncomputable section

namespace Cert.Spec

open Idealize.ShloMosaic ValueIdx

/-- The shapes of the arrays: features [8, 2048, 256], adjacency [8, 2048, 2048], weights [2, 256, 256],
    biases [2, 256]. -/
abbrev SX : Shape := ⟨3, ![8, 2048, 256]⟩
abbrev SA : Shape := ⟨3, ![8, 2048, 2048]⟩
abbrev SW : Shape := ⟨3, ![2, 256, 256]⟩
abbrev SB : Shape := ⟨2, ![2, 256]⟩

/-- The two float constants of both programs, as their words. -/
abbrev zero : EReal := Ideal.ofBits .f32 0x00000000#32
abbrev one : EReal := Ideal.ofBits .f32 0x3F800000#32

/-- Features as a function of (graph, node, feature). -/
abbrev Feat : Type := Fin 8 → Fin 2048 → Fin 256 → EReal

/-- An array of features read by coordinates. -/
def ofArr (x : SX.Idx → EReal) : Feat := fun b n d => x (ix3 b n d)

/-- One linear branch at (graph b, node n, output feature j): Σ_d x[b,n,d] · W[l,j,d] + bias[l,j]. -/
def lin (x : Feat) (W : SW.Idx → EReal) (bias : SB.Idx → EReal) (l : Fin 2) : Feat := fun b n j =>
  (∑ d : Fin 256, x b n d * W (ix3 l j d)) + bias (ix2 l j)

/-- Aggregation over all neighbours: Σ_k A[b,n,k] · y[b,k,d]. -/
def agg (adj : SA.Idx → EReal) (y : Feat) : Feat := fun b n d =>
  ∑ k : Fin 2048, adj (ix3 b n k) * y b k d

/-- The normaliser of node n of graph b: its adjacency row's sum, plus one. -/
def den (adj : SA.Idx → EReal) (b : Fin 8) (n : Fin 2048) : EReal :=
  (∑ k : Fin 2048, adj (ix3 b n k)) + one

/-- One round with the l-th weights. -/
def layer (adj : SA.Idx → EReal) (W0w : SW.Idx → EReal) (W0b : SB.Idx → EReal) (Wrw : SW.Idx → EReal) (Wrb : SB.Idx → EReal)
    (l : Fin 2) (x : Feat) : Feat := fun b n d =>
  max (Ideal.div (agg adj (lin x Wrw Wrb l) b n d + lin x W0w W0b l b n d) (den adj b n)) zero

/-- The whole function: the input features plus two rounds, as a function of (graph, node, feature). -/
def G (nodes : SX.Idx → EReal) (adj : SA.Idx → EReal) (W0w : SW.Idx → EReal) (W0b : SB.Idx → EReal)
    (Wrw : SW.Idx → EReal) (Wrb : SB.Idx → EReal) : Feat := fun b n d =>
  nodes (ix3 b n d) + layer adj W0w W0b Wrw Wrb 1 (layer adj W0w W0b Wrw Wrb 0 (ofArr nodes)) b n d

/-- The same as an array. -/
def Garr (nodes : SX.Idx → EReal) (adj : SA.Idx → EReal) (W0w : SW.Idx → EReal) (W0b : SB.Idx → EReal)
    (Wrw : SW.Idx → EReal) (Wrb : SB.Idx → EReal) : SX.Idx → EReal := fun i =>
  G nodes adj W0w W0b Wrw Wrb (i 0) (i 1) (i 2)

end Cert.Spec

end
-- ==== Proof.TileSum.lean ====
/-
  The neighbour sum in tiles.

  The aggregation of a round sums over all 2048 neighbours of a node. The same sum can be taken tile by tile: 4 tiles
  of 512 consecutive neighbours, neighbour 512·k + q being offset q of tile k. Addition of extended reals is
  commutative and associative, so a finite sum may be regrouped freely: no finiteness of the terms is needed.
-/
import proofs.«156158_j51213190037828_2_alg».proof.Proof.Spec

noncomputable section

namespace Cert.Spec

/-- index 512·k + q of Fin 2048 from tile k : Fin 4 and offset q : Fin 512 -/
def tileIdx (k : Fin 4) (q : Fin 512) : Fin 2048 := ⟨512 * k.val + q.val, by omega⟩

/-- A sum over the 2048 neighbours is the sum over the 4 tiles of the sums over the 512 offsets: the pairs
    (tile, offset) are in bijection with the neighbours through (k, q) ↦ 512·k + q. -/
theorem sum_tiles (f : Fin 2048 → EReal) : ∑ j : Fin 2048, f j = ∑ k : Fin 4, ∑ q : Fin 512, f (tileIdx k q) := by
  rw [← Fintype.sum_prod_type' (fun k q => f (tileIdx k q))]
  refine (Fintype.sum_equiv (finProdFinEquiv (m := 4) (n := 512)) (fun x => f (tileIdx x.1 x.2)) f fun x => ?_).symm
  refine congrArg f (Fin.ext ?_)
  show 512 * x.1.val + x.2.val = x.2.val + 512 * x.1.val
  omega

/-- A sum of four terms, written out in order. -/
theorem sum_four (g : Fin 4 → EReal) : ∑ k : Fin 4, g k = ((g 0 + g 1) + g 2) + g 3 :=
  Fin.sum_univ_four g

/-- the accumulator's grouping: the self term first, then the four tiles in order, equals aggregation + self term -/
theorem acc_regroup (s : EReal) (g : Fin 4 → EReal) : (((s + g 0) + g 1) + g 2) + g 3 = (∑ k : Fin 4, g k) + s := by
  rw [sum_four]
  ac_rfl

end Cert.Spec

end
-- ==== Proof.PieceAt0.lean ====
/-
  Region 0: what each case of the body leaves in its buffers, entry by entry on the extended reals, as explicit sums
  over the blocks the body loads.
-/
import proofs.«156158_j51213190037828_2_alg».proof.Proof.PieceVal0
import proofs.«156158_j51213190037828_2_alg».proof.Proof.Pay0
import proofs.«156158_j51213190037828_2_alg».proof.Proof.TileSum

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.HandVal

/-- The column tile of a grid point. -/
def ki0 (i : grid0.Coords) : Fin 4 := ⟨(i 1).val, (i 1).isLt⟩

/-- The loaded rows at an index: row `q` of the point's tile is row `512 k + q` of the features block. -/
theorem rows0_apply {F : FTy → Type} [FloatOps F] (i : grid0.Coords) (x0 : Vec F S1x2048x256 .f32) (q : Fin 512) (e : Fin 256) :
    rows0 i x0 (ix3 (0 : Fin 1) q e) = x0 (ix3 (0 : Fin 1) (Cert.Spec.tileIdx (ki0 i) q) e) := by
  unfold rows0
  refine congrArg x0 (funext fun a => Fin.ext ?_)
  have ho := k0_off1_eq i
  match a with
  | ⟨0, _⟩ =>
    show k0_off1 i 0 + 1 * (0 : Fin 1).val = 0
    rw [ho]; rfl
  | ⟨1, _⟩ =>
    show k0_off1 i 1 + 1 * q.val = 512 * (i 1).val + q.val
    rw [ho]; show 512 * (i 1).val + 1 * q.val = _; omega
  | ⟨2, _⟩ =>
    show k0_off1 i 2 + 1 * e.val = e.val
    rw [ho]; show 0 + 1 * e.val = e.val; omega

/-! ## At the first column tile -/

/-- The row-sum column: the tile's row sums. -/
theorem sout0_A_1_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (n : Fin 2048) :
    sout0_A_1 c i arg2 harg2 arg3 harg3 arg4 harg4 arg5 harg5 arg6 harg6 arg7 harg7 arg8 harg8 arg9 harg9 arg10 harg10 hc0 hc1 x0 x1 x2 x3 x4 x5 (ix2 n (0 : Fin 1)) = ∑ q : Fin 512, x1 (ix3 (0 : Fin 1) n q) := by
  refine (congrFun (sout0_A_1_eq c i arg2 harg2 arg3 harg3 arg4 harg4 arg5 harg5 arg6 harg6 arg7 harg7 arg8 harg8 arg9 harg9 arg10 harg10 hc0 hc1 x0 x1 x2 x3 x4 x5) _).trans ?_
  refine (k0_pay1_apply _ n).trans ?_
  refine (k0_pay7_apply x1 _ n).trans ?_
  rw [k0_pay3_apply n, zero_add]

/-- The accumulator: the self term plus the tile's product. -/
theorem sout0_A_0_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : cond0_0 i) (hc1 : ¬cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (n : Fin 2048) (j : Fin 256) :
    sout0_A_0 c i arg2 harg2 arg3 harg3 arg4 harg4 arg5 harg5 arg6 harg6 arg7 harg7 arg8 harg8 arg9 harg9 arg10 harg10 hc0 hc1 x0 x1 x2 x3 x4 x5 (ix2 n j)
      = ((∑ e : Fin 256, x0 (ix3 (0 : Fin 1) n e) * x4 (ix2 e j)) + x5 (ix2 (0 : Fin 1) j))
        + ∑ q : Fin 512, x1 (ix3 (0 : Fin 1) n q) * ((∑ e : Fin 256, x0 (ix3 (0 : Fin 1) (Cert.Spec.tileIdx (ki0 i) q) e) * x2 (ix2 e j)) + x3 (ix2 (0 : Fin 1) j)) := by
  refine (congrFun (sout0_A_0_eq c i arg2 harg2 arg3 harg3 arg4 harg4 arg5 harg5 arg6 harg6 arg7 harg7 arg8 harg8 arg9 harg9 arg10 harg10 hc0 hc1 x0 x1 x2 x3 x4 x5) _).trans ?_
  refine (k0_pay6_apply (rows0 i x0) x1 x2 x3 (k0_pay4 x0 x4 x5) n j).trans ?_
  refine congrArg₂ (· + ·) (k0_pay4_apply x0 x4 x5 n j) ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows0_apply i x0 q e)

/-! ## At a middle column tile -/

/-- The row-sum column: the column on entry plus the tile's row sums. -/
theorem sout0_B_1_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (xs0 : Vec Ideal S2048x256 .f32) (xs1 : Vec Ideal S2048x1 .f32) (n : Fin 2048) :
    sout0_B_1 c i arg2 harg2 arg3 harg3 arg4 harg4 arg5 harg5 arg6 harg6 arg7 harg7 arg8 harg8 arg9 harg9 arg10 harg10 hc0 hc1 x0 x1 x2 x3 x4 x5 xs0 xs1 (ix2 n (0 : Fin 1)) = xs1 (ix2 n (0 : Fin 1)) + ∑ q : Fin 512, x1 (ix3 (0 : Fin 1) n q) := by
  refine (congrFun (sout0_B_1_eq c i arg2 harg2 arg3 harg3 arg4 harg4 arg5 harg5 arg6 harg6 arg7 harg7 arg8 harg8 arg9 harg9 arg10 harg10 hc0 hc1 x0 x1 x2 x3 x4 x5 xs0 xs1) _).trans ?_
  refine (k0_pay1_apply _ n).trans ?_
  exact k0_pay7_apply x1 xs1 n

/-- The accumulator: the accumulator on entry plus the tile's product. -/
theorem sout0_B_0_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : ¬cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (xs0 : Vec Ideal S2048x256 .f32) (xs1 : Vec Ideal S2048x1 .f32) (n : Fin 2048) (j : Fin 256) :
    sout0_B_0 c i arg2 harg2 arg3 harg3 arg4 harg4 arg5 harg5 arg6 harg6 arg7 harg7 arg8 harg8 arg9 harg9 arg10 harg10 hc0 hc1 x0 x1 x2 x3 x4 x5 xs0 xs1 (ix2 n j)
      = xs0 (ix2 n j) + ∑ q : Fin 512, x1 (ix3 (0 : Fin 1) n q) * ((∑ e : Fin 256, x0 (ix3 (0 : Fin 1) (Cert.Spec.tileIdx (ki0 i) q) e) * x2 (ix2 e j)) + x3 (ix2 (0 : Fin 1) j)) := by
  refine (congrFun (sout0_B_0_eq c i arg2 harg2 arg3 harg3 arg4 harg4 arg5 harg5 arg6 harg6 arg7 harg7 arg8 harg8 arg9 harg9 arg10 harg10 hc0 hc1 x0 x1 x2 x3 x4 x5 xs0 xs1) _).trans ?_
  refine (k0_pay6_apply (rows0 i x0) x1 x2 x3 xs0 n j).trans ?_
  refine congrArg₂ (· + ·) rfl ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows0_apply i x0 q e)

/-! ## At the last column tile -/

/-- The row-sum column: the column on entry plus the tile's row sums. -/
theorem sout0_C_1_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (xs0 : Vec Ideal S2048x256 .f32) (xs1 : Vec Ideal S2048x1 .f32) (n : Fin 2048) :
    sout0_C_1 c i arg2 harg2 arg3 harg3 arg4 harg4 arg5 harg5 arg6 harg6 arg7 harg7 arg8 harg8 arg9 harg9 arg10 harg10 hc0 hc1 x0 x1 x2 x3 x4 x5 xs0 xs1 (ix2 n (0 : Fin 1)) = xs1 (ix2 n (0 : Fin 1)) + ∑ q : Fin 512, x1 (ix3 (0 : Fin 1) n q) := by
  refine (congrFun (sout0_C_1_eq c i arg2 harg2 arg3 harg3 arg4 harg4 arg5 harg5 arg6 harg6 arg7 harg7 arg8 harg8 arg9 harg9 arg10 harg10 hc0 hc1 x0 x1 x2 x3 x4 x5 xs0 xs1) _).trans ?_
  refine (k0_pay1_apply _ n).trans ?_
  exact k0_pay7_apply x1 xs1 n

/-- The accumulator: the accumulator on entry plus the tile's product. -/
theorem sout0_C_0_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (xs0 : Vec Ideal S2048x256 .f32) (xs1 : Vec Ideal S2048x1 .f32) (n : Fin 2048) (j : Fin 256) :
    sout0_C_0 c i arg2 harg2 arg3 harg3 arg4 harg4 arg5 harg5 arg6 harg6 arg7 harg7 arg8 harg8 arg9 harg9 arg10 harg10 hc0 hc1 x0 x1 x2 x3 x4 x5 xs0 xs1 (ix2 n j)
      = xs0 (ix2 n j) + ∑ q : Fin 512, x1 (ix3 (0 : Fin 1) n q) * ((∑ e : Fin 256, x0 (ix3 (0 : Fin 1) (Cert.Spec.tileIdx (ki0 i) q) e) * x2 (ix2 e j)) + x3 (ix2 (0 : Fin 1) j)) := by
  refine (congrFun (sout0_C_0_eq c i arg2 harg2 arg3 harg3 arg4 harg4 arg5 harg5 arg6 harg6 arg7 harg7 arg8 harg8 arg9 harg9 arg10 harg10 hc0 hc1 x0 x1 x2 x3 x4 x5 xs0 xs1) _).trans ?_
  refine (k0_pay6_apply (rows0 i x0) x1 x2 x3 xs0 n j).trans ?_
  refine congrArg₂ (· + ·) rfl ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows0_apply i x0 q e)

/-- The output block: the accumulator's final entry divided by the final row sum plus one, clamped below at zero. -/
theorem out0_C_6_at (c : Dev nD) (i : grid0.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S2048x256 .f32) (harg9 : arg9.IsWhole) (arg10 : Memref sig .tc .vmem S2048x1 .f32) (harg10 : arg10.IsWhole) (hc0 : ¬cond0_0 i) (hc1 : cond0_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (xs0 : Vec Ideal S2048x256 .f32) (xs1 : Vec Ideal S2048x1 .f32) (n : Fin 2048) (j : Fin 256) :
    out0_C_6 c i arg2 harg2 arg3 harg3 arg4 harg4 arg5 harg5 arg6 harg6 arg7 harg7 arg8 harg8 arg9 harg9 arg10 harg10 hc0 hc1 x0 x1 x2 x3 x4 x5 xs0 xs1 (ix3 (0 : Fin 1) n j)
      = max (Ideal.div (sout0_C_0 c i arg2 harg2 arg3 harg3 arg4 harg4 arg5 harg5 arg6 harg6 arg7 harg7 arg8 harg8 arg9 harg9 arg10 harg10 hc0 hc1 x0 x1 x2 x3 x4 x5 xs0 xs1 (ix2 n j))
            (sout0_C_1 c i arg2 harg2 arg3 harg3 arg4 harg4 arg5 harg5 arg6 harg6 arg7 harg7 arg8 harg8 arg9 harg9 arg10 harg10 hc0 hc1 x0 x1 x2 x3 x4 x5 xs0 xs1 (ix2 n (0 : Fin 1)) + Ideal.ofBits .f32 0x3F800000#32))
          (Ideal.ofBits .f32 0x00000000#32) := by
  refine (congrFun (out0_C_6_eq c i arg2 harg2 arg3 harg3 arg4 harg4 arg5 harg5 arg6 harg6 arg7 harg7 arg8 harg8 arg9 harg9 arg10 harg10 hc0 hc1 x0 x1 x2 x3 x4 x5 xs0 xs1) _).trans ?_
  exact k0_pay2_apply _ _ n j

end Cert.KernelIdeal.Hand
-- ==== Proof.BlockReads.lean ====
/-
  The windows' blocks, read at coordinates.

  Each kernel region runs over a grid of 32 points, point t = 4·b + k for graph b (of 8) and column tile k (of 4). At
  point t the feature windows (the layer's input, the residual input, the output) hold the [1, 2048, 256] block of
  graph b = t / 4; the adjacency window holds the [1, 2048, 512] block of graph b whose columns are tile k = t % 4, so
  that its column q is neighbour 512·k + q; the weight and bias windows hold their whole [256, 256] and [1, 256]
  arrays at every point. A block's coordinate on an axis is always (block index) × (block size) + (coordinate inside
  the block); the block indices are the printed index maps at the point, evaluated once over the 32 points.
  The output window writes back at the points k = 3, one per graph, and these eight blocks cover the array.
-/
import proofs.«156158_j51213190037828_2_alg».proof.Proof.Kit0
import proofs.«156158_j51213190037828_2_alg».proof.Proof.Kit1
import proofs.«156158_j51213190037828_2_alg».proof.Proof.TileSum
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

/-! ## The grid: point t = 4·b + k -/

/-- The graph of grid point t = 4·b + k. -/
def gb (t : Fin 32) : Fin 8 := ⟨t.val / 4, by omega⟩
/-- The column tile of grid point t = 4·b + k. -/
def gk (t : Fin 32) : Fin 4 := ⟨t.val % 4, by omega⟩

/-! ## Region 0 -/

/-- The block indices of region 0's windows at grid point t, evaluated over the 32 points. -/
theorem blkIdx0 : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = t.val % 4
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 4 ∧ win0_6.index t (1 : Fin 3) = 0 ∧ win0_6.index t (2 : Fin 3) = 0 :=
  (by decide +kernel : ∀ t : Fin grid0.N, _)

section Region0
variable (V : (c : Dev nD) → (b : Ref sig .tc) → Buf (Elt F) ((c : Thread nD τ).loc b))

/-- Window 0 at point t holds graph t / 4 of `main_arg0`. -/
theorem iblk0_0_apply (c : Dev nD) (t : Fin cfg0.N) (n : Fin 2048) (e : Fin 256) :
    iblk0 V c 0 t (ix3 (0 : Fin 1) n e) = (V c main_arg0 : S8x2048x256.Idx → Elt F .f32) (ix3 (gb (t.cast N_0)) n e) := by
  unfold iblk0
  show V c main_arg0 (((cfg0.win 0).blk t).view.emb (ix3 (0 : Fin 1) n e)) = V c main_arg0 (ix3 (gb (t.cast N_0)) n e)
  refine congrArg (V c main_arg0) (funext fun a => Fin.ext ?_)
  obtain ⟨e0, e1, e2, -⟩ := blkIdx0 t
  match a with
  | ⟨0, _⟩ => show win0_0.index t (0 : Fin 3) * 1 + 1 * 0 = t.val / 4; omega
  | ⟨1, _⟩ => show win0_0.index t (1 : Fin 3) * 2048 + 1 * n.val = n.val; omega
  | ⟨2, _⟩ => show win0_0.index t (2 : Fin 3) * 256 + 1 * e.val = e.val; omega

/-- Window 1 at point t holds, of graph t / 4 of the adjacency, the columns of tile t % 4: column q is neighbour
    512 · (t % 4) + q. -/
theorem iblk0_1_apply (c : Dev nD) (t : Fin cfg0.N) (n : Fin 2048) (q : Fin 512) :
    iblk0 V c 1 t (ix3 (0 : Fin 1) n q)
      = (V c main_arg1 : S8x2048x2048.Idx → Elt F .f32) (ix3 (gb (t.cast N_0)) n (Cert.Spec.tileIdx (gk (t.cast N_0)) q)) := by
  unfold iblk0
  show V c main_arg1 (((cfg0.win 1).blk t).view.emb (ix3 (0 : Fin 1) n q))
    = V c main_arg1 (ix3 (gb (t.cast N_0)) n (Cert.Spec.tileIdx (gk (t.cast N_0)) q))
  refine congrArg (V c main_arg1) (funext fun a => Fin.ext ?_)
  obtain ⟨-, -, -, e0, e1, e2, -⟩ := blkIdx0 t
  match a with
  | ⟨0, _⟩ => show win0_1.index t (0 : Fin 3) * 1 + 1 * 0 = t.val / 4; omega
  | ⟨1, _⟩ => show win0_1.index t (1 : Fin 3) * 2048 + 1 * n.val = n.val; omega
  | ⟨2, _⟩ => show win0_1.index t (2 : Fin 3) * 512 + 1 * q.val = 512 * (t.val % 4) + q.val; omega

/-- Window 2 holds the whole matrix `main_v5` at every point. -/
theorem iblk0_2_apply (c : Dev nD) (t : Fin cfg0.N) (e j : Fin 256) :
    iblk0 V c 2 t (ix2 e j) = (V c main_v5 : S256x256.Idx → Elt F .f32) (ix2 e j) := by
  unfold iblk0
  show V c main_v5 (((cfg0.win 2).blk t).view.emb (ix2 e j)) = V c main_v5 (ix2 e j)
  refine congrArg (V c main_v5) (funext fun a => Fin.ext ?_)
  obtain ⟨-, -, -, -, -, -, e0, e1, -⟩ := blkIdx0 t
  match a with
  | ⟨0, _⟩ => show win0_2.index t (0 : Fin 2) * 256 + 1 * e.val = e.val; omega
  | ⟨1, _⟩ => show win0_2.index t (1 : Fin 2) * 256 + 1 * j.val = j.val; omega

/-- Window 3 holds the whole row `main_v7` at every point. -/
theorem iblk0_3_apply (c : Dev nD) (t : Fin cfg0.N) (j : Fin 256) :
    iblk0 V c 3 t (ix2 (0 : Fin 1) j) = (V c main_v7 : S1x256.Idx → Elt F .f32) (ix2 (0 : Fin 1) j) := by
  unfold iblk0
  show V c main_v7 (((cfg0.win 3).blk t).view.emb (ix2 (0 : Fin 1) j)) = V c main_v7 (ix2 (0 : Fin 1) j)
  refine congrArg (V c main_v7) (funext fun a => Fin.ext ?_)
  obtain ⟨-, -, -, -, -, -, -, -, e0, e1, -⟩ := blkIdx0 t
  match a with
  | ⟨0, _⟩ => show win0_3.index t (0 : Fin 2) * 1 + 1 * 0 = 0; omega
  | ⟨1, _⟩ => show win0_3.index t (1 : Fin 2) * 256 + 1 * j.val = j.val; omega

/-- Window 4 holds the whole matrix `main_v9` at every point. -/
theorem iblk0_4_apply (c : Dev nD) (t : Fin cfg0.N) (e j : Fin 256) :
    iblk0 V c 4 t (ix2 e j) = (V c main_v9 : S256x256.Idx → Elt F .f32) (ix2 e j) := by
  unfold iblk0
  show V c main_v9 (((cfg0.win 4).blk t).view.emb (ix2 e j)) = V c main_v9 (ix2 e j)
  refine congrArg (V c main_v9) (funext fun a => Fin.ext ?_)
  obtain ⟨-, -, -, -, -, -, -, -, -, -, e0, e1, -⟩ := blkIdx0 t
  match a with
  | ⟨0, _⟩ => show win0_4.index t (0 : Fin 2) * 256 + 1 * e.val = e.val; omega
  | ⟨1, _⟩ => show win0_4.index t (1 : Fin 2) * 256 + 1 * j.val = j.val; omega

/-- Window 5 holds the whole row `main_v11` at every point. -/
theorem iblk0_5_apply (c : Dev nD) (t : Fin cfg0.N) (j : Fin 256) :
    iblk0 V c 5 t (ix2 (0 : Fin 1) j) = (V c main_v11 : S1x256.Idx → Elt F .f32) (ix2 (0 : Fin 1) j) := by
  unfold iblk0
  show V c main_v11 (((cfg0.win 5).blk t).view.emb (ix2 (0 : Fin 1) j)) = V c main_v11 (ix2 (0 : Fin 1) j)
  refine congrArg (V c main_v11) (funext fun a => Fin.ext ?_)
  obtain ⟨-, -, -, -, -, -, -, -, -, -, -, -, e0, e1, -⟩ := blkIdx0 t
  match a with
  | ⟨0, _⟩ => show win0_5.index t (0 : Fin 2) * 1 + 1 * 0 = 0; omega
  | ⟨1, _⟩ => show win0_5.index t (1 : Fin 2) * 256 + 1 * j.val = j.val; omega

end Region0

/-- The output window's block at point t, read off any whole array G, is graph t / 4 of G. -/
theorem oblk0_read (G : S8x2048x256.Idx → Elt F .f32) (t : Fin cfg0.N) (n : Fin 2048) (e : Fin 256) :
    (((cfg0.win 6).blk t).view.read (Elt F) G : S1x2048x256.Idx → Elt F .f32) (ix3 (0 : Fin 1) n e)
      = G (ix3 (gb (t.cast N_0)) n e) := by
  show G (((cfg0.win 6).blk t).view.emb (ix3 (0 : Fin 1) n e)) = G (ix3 (gb (t.cast N_0)) n e)
  refine congrArg G (funext fun a => Fin.ext ?_)
  obtain ⟨-, -, -, -, -, -, -, -, -, -, -, -, -, -, e0, e1, e2⟩ := blkIdx0 t
  match a with
  | ⟨0, _⟩ => show win0_6.index t (0 : Fin 3) * 1 + 1 * 0 = t.val / 4; omega
  | ⟨1, _⟩ => show win0_6.index t (1 : Fin 3) * 2048 + 1 * n.val = n.val; omega
  | ⟨2, _⟩ => show win0_6.index t (2 : Fin 3) * 256 + 1 * e.val = e.val; omega

/-- Every index of the output array is in the block some writing point covers: graph b is written back at the point
    4·b + 3. -/
theorem ocover0 (i : S8x2048x256.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 256 := (i 2).isLt
  obtain ⟨t, ht⟩ : ∃ t : Fin cfg0.N, t.val = 4 * (i 0).val + 3 :=
    ⟨Fin.cast N_0.symm ⟨4 * (i 0).val + 3, by omega⟩, rfl⟩
  refine ⟨t, (flush0_6 t).mpr (by omega), ?_⟩
  show i ∈ ((View.whole main_v12).slice (win0_6.rect t)).set
  rw [View.set_slice_whole, Rect.mem_set_unit]
  obtain ⟨-, -, -, -, -, -, -, -, -, -, -, -, -, -, e0, e1, e2⟩ := blkIdx0 t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 256 ≤ (i 2).val ∧ (i 2).val < win0_6.index t (2 : Fin 3) * 256 + 256; omega

/-! ## Region 1 -/

/-- The block indices of region 1's windows at grid point t, evaluated over the 32 points. -/
theorem blkIdx1 : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = 0 ∧ win1_1.index t (2 : Fin 3) = t.val % 4
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 4 ∧ win1_6.index t (1 : Fin 3) = 0 ∧ win1_6.index t (2 : Fin 3) = 0
    ∧ win1_7.index t (0 : Fin 3) = t.val / 4 ∧ win1_7.index t (1 : Fin 3) = 0 ∧ win1_7.index t (2 : Fin 3) = 0 :=
  (by decide +kernel : ∀ t : Fin grid1.N, _)

section Region1
variable (V : (c : Dev nD) → (b : Ref sig .tc) → Buf (Elt F) ((c : Thread nD τ).loc b))

/-- Window 0 at point t holds graph t / 4 of `main_v12`. -/
theorem iblk1_0_apply (c : Dev nD) (t : Fin cfg1.N) (n : Fin 2048) (e : Fin 256) :
    iblk1 V c 0 t (ix3 (0 : Fin 1) n e) = (V c main_v12 : S8x2048x256.Idx → Elt F .f32) (ix3 (gb (t.cast N_1)) n e) := by
  unfold iblk1
  show V c main_v12 (((cfg1.win 0).blk t).view.emb (ix3 (0 : Fin 1) n e)) = V c main_v12 (ix3 (gb (t.cast N_1)) n e)
  refine congrArg (V c main_v12) (funext fun a => Fin.ext ?_)
  obtain ⟨e0, e1, e2, -⟩ := blkIdx1 t
  match a with
  | ⟨0, _⟩ => show win1_0.index t (0 : Fin 3) * 1 + 1 * 0 = t.val / 4; omega
  | ⟨1, _⟩ => show win1_0.index t (1 : Fin 3) * 2048 + 1 * n.val = n.val; omega
  | ⟨2, _⟩ => show win1_0.index t (2 : Fin 3) * 256 + 1 * e.val = e.val; omega

/-- Window 1 at point t holds, of graph t / 4 of the adjacency, the columns of tile t % 4: column q is neighbour
    512 · (t % 4) + q. -/
theorem iblk1_1_apply (c : Dev nD) (t : Fin cfg1.N) (n : Fin 2048) (q : Fin 512) :
    iblk1 V c 1 t (ix3 (0 : Fin 1) n q)
      = (V c main_arg1 : S8x2048x2048.Idx → Elt F .f32) (ix3 (gb (t.cast N_1)) n (Cert.Spec.tileIdx (gk (t.cast N_1)) q)) := by
  unfold iblk1
  show V c main_arg1 (((cfg1.win 1).blk t).view.emb (ix3 (0 : Fin 1) n q))
    = V c main_arg1 (ix3 (gb (t.cast N_1)) n (Cert.Spec.tileIdx (gk (t.cast N_1)) q))
  refine congrArg (V c main_arg1) (funext fun a => Fin.ext ?_)
  obtain ⟨-, -, -, e0, e1, e2, -⟩ := blkIdx1 t
  match a with
  | ⟨0, _⟩ => show win1_1.index t (0 : Fin 3) * 1 + 1 * 0 = t.val / 4; omega
  | ⟨1, _⟩ => show win1_1.index t (1 : Fin 3) * 2048 + 1 * n.val = n.val; omega
  | ⟨2, _⟩ => show win1_1.index t (2 : Fin 3) * 512 + 1 * q.val = 512 * (t.val % 4) + q.val; omega

/-- Window 2 holds the whole matrix `main_v14` at every point. -/
theorem iblk1_2_apply (c : Dev nD) (t : Fin cfg1.N) (e j : Fin 256) :
    iblk1 V c 2 t (ix2 e j) = (V c main_v14 : S256x256.Idx → Elt F .f32) (ix2 e j) := by
  unfold iblk1
  show V c main_v14 (((cfg1.win 2).blk t).view.emb (ix2 e j)) = V c main_v14 (ix2 e j)
  refine congrArg (V c main_v14) (funext fun a => Fin.ext ?_)
  obtain ⟨-, -, -, -, -, -, e0, e1, -⟩ := blkIdx1 t
  match a with
  | ⟨0, _⟩ => show win1_2.index t (0 : Fin 2) * 256 + 1 * e.val = e.val; omega
  | ⟨1, _⟩ => show win1_2.index t (1 : Fin 2) * 256 + 1 * j.val = j.val; omega

/-- Window 3 holds the whole row `main_v16` at every point. -/
theorem iblk1_3_apply (c : Dev nD) (t : Fin cfg1.N) (j : Fin 256) :
    iblk1 V c 3 t (ix2 (0 : Fin 1) j) = (V c main_v16 : S1x256.Idx → Elt F .f32) (ix2 (0 : Fin 1) j) := by
  unfold iblk1
  show V c main_v16 (((cfg1.win 3).blk t).view.emb (ix2 (0 : Fin 1) j)) = V c main_v16 (ix2 (0 : Fin 1) j)
  refine congrArg (V c main_v16) (funext fun a => Fin.ext ?_)
  obtain ⟨-, -, -, -, -, -, -, -, e0, e1, -⟩ := blkIdx1 t
  match a with
  | ⟨0, _⟩ => show win1_3.index t (0 : Fin 2) * 1 + 1 * 0 = 0; omega
  | ⟨1, _⟩ => show win1_3.index t (1 : Fin 2) * 256 + 1 * j.val = j.val; omega

/-- Window 4 holds the whole matrix `main_v18` at every point. -/
theorem iblk1_4_apply (c : Dev nD) (t : Fin cfg1.N) (e j : Fin 256) :
    iblk1 V c 4 t (ix2 e j) = (V c main_v18 : S256x256.Idx → Elt F .f32) (ix2 e j) := by
  unfold iblk1
  show V c main_v18 (((cfg1.win 4).blk t).view.emb (ix2 e j)) = V c main_v18 (ix2 e j)
  refine congrArg (V c main_v18) (funext fun a => Fin.ext ?_)
  obtain ⟨-, -, -, -, -, -, -, -, -, -, e0, e1, -⟩ := blkIdx1 t
  match a with
  | ⟨0, _⟩ => show win1_4.index t (0 : Fin 2) * 256 + 1 * e.val = e.val; omega
  | ⟨1, _⟩ => show win1_4.index t (1 : Fin 2) * 256 + 1 * j.val = j.val; omega

/-- Window 5 holds the whole row `main_v20` at every point. -/
theorem iblk1_5_apply (c : Dev nD) (t : Fin cfg1.N) (j : Fin 256) :
    iblk1 V c 5 t (ix2 (0 : Fin 1) j) = (V c main_v20 : S1x256.Idx → Elt F .f32) (ix2 (0 : Fin 1) j) := by
  unfold iblk1
  show V c main_v20 (((cfg1.win 5).blk t).view.emb (ix2 (0 : Fin 1) j)) = V c main_v20 (ix2 (0 : Fin 1) j)
  refine congrArg (V c main_v20) (funext fun a => Fin.ext ?_)
  obtain ⟨-, -, -, -, -, -, -, -, -, -, -, -, e0, e1, -⟩ := blkIdx1 t
  match a with
  | ⟨0, _⟩ => show win1_5.index t (0 : Fin 2) * 1 + 1 * 0 = 0; omega
  | ⟨1, _⟩ => show win1_5.index t (1 : Fin 2) * 256 + 1 * j.val = j.val; omega

/-- Window 6 at point t holds graph t / 4 of `main_arg0`. -/
theorem iblk1_6_apply (c : Dev nD) (t : Fin cfg1.N) (n : Fin 2048) (e : Fin 256) :
    iblk1 V c 6 t (ix3 (0 : Fin 1) n e) = (V c main_arg0 : S8x2048x256.Idx → Elt F .f32) (ix3 (gb (t.cast N_1)) n e) := by
  unfold iblk1
  show V c main_arg0 (((cfg1.win 6).blk t).view.emb (ix3 (0 : Fin 1) n e)) = V c main_arg0 (ix3 (gb (t.cast N_1)) n e)
  refine congrArg (V c main_arg0) (funext fun a => Fin.ext ?_)
  obtain ⟨-, -, -, -, -, -, -, -, -, -, -, -, -, -, e0, e1, e2, -⟩ := blkIdx1 t
  match a with
  | ⟨0, _⟩ => show win1_6.index t (0 : Fin 3) * 1 + 1 * 0 = t.val / 4; omega
  | ⟨1, _⟩ => show win1_6.index t (1 : Fin 3) * 2048 + 1 * n.val = n.val; omega
  | ⟨2, _⟩ => show win1_6.index t (2 : Fin 3) * 256 + 1 * e.val = e.val; omega

end Region1

/-- The output window's block at point t, read off any whole array G, is graph t / 4 of G. -/
theorem oblk1_read (G : S8x2048x256.Idx → Elt F .f32) (t : Fin cfg1.N) (n : Fin 2048) (e : Fin 256) :
    (((cfg1.win 7).blk t).view.read (Elt F) G : S1x2048x256.Idx → Elt F .f32) (ix3 (0 : Fin 1) n e)
      = G (ix3 (gb (t.cast N_1)) n e) := by
  show G (((cfg1.win 7).blk t).view.emb (ix3 (0 : Fin 1) n e)) = G (ix3 (gb (t.cast N_1)) n e)
  refine congrArg G (funext fun a => Fin.ext ?_)
  obtain ⟨-, -, -, -, -, -, -, -, -, -, -, -, -, -, -, -, -, e0, e1, e2⟩ := blkIdx1 t
  match a with
  | ⟨0, _⟩ => show win1_7.index t (0 : Fin 3) * 1 + 1 * 0 = t.val / 4; omega
  | ⟨1, _⟩ => show win1_7.index t (1 : Fin 3) * 2048 + 1 * n.val = n.val; omega
  | ⟨2, _⟩ => show win1_7.index t (2 : Fin 3) * 256 + 1 * e.val = e.val; omega

/-- Every index of the output array is in the block some writing point covers: graph b is written back at the point
    4·b + 3. -/
theorem ocover1 (i : S8x2048x256.Idx) :
    ∃ t : Fin cfg1.N, (cfg1.win 7).flush t = true ∧ i ∈ ((cfg1.win 7).blk t).view.set := by
  have h0 : (i 0).val < 8 := (i 0).isLt
  have h1 : (i 1).val < 2048 := (i 1).isLt
  have h2 : (i 2).val < 256 := (i 2).isLt
  obtain ⟨t, ht⟩ : ∃ t : Fin cfg1.N, t.val = 4 * (i 0).val + 3 :=
    ⟨Fin.cast N_1.symm ⟨4 * (i 0).val + 3, by omega⟩, rfl⟩
  refine ⟨t, (flush1_7 t).mpr (by omega), ?_⟩
  show i ∈ ((View.whole main_v21).slice (win1_7.rect t)).set
  rw [View.set_slice_whole, Rect.mem_set_unit]
  obtain ⟨-, -, -, -, -, -, -, -, -, -, -, -, -, -, -, -, -, e0, e1, e2⟩ := blkIdx1 t
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 2048 ≤ (i 1).val ∧ (i 1).val < win1_7.index t (1 : Fin 3) * 2048 + 2048; omega
  | ⟨2, _⟩ => show win1_7.index t (2 : Fin 3) * 256 ≤ (i 2).val ∧ (i 2).val < win1_7.index t (2 : Fin 3) * 256 + 256; omega

end Cert.KernelIdeal.Hand

end
-- ==== Proof.KSpec.lean ====
/-
  One round as the kernel computes it, and that it is the specification's round.

  The kernel is handed, per layer, the weight matrices already transposed and sliced (Wt[e, j] = W[l, j, e]) and
  the biases as rows; it seeds an accumulator with the self term and adds the 2048 neighbours' contributions in
  four tiles of 512, and likewise the adjacency row sums. Addition on the extended reals is commutative and
  associative, so the grouping does not matter: the tiled, seeded sum is the aggregation plus the self term.
-/
import proofs.«156158_j51213190037828_2_alg».proof.Proof.Spec
import proofs.«156158_j51213190037828_2_alg».proof.Proof.TileSum

noncomputable section

namespace Cert.Spec

open Idealize.ShloMosaic ValueIdx

abbrev SM : Shape := ⟨2, ![256, 256]⟩
abbrev SR : Shape := ⟨2, ![1, 256]⟩

/-- A neighbour's transformed features with transposed weights: Σ_e x[b,k,e] · Wt[e,j] + bias[0,j]. -/
def klin (x : Feat) (Wt : SM.Idx → EReal) (bias : SR.Idx → EReal) : Feat := fun b k j =>
  (∑ e : Fin 256, x b k e * Wt (ix2 e j)) + bias (ix2 (0 : Fin 1) j)

/-- Tile k's contribution to the accumulator at (b, n, j). -/
def tileAcc (x : Feat) (adj : SA.Idx → EReal) (Wrt : SM.Idx → EReal) (br : SR.Idx → EReal) (b : Fin 8) (k : Fin 4) (n : Fin 2048) (j : Fin 256) : EReal :=
  ∑ q : Fin 512, adj (ix3 b n (tileIdx k q)) * klin x Wrt br b (tileIdx k q) j

/-- Tile k's contribution to the row sum at (b, n). -/
def tileDen (adj : SA.Idx → EReal) (b : Fin 8) (k : Fin 4) (n : Fin 2048) : EReal :=
  ∑ q : Fin 512, adj (ix3 b n (tileIdx k q))

/-- One round as the kernel leaves it: the seeded, tiled accumulator over the tiled row sum plus one, clamped. -/
def klayer (x : Feat) (adj : SA.Idx → EReal) (Wrt : SM.Idx → EReal) (br : SR.Idx → EReal) (W0t : SM.Idx → EReal) (b0 : SR.Idx → EReal) : Feat := fun b n j =>
  max (Ideal.div
      ((((klin x W0t b0 b n j + tileAcc x adj Wrt br b 0 n j) + tileAcc x adj Wrt br b 1 n j) + tileAcc x adj Wrt br b 2 n j) + tileAcc x adj Wrt br b 3 n j)
      ((((tileDen adj b 0 n + tileDen adj b 1 n) + tileDen adj b 2 n) + tileDen adj b 3 n) + one))
    zero

/-- The kernel's round is the specification's, when the kernel's weights are the l-th matrices transposed and the
    l-th bias rows. -/
theorem klayer_eq_layer (x : Feat) (adj : SA.Idx → EReal) (W0w : SW.Idx → EReal) (W0b : SB.Idx → EReal) (Wrw : SW.Idx → EReal) (Wrb : SB.Idx → EReal)
    (l : Fin 2) (Wrt : SM.Idx → EReal) (br : SR.Idx → EReal) (W0t : SM.Idx → EReal) (b0 : SR.Idx → EReal)
    (hWr : ∀ e j : Fin 256, Wrt (ix2 e j) = Wrw (ix3 l j e)) (hbr : ∀ j : Fin 256, br (ix2 (0 : Fin 1) j) = Wrb (ix2 l j))
    (hW0 : ∀ e j : Fin 256, W0t (ix2 e j) = W0w (ix3 l j e)) (hb0 : ∀ j : Fin 256, b0 (ix2 (0 : Fin 1) j) = W0b (ix2 l j)) :
    klayer x adj Wrt br W0t b0 = layer adj W0w W0b Wrw Wrb l x := by
  have hlinr : klin x Wrt br = lin x Wrw Wrb l := by
    funext b k j; unfold klin lin; rw [hbr]; congr 1
    exact Finset.sum_congr rfl fun e _ => by rw [hWr]
  have hlin0 : klin x W0t b0 = lin x W0w W0b l := by
    funext b k j; unfold klin lin; rw [hb0]; congr 1
    exact Finset.sum_congr rfl fun e _ => by rw [hW0]
  funext b n j
  unfold klayer layer
  have hacc : (((klin x W0t b0 b n j + tileAcc x adj Wrt br b 0 n j) + tileAcc x adj Wrt br b 1 n j) + tileAcc x adj Wrt br b 2 n j) + tileAcc x adj Wrt br b 3 n j
      = agg adj (lin x Wrw Wrb l) b n j + lin x W0w W0b l b n j := by
    rw [acc_regroup (klin x W0t b0 b n j) (fun k => tileAcc x adj Wrt br b k n j), hlin0]
    congr 1
    unfold agg tileAcc
    rw [sum_tiles (fun k => adj (ix3 b n k) * lin x Wrw Wrb l b k j), hlinr]
  have hden : (((tileDen adj b 0 n + tileDen adj b 1 n) + tileDen adj b 2 n) + tileDen adj b 3 n) + one = den adj b n := by
    unfold den tileDen
    rw [← sum_four (fun k => ∑ q : Fin 512, adj (ix3 b n (tileIdx k q))), ← sum_tiles (fun k => adj (ix3 b n k))]
  rw [hacc, hden]

end Cert.Spec

end
-- ==== Proof.Value0.lean ====
/-
  Region 0 at the extended reals: what the accumulator and the row-sum column hold after each grid point, in terms
  of the arrays the region is entered with — the first tile of a graph seeds the accumulator with the self term and
  adds its contribution, every later tile adds its own — and hence what the last tile of a graph writes into the
  output block: the kernel's form of one round, at the graph's rows. The output's blocks tile its array,
  so the array ends holding that function everywhere.
-/
import proofs.«156158_j51213190037828_2_alg».proof.Proof.Frame0
import proofs.«156158_j51213190037828_2_alg».proof.Proof.PieceAt0
import proofs.«156158_j51213190037828_2_alg».proof.Proof.BlockReads
import proofs.«156158_j51213190037828_2_alg».proof.Proof.KSpec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.HandVal
open Cert.Spec (Feat ofArr klin tileAcc tileDen klayer tileIdx)

section Value0
variable (V : (c : Dev nD) → (b : Ref sig .tc) → Buf (Elt Ideal) ((c : Thread nD τ).loc b)) (c : Dev nD)

/-- The region's arrays as it finds them: features, adjacency, the two transposed weight matrices, the two bias rows. -/
abbrev rX0 : Feat := ofArr (V c main_arg0 : Cert.Spec.SX.Idx → EReal)
abbrev rA0 : Cert.Spec.SA.Idx → EReal := V c main_arg1
abbrev rWr0 : Cert.Spec.SM.Idx → EReal := V c main_v5
abbrev rbr0 : Cert.Spec.SR.Idx → EReal := V c main_v7
abbrev rW00 : Cert.Spec.SM.Idx → EReal := V c main_v9
abbrev rb00 : Cert.Spec.SR.Idx → EReal := V c main_v11

/-- The tile coordinate of a grid point is its position mod 4 (decided over the grid). -/
theorem ki0_coords : ∀ t : Fin cfg0.N, ki0 (grid0.coords t) = gk (t.cast N_0) :=
  (by decide +kernel : ∀ t : Fin grid0.N, ki0 (grid0.coords t) = gk (t.cast N_0))

/-- After the first tile of a graph: the self term plus the tile's contribution. -/
theorem acc0_first (t : Fin cfg0.N) (h0 : t.val % 4 = 0) (n : Fin 2048) (j : Fin 256) :
    (outsAt0 V c t.val t.isLt).2.1 (ix2 n j)
      = klin (rX0 V c) (rW00 V c) (rb00 V c) (gb (t.cast N_0)) n j + tileAcc (rX0 V c) (rA0 V c) (rWr0 V c) (rbr0 V c) (gb (t.cast N_0)) (gk (t.cast N_0)) n j := by
  have h1 : ¬t.val % 4 = 3 := by omega
  rw [outsAt0_A V c t h0 h1]
  dsimp only
  refine (sout0_A_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) n j).trans ?_
  simp only [iblk0_0_apply, iblk0_1_apply, iblk0_2_apply, iblk0_3_apply, iblk0_4_apply, iblk0_5_apply, ki0_coords]
  rfl
theorem den0_first (t : Fin cfg0.N) (h0 : t.val % 4 = 0) (n : Fin 2048) :
    (outsAt0 V c t.val t.isLt).2.2 (ix2 n (0 : Fin 1)) = tileDen (rA0 V c) (gb (t.cast N_0)) (gk (t.cast N_0)) n := by
  have h1 : ¬t.val % 4 = 3 := by omega
  rw [outsAt0_A V c t h0 h1]
  dsimp only
  refine (sout0_A_1_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) n).trans ?_
  simp only [iblk0_0_apply, iblk0_1_apply, iblk0_2_apply, iblk0_3_apply, iblk0_4_apply, iblk0_5_apply, ki0_coords]
  rfl

/-- After a later tile: what the point before left, plus the tile's contribution. -/
theorem acc0_next (t : Fin cfg0.N) (h0 : ¬t.val % 4 = 0) (n : Fin 2048) (j : Fin 256) :
    (outsAt0 V c t.val t.isLt).2.1 (ix2 n j)
      = (outsAt0 V c (t.val - 1) (Nat.lt_of_le_of_lt (Nat.sub_le _ _) t.isLt)).2.1 (ix2 n j) + tileAcc (rX0 V c) (rA0 V c) (rWr0 V c) (rbr0 V c) (gb (t.cast N_0)) (gk (t.cast N_0)) n j := by
  by_cases h1 : t.val % 4 = 3
  · rw [outsAt0_C V c t h0 h1]
    dsimp only
    refine (sout0_C_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 n j).trans ?_
    simp only [iblk0_0_apply, iblk0_1_apply, iblk0_2_apply, iblk0_3_apply, iblk0_4_apply, iblk0_5_apply, ki0_coords]
    rfl
  · rw [outsAt0_B V c t h0 h1]
    dsimp only
    refine (sout0_B_0_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 n j).trans ?_
    simp only [iblk0_0_apply, iblk0_1_apply, iblk0_2_apply, iblk0_3_apply, iblk0_4_apply, iblk0_5_apply, ki0_coords]
    rfl
theorem den0_next (t : Fin cfg0.N) (h0 : ¬t.val % 4 = 0) (n : Fin 2048) :
    (outsAt0 V c t.val t.isLt).2.2 (ix2 n (0 : Fin 1))
      = (outsAt0 V c (t.val - 1) (Nat.lt_of_le_of_lt (Nat.sub_le _ _) t.isLt)).2.2 (ix2 n (0 : Fin 1)) + tileDen (rA0 V c) (gb (t.cast N_0)) (gk (t.cast N_0)) n := by
  by_cases h1 : t.val % 4 = 3
  · rw [outsAt0_C V c t h0 h1]
    dsimp only
    refine (sout0_C_1_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 n).trans ?_
    simp only [iblk0_0_apply, iblk0_1_apply, iblk0_2_apply, iblk0_3_apply, iblk0_4_apply, iblk0_5_apply, ki0_coords]
    rfl
  · rw [outsAt0_B V c t h0 h1]
    dsimp only
    refine (sout0_B_1_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 n).trans ?_
    simp only [iblk0_0_apply, iblk0_1_apply, iblk0_2_apply, iblk0_3_apply, iblk0_4_apply, iblk0_5_apply, ki0_coords]
    rfl

/-- What the last tile of a graph stores into the output block: the accumulator over (row sum + 1), clamped. -/
theorem out0_last (t : Fin cfg0.N) (h1 : t.val % 4 = 3) (n : Fin 2048) (j : Fin 256) :
    (outsAt0 V c t.val t.isLt).1 (ix3 (0 : Fin 1) n j)
      = max (Ideal.div ((outsAt0 V c t.val t.isLt).2.1 (ix2 n j)) ((outsAt0 V c t.val t.isLt).2.2 (ix2 n (0 : Fin 1)) + Cert.Spec.one)) Cert.Spec.zero := by
  have h0 : ¬t.val % 4 = 0 := by omega
  rw [outsAt0_C V c t h0 h1]
  dsimp only
  refine (out0_C_6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2 n j).trans ?_
  rfl

/-- The kernel's round at every index, as an array. -/
def Gk0 : S8x2048x256.Idx → EReal := fun i =>
  klayer (rX0 V c) (rA0 V c) (rWr0 V c) (rbr0 V c) (rW00 V c) (rb00 V c) (i 0) (i 1) (i 2)

/-- AT THE LAST TILE OF A GRAPH the output block holds the kernel's round at the graph's rows: the accumulator
    went through the four tiles in order from the self term, the row sum likewise from the first tile's. -/
theorem flush0_val (t : Fin cfg0.N) (h3 : t.val % 4 = 3) (n : Fin 2048) (j : Fin 256) :
    (outsAt0 V c t.val t.isLt).1 (ix3 (0 : Fin 1) n j)
      = klayer (rX0 V c) (rA0 V c) (rWr0 V c) (rbr0 V c) (rW00 V c) (rb00 V c) (gb (t.cast N_0)) n j := by
  have hN : t.val < 32 := lt_of_lt_of_eq t.isLt (show cfg0.N = 32 from N_0)
  let t1 : Fin cfg0.N := ⟨t.val - 1, Nat.lt_of_le_of_lt (Nat.sub_le _ _) t.isLt⟩
  let t2 : Fin cfg0.N := ⟨t1.val - 1, Nat.lt_of_le_of_lt (Nat.sub_le _ _) t1.isLt⟩
  let t3 : Fin cfg0.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have hb1 : gb (t1.cast N_0) = gb (t.cast N_0) := Fin.ext (by show (t.val - 1) / 4 = t.val / 4; omega)
  have hb2 : gb (t2.cast N_0) = gb (t.cast N_0) := Fin.ext (by show (t.val - 1 - 1) / 4 = t.val / 4; omega)
  have hb3 : gb (t3.cast N_0) = gb (t.cast N_0) := Fin.ext (by show (t.val - 1 - 1 - 1) / 4 = t.val / 4; omega)
  have hk : gk (t.cast N_0) = 3 := Fin.ext (by show t.val % 4 = 3; exact h3)
  have hk1 : gk (t1.cast N_0) = 2 := Fin.ext (by show (t.val - 1) % 4 = 2; omega)
  have hk2 : gk (t2.cast N_0) = 1 := Fin.ext (by show (t.val - 1 - 1) % 4 = 1; omega)
  have hk3 : gk (t3.cast N_0) = 0 := Fin.ext (by show (t.val - 1 - 1 - 1) % 4 = 0; omega)
  have A3 := acc0_next V c t (by omega) n j
  have A2 := acc0_next V c t1 (by rw [v1]; omega) n j
  have A1 := acc0_next V c t2 (by rw [v2]; omega) n j
  have A0 := acc0_first V c t3 (by rw [v3]; omega) n j
  have D3 := den0_next V c t (by omega) n
  have D2 := den0_next V c t1 (by rw [v1]; omega) n
  have D1 := den0_next V c t2 (by rw [v2]; omega) n
  have D0 := den0_first V c t3 (by rw [v3]; omega) n
  rw [hb1, hk1] at A2 D2; rw [hb2, hk2] at A1 D1; rw [hb3, hk3] at A0 D0; rw [hk] at A3 D3
  have hacc : (outsAt0 V c t.val t.isLt).2.1 (ix2 n j)
      = (((klin (rX0 V c) (rW00 V c) (rb00 V c) (gb (t.cast N_0)) n j + tileAcc (rX0 V c) (rA0 V c) (rWr0 V c) (rbr0 V c) (gb (t.cast N_0)) 0 n j) + tileAcc (rX0 V c) (rA0 V c) (rWr0 V c) (rbr0 V c) (gb (t.cast N_0)) 1 n j) + tileAcc (rX0 V c) (rA0 V c) (rWr0 V c) (rbr0 V c) (gb (t.cast N_0)) 2 n j) + tileAcc (rX0 V c) (rA0 V c) (rWr0 V c) (rbr0 V c) (gb (t.cast N_0)) 3 n j :=
    A3.trans (congrArg (· + _) (A2.trans (congrArg (· + _) (A1.trans (congrArg (· + _) A0)))))
  have hden : (outsAt0 V c t.val t.isLt).2.2 (ix2 n (0 : Fin 1))
      = ((tileDen (rA0 V c) (gb (t.cast N_0)) 0 n + tileDen (rA0 V c) (gb (t.cast N_0)) 1 n) + tileDen (rA0 V c) (gb (t.cast N_0)) 2 n) + tileDen (rA0 V c) (gb (t.cast N_0)) 3 n :=
    D3.trans (congrArg (· + _) (D2.trans (congrArg (· + _) (D1.trans (congrArg (· + _) D0)))))
  rw [out0_last V c t h3 n j, hacc, hden]
  rfl

/-- WHAT A LAST-TILE POINT WRITES BACK is its block of the kernel's round. -/
theorem flushed0_eq (t : Fin cfg0.N) (hf : (cfg0.win 6).flush t = true) :
    (dat0 V c).flushed 6 t = ((cfg0.win 6).blk t).view.read (Elt Ideal) (Gk0 V c) := by
  have h3 : t.val % 4 = 3 := (flush0_6 t).mp hf
  show (cfg0.win 6).cut (grid0.coords t) ((dat0 V c).after 6 t) = _
  rw [after0_6]
  refine funext fun (y : S1x2048x256.Idx) => ?_
  obtain ⟨u, n, j, rfl⟩ : ∃ (u : Fin 1) (n : Fin 2048) (j : Fin 256), y = ix3 u n j := ⟨y 0, y 1, y 2, eq_ix3 y⟩
  obtain rfl : u = 0 := Subsingleton.elim _ _
  refine Eq.trans ?_ (oblk0_read (F := Ideal) (Gk0 V c) t n j).symm
  show (outsAt0 V c t.val t.isLt).1 (ix3 (0 : Fin 1) n j) = _
  rw [flush0_val V c t h3 n j]
  rfl

/-- THE OUTPUT ARRAY after the region: the kernel's round everywhere (the output's blocks tile the array). -/
theorem final0 : (dat0 V c).arrAt 6 cfg0.N = Gk0 V c :=
  (dat0 V c).arrAt_eq_of_cover 6 (Gk0 V c) (fun t hf => flushed0_eq V c t hf) ocover0

end Value0

end Cert.KernelIdeal.Hand

end
-- ==== Proof.PieceVal1.lean ====
/-
  Region 1 (the layer with the residual): what each case of the body leaves in its buffers, as the body's named payloads of the blocks it loads.
-/
import proofs.«156158_j51213190037828_2_alg».proof.Proof.Pieces1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a whole-buffer access of rank two, as the constant function. -/
theorem offs1_zero2 : (![0, 0] : Fin 2 → Nat) = fun _ => 0 := funext fun a => by fin_cases a <;> rfl
/-- The zero offsets of a whole-buffer access of rank three, as the constant function. -/
theorem offs1_zero3 : (![0, 0, 0] : Fin 3 → Nat) = fun _ => 0 := funext fun a => by fin_cases a <;> rfl

/-- The rows of the features block the body loads at a point: the 512 rows of the point's column tile. -/
def rows1 (i : grid1.Coords) (x0 : Vec F S1x2048x256 .f32) : Vec F S1x512x256 .f32 :=
  View.ld x0 (Rect.unit (s := S1x2048x256) (k1_off1 i) S1x512x256.size (k1_off1_inb i))

/-! ## At the first column tile: the buffers are reset, then the tile is added -/

/-- The row-sum column: the tile's row sums added to the zero column. -/
theorem sout1_A_1_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) :
    sout1_A_1 c i arg2 harg2 arg3 harg3 arg4 harg4 arg5 harg5 arg6 harg6 arg7 harg7 arg8 harg8 arg9 harg9 arg10 harg10 arg11 harg11 hc0 hc1 x0 x1 x2 x3 x4 x5 x6 = k1_pay1 (k1_pay7 x1 k1_pay3) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S2048x1) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]

/-- The accumulator: the tile's product added to the self term. -/
theorem sout1_A_0_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) :
    sout1_A_0 c i arg2 harg2 arg3 harg3 arg4 harg4 arg5 harg5 arg6 harg6 arg7 harg7 arg8 harg8 arg9 harg9 arg10 harg10 arg11 harg11 hc0 hc1 x0 x1 x2 x3 x4 x5 x6 = k1_pay6 (rows1 i x0) x1 x2 x3 (k1_pay4 x0 x4 x5) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun1_A
  dsimp only
  sl_unfold_words
  rw [View.canon_cons_unit_zero (S := S2048x256) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]
  rfl

/-! ## At a middle column tile: the tile is added to what the buffers hold -/

/-- The row-sum column: the tile's row sums added to the column on entry. -/
theorem sout1_B_1_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    sout1_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay1 (k1_pay7 x1 xs1) := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  sl_unfold_words
  rw [View.canon_cons_unit_zero (S := S2048x1) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]

/-- The accumulator: the tile's product added to the accumulator on entry. -/
theorem sout1_B_0_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    sout1_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay6 (rows1 i x0) x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_B
  dsimp only
  sl_unfold_words
  rw [View.canon_cons_unit_zero (S := S2048x256) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]
  rfl

/-! ## At the last column tile: the tile is added, then the output block is computed from the two buffers and the nodes block -/

/-- The row-sum column: the tile's row sums added to the column on entry. -/
theorem sout1_C_1_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay1 (k1_pay7 x1 xs1) := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_cons_unit_zero (S := S2048x1) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]

/-- The accumulator: the tile's product added to the accumulator on entry. -/
theorem sout1_C_0_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay6 (rows1 i x0) x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_cons_unit_zero (S := S2048x256) offs1_zero2]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]
  rfl

/-- The output block: the nodes block plus the normalised, clamped quotient of the two buffers as this point has just
    left them. -/
theorem out1_C_7_val (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay2 (k1_pay1 (k1_pay7 x1 xs1)) (k1_pay6 (rows1 i x0) x1 x2 x3 xs0) x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun1_C
  dsimp only
  sl_unfold_words
  rw [View.canon_cons_unit_zero (S := S1x2048x256) offs1_zero3]
  simp only [View.readAt_eq_ld, harg2.read_unread, harg3.read_unread, harg4.read_unread, harg5.read_unread, harg6.read_unread, harg7.read_unread, harg8.read_unread, harg10.read_unread, harg11.read_unread,
    View.ld_unit_zero (S := S1x2048x512) offs1_zero3, View.ld_unit_zero (S := S1x2048x256) offs1_zero3, View.ld_unit_zero (S := S256x256) offs1_zero2, View.ld_unit_zero (S := S1x256) offs1_zero2, View.ld_unit_zero (S := S2048x256) offs1_zero2, View.ld_unit_zero (S := S2048x1) offs1_zero2,
    View.readCov_unit_zero (S := S2048x256) _ offs1_zero2, View.readCov_unit_zero (S := S2048x1) _ offs1_zero2]
  rfl

/-- The same, over the two buffers' final contents by name. -/
theorem out1_C_7_eq (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec F S1x2048x256 .f32) (x1 : Vec F S1x2048x512 .f32) (x2 : Vec F S256x256 .f32) (x3 : Vec F S1x256 .f32) (x4 : Vec F S256x256 .f32) (x5 : Vec F S1x256 .f32) (x6 : Vec F S1x2048x256 .f32) (xs0 : Vec F S2048x256 .f32) (xs1 : Vec F S2048x1 .f32) :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k1_pay2 (sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1) (sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1) x6 := by
  rw [sout1_C_1_eq, sout1_C_0_eq]
  exact out1_C_7_val c i arg2 harg2 arg3 harg3 arg4 harg4 arg5 harg5 arg6 harg6 arg7 harg7 arg8 harg8 arg9 harg9 arg10 harg10 arg11 harg11 hc0 hc1 x0 x1 x2 x3 x4 x5 x6 xs0 xs1

end Cert.KernelIdeal.Hand
-- ==== Proof.PieceAt1.lean ====
/-
  Region 1: what each case of the body leaves in its buffers, entry by entry on the extended reals, as explicit sums
  over the blocks the body loads.
-/
import proofs.«156158_j51213190037828_2_alg».proof.Proof.PieceVal1
import proofs.«156158_j51213190037828_2_alg».proof.Proof.Pay0
import proofs.«156158_j51213190037828_2_alg».proof.Proof.TileSum

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.HandVal

/-- The column tile of a grid point. -/
def ki1 (i : grid1.Coords) : Fin 4 := ⟨(i 1).val, (i 1).isLt⟩

/-- The loaded rows at an index: row `q` of the point's tile is row `512 k + q` of the features block. -/
theorem rows1_apply {F : FTy → Type} [FloatOps F] (i : grid1.Coords) (x0 : Vec F S1x2048x256 .f32) (q : Fin 512) (e : Fin 256) :
    rows1 i x0 (ix3 (0 : Fin 1) q e) = x0 (ix3 (0 : Fin 1) (Cert.Spec.tileIdx (ki1 i) q) e) := by
  unfold rows1
  refine congrArg x0 (funext fun a => Fin.ext ?_)
  have ho := k1_off1_eq i
  match a with
  | ⟨0, _⟩ =>
    show k1_off1 i 0 + 1 * (0 : Fin 1).val = 0
    rw [ho]; rfl
  | ⟨1, _⟩ =>
    show k1_off1 i 1 + 1 * q.val = 512 * (i 1).val + q.val
    rw [ho]; show 512 * (i 1).val + 1 * q.val = _; omega
  | ⟨2, _⟩ =>
    show k1_off1 i 2 + 1 * e.val = e.val
    rw [ho]; show 0 + 1 * e.val = e.val; omega

/-! ## At the first column tile -/

/-- The row-sum column: the tile's row sums. -/
theorem sout1_A_1_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (n : Fin 2048) :
    sout1_A_1 c i arg2 harg2 arg3 harg3 arg4 harg4 arg5 harg5 arg6 harg6 arg7 harg7 arg8 harg8 arg9 harg9 arg10 harg10 arg11 harg11 hc0 hc1 x0 x1 x2 x3 x4 x5 x6 (ix2 n (0 : Fin 1)) = ∑ q : Fin 512, x1 (ix3 (0 : Fin 1) n q) := by
  refine (congrFun (sout1_A_1_eq c i arg2 harg2 arg3 harg3 arg4 harg4 arg5 harg5 arg6 harg6 arg7 harg7 arg8 harg8 arg9 harg9 arg10 harg10 arg11 harg11 hc0 hc1 x0 x1 x2 x3 x4 x5 x6) _).trans ?_
  refine (k1_pay1_apply _ n).trans ?_
  refine (k1_pay7_apply x1 _ n).trans ?_
  rw [k1_pay3_apply n, zero_add]

/-- The accumulator: the self term plus the tile's product. -/
theorem sout1_A_0_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : cond1_0 i) (hc1 : ¬cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (n : Fin 2048) (j : Fin 256) :
    sout1_A_0 c i arg2 harg2 arg3 harg3 arg4 harg4 arg5 harg5 arg6 harg6 arg7 harg7 arg8 harg8 arg9 harg9 arg10 harg10 arg11 harg11 hc0 hc1 x0 x1 x2 x3 x4 x5 x6 (ix2 n j)
      = ((∑ e : Fin 256, x0 (ix3 (0 : Fin 1) n e) * x4 (ix2 e j)) + x5 (ix2 (0 : Fin 1) j))
        + ∑ q : Fin 512, x1 (ix3 (0 : Fin 1) n q) * ((∑ e : Fin 256, x0 (ix3 (0 : Fin 1) (Cert.Spec.tileIdx (ki1 i) q) e) * x2 (ix2 e j)) + x3 (ix2 (0 : Fin 1) j)) := by
  refine (congrFun (sout1_A_0_eq c i arg2 harg2 arg3 harg3 arg4 harg4 arg5 harg5 arg6 harg6 arg7 harg7 arg8 harg8 arg9 harg9 arg10 harg10 arg11 harg11 hc0 hc1 x0 x1 x2 x3 x4 x5 x6) _).trans ?_
  refine (k1_pay6_apply (rows1 i x0) x1 x2 x3 (k1_pay4 x0 x4 x5) n j).trans ?_
  refine congrArg₂ (· + ·) (k1_pay4_apply x0 x4 x5 n j) ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows1_apply i x0 q e)

/-! ## At a middle column tile -/

/-- The row-sum column: the column on entry plus the tile's row sums. -/
theorem sout1_B_1_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (xs0 : Vec Ideal S2048x256 .f32) (xs1 : Vec Ideal S2048x1 .f32) (n : Fin 2048) :
    sout1_B_1 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n (0 : Fin 1)) = xs1 (ix2 n (0 : Fin 1)) + ∑ q : Fin 512, x1 (ix3 (0 : Fin 1) n q) := by
  refine (congrFun (sout1_B_1_eq c i arg2 harg2 arg3 harg3 arg4 harg4 arg5 harg5 arg6 harg6 arg7 harg7 arg8 harg8 arg9 harg9 arg10 harg10 arg11 harg11 hc0 hc1 x0 x1 x2 x3 x4 x5 x6 xs0 xs1) _).trans ?_
  refine (k1_pay1_apply _ n).trans ?_
  exact k1_pay7_apply x1 xs1 n

/-- The accumulator: the accumulator on entry plus the tile's product. -/
theorem sout1_B_0_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : ¬cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (xs0 : Vec Ideal S2048x256 .f32) (xs1 : Vec Ideal S2048x1 .f32) (n : Fin 2048) (j : Fin 256) :
    sout1_B_0 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n j)
      = xs0 (ix2 n j) + ∑ q : Fin 512, x1 (ix3 (0 : Fin 1) n q) * ((∑ e : Fin 256, x0 (ix3 (0 : Fin 1) (Cert.Spec.tileIdx (ki1 i) q) e) * x2 (ix2 e j)) + x3 (ix2 (0 : Fin 1) j)) := by
  refine (congrFun (sout1_B_0_eq c i arg2 harg2 arg3 harg3 arg4 harg4 arg5 harg5 arg6 harg6 arg7 harg7 arg8 harg8 arg9 harg9 arg10 harg10 arg11 harg11 hc0 hc1 x0 x1 x2 x3 x4 x5 x6 xs0 xs1) _).trans ?_
  refine (k1_pay6_apply (rows1 i x0) x1 x2 x3 xs0 n j).trans ?_
  refine congrArg₂ (· + ·) rfl ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows1_apply i x0 q e)

/-! ## At the last column tile -/

/-- The row-sum column: the column on entry plus the tile's row sums. -/
theorem sout1_C_1_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (xs0 : Vec Ideal S2048x256 .f32) (xs1 : Vec Ideal S2048x1 .f32) (n : Fin 2048) :
    sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n (0 : Fin 1)) = xs1 (ix2 n (0 : Fin 1)) + ∑ q : Fin 512, x1 (ix3 (0 : Fin 1) n q) := by
  refine (congrFun (sout1_C_1_eq c i arg2 harg2 arg3 harg3 arg4 harg4 arg5 harg5 arg6 harg6 arg7 harg7 arg8 harg8 arg9 harg9 arg10 harg10 arg11 harg11 hc0 hc1 x0 x1 x2 x3 x4 x5 x6 xs0 xs1) _).trans ?_
  refine (k1_pay1_apply _ n).trans ?_
  exact k1_pay7_apply x1 xs1 n

/-- The accumulator: the accumulator on entry plus the tile's product. -/
theorem sout1_C_0_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (xs0 : Vec Ideal S2048x256 .f32) (xs1 : Vec Ideal S2048x1 .f32) (n : Fin 2048) (j : Fin 256) :
    sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n j)
      = xs0 (ix2 n j) + ∑ q : Fin 512, x1 (ix3 (0 : Fin 1) n q) * ((∑ e : Fin 256, x0 (ix3 (0 : Fin 1) (Cert.Spec.tileIdx (ki1 i) q) e) * x2 (ix2 e j)) + x3 (ix2 (0 : Fin 1) j)) := by
  refine (congrFun (sout1_C_0_eq c i arg2 harg2 arg3 harg3 arg4 harg4 arg5 harg5 arg6 harg6 arg7 harg7 arg8 harg8 arg9 harg9 arg10 harg10 arg11 harg11 hc0 hc1 x0 x1 x2 x3 x4 x5 x6 xs0 xs1) _).trans ?_
  refine (k1_pay6_apply (rows1 i x0) x1 x2 x3 xs0 n j).trans ?_
  refine congrArg₂ (· + ·) rfl ?_
  refine Finset.sum_congr rfl fun q _ => congrArg (x1 (ix3 (0 : Fin 1) n q) * ·) ?_
  refine congrArg (· + x3 (ix2 (0 : Fin 1) j)) ?_
  exact Finset.sum_congr rfl fun e _ => congrArg (· * x2 (ix2 e j)) (rows1_apply i x0 q e)

/-- The output block: the nodes block plus the accumulator's final entry divided by the final row sum plus one, clamped below at zero. -/
theorem out1_C_7_at (c : Dev nD) (i : grid1.Coords) (arg2 : Memref sig .tc .vmem S1x2048x256 .f32) (harg2 : arg2.IsWhole) (arg3 : Memref sig .tc .vmem S1x2048x512 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .f32) (harg10 : arg10.IsWhole) (arg11 : Memref sig .tc .vmem S2048x1 .f32) (harg11 : arg11.IsWhole) (hc0 : ¬cond1_0 i) (hc1 : cond1_1 i)
    (x0 : Vec Ideal S1x2048x256 .f32) (x1 : Vec Ideal S1x2048x512 .f32) (x2 : Vec Ideal S256x256 .f32) (x3 : Vec Ideal S1x256 .f32) (x4 : Vec Ideal S256x256 .f32) (x5 : Vec Ideal S1x256 .f32) (x6 : Vec Ideal S1x2048x256 .f32) (xs0 : Vec Ideal S2048x256 .f32) (xs1 : Vec Ideal S2048x1 .f32) (n : Fin 2048) (j : Fin 256) :
    out1_C_7 c i arg2 harg2 arg3 harg3 arg4 harg4 arg5 harg5 arg6 harg6 arg7 harg7 arg8 harg8 arg9 harg9 arg10 harg10 arg11 harg11 hc0 hc1 x0 x1 x2 x3 x4 x5 x6 xs0 xs1 (ix3 (0 : Fin 1) n j)
      = x6 (ix3 (0 : Fin 1) n j) + max (Ideal.div (sout1_C_0 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n j))
            (sout1_C_1 c i arg2 harg2 arg3 harg3 arg4 harg4 arg5 harg5 arg6 harg6 arg7 harg7 arg8 harg8 arg9 harg9 arg10 harg10 arg11 harg11 hc0 hc1 x0 x1 x2 x3 x4 x5 x6 xs0 xs1 (ix2 n (0 : Fin 1)) + Ideal.ofBits .f32 0x3F800000#32))
          (Ideal.ofBits .f32 0x00000000#32) := by
  refine (congrFun (out1_C_7_eq c i arg2 harg2 arg3 harg3 arg4 harg4 arg5 harg5 arg6 harg6 arg7 harg7 arg8 harg8 arg9 harg9 arg10 harg10 arg11 harg11 hc0 hc1 x0 x1 x2 x3 x4 x5 x6 xs0 xs1) _).trans ?_
  exact k1_pay2_apply _ _ x6 n j

end Cert.KernelIdeal.Hand
-- ==== Proof.Value1.lean ====
/-
  Region 1 at the extended reals: what the accumulator and the row-sum column hold after each grid point, in terms
  of the arrays the region is entered with — the first tile of a graph seeds the accumulator with the self term and
  adds its contribution, every later tile adds its own — and hence what the last tile of a graph writes into the
  output block: the kernel's form of one round added to the original node features, at the graph's rows. The output's blocks tile its array,
  so the array ends holding that function everywhere.
-/
import proofs.«156158_j51213190037828_2_alg».proof.Proof.Frame1
import proofs.«156158_j51213190037828_2_alg».proof.Proof.PieceAt1
import proofs.«156158_j51213190037828_2_alg».proof.Proof.BlockReads
import proofs.«156158_j51213190037828_2_alg».proof.Proof.KSpec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.HandVal
open Cert.Spec (Feat ofArr klin tileAcc tileDen klayer tileIdx)

section Value1
variable (V : (c : Dev nD) → (b : Ref sig .tc) → Buf (Elt Ideal) ((c : Thread nD τ).loc b)) (c : Dev nD)

/-- The region's arrays as it finds them: features, adjacency, the two transposed weight matrices, the two bias rows, the original node features. -/
abbrev rX1 : Feat := ofArr (V c main_v12 : Cert.Spec.SX.Idx → EReal)
abbrev rA1 : Cert.Spec.SA.Idx → EReal := V c main_arg1
abbrev rWr1 : Cert.Spec.SM.Idx → EReal := V c main_v14
abbrev rbr1 : Cert.Spec.SR.Idx → EReal := V c main_v16
abbrev rW01 : Cert.Spec.SM.Idx → EReal := V c main_v18
abbrev rb01 : Cert.Spec.SR.Idx → EReal := V c main_v20
abbrev rN1 : Feat := ofArr (V c main_arg0 : Cert.Spec.SX.Idx → EReal)

/-- The tile coordinate of a grid point is its position mod 4 (decided over the grid). -/
theorem ki1_coords : ∀ t : Fin cfg1.N, ki1 (grid1.coords t) = gk (t.cast N_1) :=
  (by decide +kernel : ∀ t : Fin grid1.N, ki1 (grid1.coords t) = gk (t.cast N_1))

/-- After the first tile of a graph: the self term plus the tile's contribution. -/
theorem acc1_first (t : Fin cfg1.N) (h0 : t.val % 4 = 0) (n : Fin 2048) (j : Fin 256) :
    (outsAt1 V c t.val t.isLt).2.1 (ix2 n j)
      = klin (rX1 V c) (rW01 V c) (rb01 V c) (gb (t.cast N_1)) n j + tileAcc (rX1 V c) (rA1 V c) (rWr1 V c) (rbr1 V c) (gb (t.cast N_1)) (gk (t.cast N_1)) n j := by
  have h1 : ¬t.val % 4 = 3 := by omega
  rw [outsAt1_A V c t h0 h1]
  dsimp only
  refine (sout1_A_0_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) n j).trans ?_
  simp only [iblk1_0_apply, iblk1_1_apply, iblk1_2_apply, iblk1_3_apply, iblk1_4_apply, iblk1_5_apply, iblk1_6_apply, ki1_coords]
  rfl
theorem den1_first (t : Fin cfg1.N) (h0 : t.val % 4 = 0) (n : Fin 2048) :
    (outsAt1 V c t.val t.isLt).2.2 (ix2 n (0 : Fin 1)) = tileDen (rA1 V c) (gb (t.cast N_1)) (gk (t.cast N_1)) n := by
  have h1 : ¬t.val % 4 = 3 := by omega
  rw [outsAt1_A V c t h0 h1]
  dsimp only
  refine (sout1_A_1_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) n).trans ?_
  simp only [iblk1_0_apply, iblk1_1_apply, iblk1_2_apply, iblk1_3_apply, iblk1_4_apply, iblk1_5_apply, iblk1_6_apply, ki1_coords]
  rfl

/-- After a later tile: what the point before left, plus the tile's contribution. -/
theorem acc1_next (t : Fin cfg1.N) (h0 : ¬t.val % 4 = 0) (n : Fin 2048) (j : Fin 256) :
    (outsAt1 V c t.val t.isLt).2.1 (ix2 n j)
      = (outsAt1 V c (t.val - 1) (Nat.lt_of_le_of_lt (Nat.sub_le _ _) t.isLt)).2.1 (ix2 n j) + tileAcc (rX1 V c) (rA1 V c) (rWr1 V c) (rbr1 V c) (gb (t.cast N_1)) (gk (t.cast N_1)) n j := by
  by_cases h1 : t.val % 4 = 3
  · rw [outsAt1_C V c t h0 h1]
    dsimp only
    refine (sout1_C_0_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 n j).trans ?_
    simp only [iblk1_0_apply, iblk1_1_apply, iblk1_2_apply, iblk1_3_apply, iblk1_4_apply, iblk1_5_apply, iblk1_6_apply, ki1_coords]
    rfl
  · rw [outsAt1_B V c t h0 h1]
    dsimp only
    refine (sout1_B_0_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 n j).trans ?_
    simp only [iblk1_0_apply, iblk1_1_apply, iblk1_2_apply, iblk1_3_apply, iblk1_4_apply, iblk1_5_apply, iblk1_6_apply, ki1_coords]
    rfl
theorem den1_next (t : Fin cfg1.N) (h0 : ¬t.val % 4 = 0) (n : Fin 2048) :
    (outsAt1 V c t.val t.isLt).2.2 (ix2 n (0 : Fin 1))
      = (outsAt1 V c (t.val - 1) (Nat.lt_of_le_of_lt (Nat.sub_le _ _) t.isLt)).2.2 (ix2 n (0 : Fin 1)) + tileDen (rA1 V c) (gb (t.cast N_1)) (gk (t.cast N_1)) n := by
  by_cases h1 : t.val % 4 = 3
  · rw [outsAt1_C V c t h0 h1]
    dsimp only
    refine (sout1_C_1_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 n).trans ?_
    simp only [iblk1_0_apply, iblk1_1_apply, iblk1_2_apply, iblk1_3_apply, iblk1_4_apply, iblk1_5_apply, iblk1_6_apply, ki1_coords]
    rfl
  · rw [outsAt1_B V c t h0 h1]
    dsimp only
    refine (sout1_B_1_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 n).trans ?_
    simp only [iblk1_0_apply, iblk1_1_apply, iblk1_2_apply, iblk1_3_apply, iblk1_4_apply, iblk1_5_apply, iblk1_6_apply, ki1_coords]
    rfl

/-- What the last tile of a graph stores into the output block: the accumulator over (row sum + 1), clamped, plus the node features. -/
theorem out1_last (t : Fin cfg1.N) (h1 : t.val % 4 = 3) (n : Fin 2048) (j : Fin 256) :
    (outsAt1 V c t.val t.isLt).1 (ix3 (0 : Fin 1) n j)
      = rN1 V c (gb (t.cast N_1)) n j + max (Ideal.div ((outsAt1 V c t.val t.isLt).2.1 (ix2 n j)) ((outsAt1 V c t.val t.isLt).2.2 (ix2 n (0 : Fin 1)) + Cert.Spec.one)) Cert.Spec.zero := by
  have h0 : ¬t.val % 4 = 0 := by omega
  rw [outsAt1_C V c t h0 h1]
  dsimp only
  refine (out1_C_7_at c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2 n j).trans ?_
  simp only [iblk1_6_apply]
  rfl

/-- The kernel's round at every index, as an array, plus the original node features. -/
def Gk1 : S8x2048x256.Idx → EReal := fun i =>
  rN1 V c (i 0) (i 1) (i 2) + klayer (rX1 V c) (rA1 V c) (rWr1 V c) (rbr1 V c) (rW01 V c) (rb01 V c) (i 0) (i 1) (i 2)

/-- AT THE LAST TILE OF A GRAPH the output block holds the kernel's round at the graph's rows: the accumulator
    went through the four tiles in order from the self term, the row sum likewise from the first tile's. -/
theorem flush1_val (t : Fin cfg1.N) (h3 : t.val % 4 = 3) (n : Fin 2048) (j : Fin 256) :
    (outsAt1 V c t.val t.isLt).1 (ix3 (0 : Fin 1) n j)
      = rN1 V c (gb (t.cast N_1)) n j + klayer (rX1 V c) (rA1 V c) (rWr1 V c) (rbr1 V c) (rW01 V c) (rb01 V c) (gb (t.cast N_1)) n j := by
  have hN : t.val < 32 := lt_of_lt_of_eq t.isLt (show cfg1.N = 32 from N_1)
  let t1 : Fin cfg1.N := ⟨t.val - 1, Nat.lt_of_le_of_lt (Nat.sub_le _ _) t.isLt⟩
  let t2 : Fin cfg1.N := ⟨t1.val - 1, Nat.lt_of_le_of_lt (Nat.sub_le _ _) t1.isLt⟩
  let t3 : Fin cfg1.N := ⟨t2.val - 1, Nat.lt_of_le_of_lt (Nat.sub_le _ _) t2.isLt⟩
  have v1 : t1.val = t.val - 1 := rfl
  have v2 : t2.val = t.val - 1 - 1 := rfl
  have v3 : t3.val = t.val - 1 - 1 - 1 := rfl
  have hb1 : gb (t1.cast N_1) = gb (t.cast N_1) := Fin.ext (by show (t.val - 1) / 4 = t.val / 4; omega)
  have hb2 : gb (t2.cast N_1) = gb (t.cast N_1) := Fin.ext (by show (t.val - 1 - 1) / 4 = t.val / 4; omega)
  have hb3 : gb (t3.cast N_1) = gb (t.cast N_1) := Fin.ext (by show (t.val - 1 - 1 - 1) / 4 = t.val / 4; omega)
  have hk : gk (t.cast N_1) = 3 := Fin.ext (by show t.val % 4 = 3; exact h3)
  have hk1 : gk (t1.cast N_1) = 2 := Fin.ext (by show (t.val - 1) % 4 = 2; omega)
  have hk2 : gk (t2.cast N_1) = 1 := Fin.ext (by show (t.val - 1 - 1) % 4 = 1; omega)
  have hk3 : gk (t3.cast N_1) = 0 := Fin.ext (by show (t.val - 1 - 1 - 1) % 4 = 0; omega)
  have A3 := acc1_next V c t (by omega) n j
  have A2 := acc1_next V c t1 (by rw [v1]; omega) n j
  have A1 := acc1_next V c t2 (by rw [v2]; omega) n j
  have A0 := acc1_first V c t3 (by rw [v3]; omega) n j
  have D3 := den1_next V c t (by omega) n
  have D2 := den1_next V c t1 (by rw [v1]; omega) n
  have D1 := den1_next V c t2 (by rw [v2]; omega) n
  have D0 := den1_first V c t3 (by rw [v3]; omega) n
  rw [hb1, hk1] at A2 D2; rw [hb2, hk2] at A1 D1; rw [hb3, hk3] at A0 D0; rw [hk] at A3 D3
  have hacc : (outsAt1 V c t.val t.isLt).2.1 (ix2 n j)
      = (((klin (rX1 V c) (rW01 V c) (rb01 V c) (gb (t.cast N_1)) n j + tileAcc (rX1 V c) (rA1 V c) (rWr1 V c) (rbr1 V c) (gb (t.cast N_1)) 0 n j) + tileAcc (rX1 V c) (rA1 V c) (rWr1 V c) (rbr1 V c) (gb (t.cast N_1)) 1 n j) + tileAcc (rX1 V c) (rA1 V c) (rWr1 V c) (rbr1 V c) (gb (t.cast N_1)) 2 n j) + tileAcc (rX1 V c) (rA1 V c) (rWr1 V c) (rbr1 V c) (gb (t.cast N_1)) 3 n j :=
    A3.trans (congrArg (· + _) (A2.trans (congrArg (· + _) (A1.trans (congrArg (· + _) A0)))))
  have hden : (outsAt1 V c t.val t.isLt).2.2 (ix2 n (0 : Fin 1))
      = ((tileDen (rA1 V c) (gb (t.cast N_1)) 0 n + tileDen (rA1 V c) (gb (t.cast N_1)) 1 n) + tileDen (rA1 V c) (gb (t.cast N_1)) 2 n) + tileDen (rA1 V c) (gb (t.cast N_1)) 3 n :=
    D3.trans (congrArg (· + _) (D2.trans (congrArg (· + _) (D1.trans (congrArg (· + _) D0)))))
  rw [out1_last V c t h3 n j, hacc, hden]
  rfl

/-- WHAT A LAST-TILE POINT WRITES BACK is its block of the kernel's round. -/
theorem flushed1_eq (t : Fin cfg1.N) (hf : (cfg1.win 7).flush t = true) :
    (dat1 V c).flushed 7 t = ((cfg1.win 7).blk t).view.read (Elt Ideal) (Gk1 V c) := by
  have h3 : t.val % 4 = 3 := (flush1_7 t).mp hf
  show (cfg1.win 7).cut (grid1.coords t) ((dat1 V c).after 7 t) = _
  rw [after1_7]
  refine funext fun (y : S1x2048x256.Idx) => ?_
  obtain ⟨u, n, j, rfl⟩ : ∃ (u : Fin 1) (n : Fin 2048) (j : Fin 256), y = ix3 u n j := ⟨y 0, y 1, y 2, eq_ix3 y⟩
  obtain rfl : u = 0 := Subsingleton.elim _ _
  refine Eq.trans ?_ (oblk1_read (F := Ideal) (Gk1 V c) t n j).symm
  show (outsAt1 V c t.val t.isLt).1 (ix3 (0 : Fin 1) n j) = _
  rw [flush1_val V c t h3 n j]
  rfl

/-- THE OUTPUT ARRAY after the region: the kernel's round everywhere (the output's blocks tile the array). -/
theorem final1 : (dat1 V c).arrAt 7 cfg1.N = Gk1 V c :=
  (dat1 V c).arrAt_eq_of_cover 7 (Gk1 V c) (fun t hf => flushed1_eq V c t hf) ocover1

end Value1

end Cert.KernelIdeal.Hand

end
-- ==== Proof.HostReads.lean ====
/-
  The host operations between the kernel's two calls, read at an index.

  Before the first call the program transposes each pair of weight matrices (so that entry (l, e, j) of the result is
  entry (l, j, e) of the argument), recasts each pair of bias rows [2, 256] as [2, 1, 256], and takes the first matrix
  and the first bias row of each pair as a [256, 256] matrix and a [1, 256] row; before the second call it takes the
  second ones. These are layout operations only: each result element is one element of one argument. Each result is
  first written as the operations' term of the buffers' contents before the stretch (whatever these are), and that
  term is then read at literal coordinates, one layout operation at a time. A buffer the stretch does not write keeps
  its contents.
-/
import proofs.«156158_j51213190037828_2_alg».proof.Proof.Gen.KernelIdeal.Launch
import proofs.«156158_j51213190037828_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostVal

open Cert.KernelIdeal Cert.KernelIdeal.Gen Idealize.ShloMosaic Idealize.ShloMosaic.TcCoe Idealize.ShloMosaic.ValueIdx

/-! ## Layout operations of these shapes, read at coordinates -/

section Reads
variable {α : Type}

/-- A pair of matrices, each transposed, reads at (l, e, j) the operand at (l, j, e). -/
theorem tr_mat (X : S2x256x256.Idx → α) (h : S2x256x256.Transposes [0, 2, 1] S2x256x256) (l : Fin 2) (e j : Fin 256) :
    transpose S2x256x256 [0, 2, 1] X h (ix3 l e j) = X (ix3 l j e) :=
  transpose_ix3_021_apply X h l e j

/-- A pair of bias rows [2, 256] recast as [2, 1, 256] reads at (l, 0, j) the operand at (l, j): both have row-major
    position l · 256 + j. -/
theorem cast_bias (X : S2x256.Idx → α) (h : S2x256.ShapeCasts S2x1x256) (l : Fin 2) (j : Fin 256) :
    shapeCast S2x1x256 X h (ix3 l (0 : Fin 1) j) = X (ix2 l j) :=
  shapeCast_apply X h _ _ (by
    rw [Shape.rowMajor_val_two, Shape.rowMajor_val_three]
    show l.val * 256 + j.val = (l.val * 1 + 0) * 256 + j.val
    omega)

/-- The first matrix of a pair, as a [1, 256, 256] slice. -/
theorem slice0_mat (X : S2x256x256.Idx → α) (h : S2x256x256.Slices ![0, 0, 0] S1x256x256) (e j : Fin 256) :
    extractStridedSlice S1x256x256 ![0, 0, 0] X h (ix3 (0 : Fin 1) e j) = X (ix3 (0 : Fin 2) e j) :=
  extractStridedSlice_apply ![0, 0, 0] X h _ _ fun a => match a with
    | ⟨0, _⟩ => rfl
    | ⟨1, _⟩ => by show e.val = 0 + e.val; omega
    | ⟨2, _⟩ => by show j.val = 0 + j.val; omega

/-- The second matrix of a pair, as a [1, 256, 256] slice. -/
theorem slice1_mat (X : S2x256x256.Idx → α) (h : S2x256x256.Slices ![1, 0, 0] S1x256x256) (e j : Fin 256) :
    extractStridedSlice S1x256x256 ![1, 0, 0] X h (ix3 (0 : Fin 1) e j) = X (ix3 (1 : Fin 2) e j) :=
  extractStridedSlice_apply ![1, 0, 0] X h _ _ fun a => match a with
    | ⟨0, _⟩ => rfl
    | ⟨1, _⟩ => by show e.val = 0 + e.val; omega
    | ⟨2, _⟩ => by show j.val = 0 + j.val; omega

/-- The first bias row of a pair, as a [1, 1, 256] slice. -/
theorem slice0_row (X : S2x1x256.Idx → α) (h : S2x1x256.Slices ![0, 0, 0] S1x1x256) (j : Fin 256) :
    extractStridedSlice S1x1x256 ![0, 0, 0] X h (ix3 (0 : Fin 1) (0 : Fin 1) j) = X (ix3 (0 : Fin 2) (0 : Fin 1) j) :=
  extractStridedSlice_apply ![0, 0, 0] X h _ _ fun a => match a with
    | ⟨0, _⟩ => rfl
    | ⟨1, _⟩ => rfl
    | ⟨2, _⟩ => by show j.val = 0 + j.val; omega

/-- The second bias row of a pair, as a [1, 1, 256] slice. -/
theorem slice1_row (X : S2x1x256.Idx → α) (h : S2x1x256.Slices ![1, 0, 0] S1x1x256) (j : Fin 256) :
    extractStridedSlice S1x1x256 ![1, 0, 0] X h (ix3 (0 : Fin 1) (0 : Fin 1) j) = X (ix3 (1 : Fin 2) (0 : Fin 1) j) :=
  extractStridedSlice_apply ![1, 0, 0] X h _ _ fun a => match a with
    | ⟨0, _⟩ => rfl
    | ⟨1, _⟩ => rfl
    | ⟨2, _⟩ => by show j.val = 0 + j.val; omega

/-- A [1, 256, 256] slice recast as a matrix reads at (e, j) the operand at (0, e, j). -/
theorem cast_mat (X : S1x256x256.Idx → α) (h : S1x256x256.ShapeCasts S256x256) (e j : Fin 256) :
    shapeCast S256x256 X h (ix2 e j) = X (ix3 (0 : Fin 1) e j) :=
  shapeCast_1ab_ab_apply X h e j

/-- A [1, 1, 256] slice recast as a [1, 256] row reads at (0, j) the operand at (0, 0, j). -/
theorem cast_row (X : S1x1x256.Idx → α) (h : S1x1x256.ShapeCasts S1x256) (j : Fin 256) :
    shapeCast S1x256 X h (ix2 (0 : Fin 1) j) = X (ix3 (0 : Fin 1) (0 : Fin 1) j) :=
  shapeCast_1ab_ab_apply X h (0 : Fin 1) j

end Reads

/-! ## The first stretch: each result as the operations' term of the buffers before it -/

theorem ops0_v0_term (W : Valuation τ sig (Elt Ideal)) :
    (StableHlo.after hostOps0 W (Proc.devRef .tc main_v0) : S2x256x256.Idx → EReal)
      = transpose S2x256x256 [0, 2, 1] (W (Proc.devRef .tc main_arg4) : S2x256x256.Idx → EReal) transposes_S2x256x256_S2x256x256_0_2_1 := by
  dsimp only [hostOps0]
  after_results

theorem ops0_v1_term (W : Valuation τ sig (Elt Ideal)) :
    (StableHlo.after hostOps0 W (Proc.devRef .tc main_v1) : S2x256x256.Idx → EReal)
      = transpose S2x256x256 [0, 2, 1] (W (Proc.devRef .tc main_arg2) : S2x256x256.Idx → EReal) transposes_S2x256x256_S2x256x256_0_2_1 := by
  dsimp only [hostOps0]
  after_results

theorem ops0_v2_term (W : Valuation τ sig (Elt Ideal)) :
    (StableHlo.after hostOps0 W (Proc.devRef .tc main_v2) : S2x1x256.Idx → EReal)
      = shapeCast S2x1x256 (W (Proc.devRef .tc main_arg5) : S2x256.Idx → EReal) shapeCasts_S2x256_S2x1x256 := by
  dsimp only [hostOps0]
  after_results
  rfl

theorem ops0_v3_term (W : Valuation τ sig (Elt Ideal)) :
    (StableHlo.after hostOps0 W (Proc.devRef .tc main_v3) : S2x1x256.Idx → EReal)
      = shapeCast S2x1x256 (W (Proc.devRef .tc main_arg3) : S2x256.Idx → EReal) shapeCasts_S2x256_S2x1x256 := by
  dsimp only [hostOps0]
  after_results
  rfl

theorem ops0_v5_term (W : Valuation τ sig (Elt Ideal)) :
    (StableHlo.after hostOps0 W (Proc.devRef .tc main_v5) : S256x256.Idx → EReal)
      = shapeCast S256x256 (extractStridedSlice S1x256x256 ![0, 0, 0] (transpose S2x256x256 [0, 2, 1] (W (Proc.devRef .tc main_arg4) : S2x256x256.Idx → EReal) transposes_S2x256x256_S2x256x256_0_2_1) slices_S2x256x256_S1x256x256_0_0_0) shapeCasts_S1x256x256_S256x256 := by
  dsimp only [hostOps0]
  after_results
  rfl

theorem ops0_v9_term (W : Valuation τ sig (Elt Ideal)) :
    (StableHlo.after hostOps0 W (Proc.devRef .tc main_v9) : S256x256.Idx → EReal)
      = shapeCast S256x256 (extractStridedSlice S1x256x256 ![0, 0, 0] (transpose S2x256x256 [0, 2, 1] (W (Proc.devRef .tc main_arg2) : S2x256x256.Idx → EReal) transposes_S2x256x256_S2x256x256_0_2_1) slices_S2x256x256_S1x256x256_0_0_0) shapeCasts_S1x256x256_S256x256 := by
  dsimp only [hostOps0]
  after_results
  rfl

theorem ops0_v7_term (W : Valuation τ sig (Elt Ideal)) :
    (StableHlo.after hostOps0 W (Proc.devRef .tc main_v7) : S1x256.Idx → EReal)
      = shapeCast S1x256 (extractStridedSlice S1x1x256 ![0, 0, 0] (shapeCast S2x1x256 (W (Proc.devRef .tc main_arg5) : S2x256.Idx → EReal) shapeCasts_S2x256_S2x1x256) slices_S2x1x256_S1x1x256_0_0_0) shapeCasts_S1x1x256_S1x256 := by
  dsimp only [hostOps0]
  after_results
  rfl

theorem ops0_v11_term (W : Valuation τ sig (Elt Ideal)) :
    (StableHlo.after hostOps0 W (Proc.devRef .tc main_v11) : S1x256.Idx → EReal)
      = shapeCast S1x256 (extractStridedSlice S1x1x256 ![0, 0, 0] (shapeCast S2x1x256 (W (Proc.devRef .tc main_arg3) : S2x256.Idx → EReal) shapeCasts_S2x256_S2x1x256) slices_S2x1x256_S1x1x256_0_0_0) shapeCasts_S1x1x256_S1x256 := by
  dsimp only [hostOps0]
  after_results
  rfl

/-! ## The first stretch read at coordinates -/

/-- The transposed neighbour matrices: entry (l, e, j) is the argument's (l, j, e). -/
theorem ops0_v0 (W : Valuation τ sig (Elt Ideal)) (l : Fin 2) (e j : Fin 256) :
    (StableHlo.after hostOps0 W (Proc.devRef .tc main_v0) : S2x256x256.Idx → EReal) (ix3 l e j)
      = (W (Proc.devRef .tc main_arg4) : S2x256x256.Idx → EReal) (ix3 l j e) := by
  rw [ops0_v0_term]
  exact tr_mat _ _ l e j

/-- The transposed self matrices: entry (l, e, j) is the argument's (l, j, e). -/
theorem ops0_v1 (W : Valuation τ sig (Elt Ideal)) (l : Fin 2) (e j : Fin 256) :
    (StableHlo.after hostOps0 W (Proc.devRef .tc main_v1) : S2x256x256.Idx → EReal) (ix3 l e j)
      = (W (Proc.devRef .tc main_arg2) : S2x256x256.Idx → EReal) (ix3 l j e) := by
  rw [ops0_v1_term]
  exact tr_mat _ _ l e j

/-- The neighbour biases as [2, 1, 256]: entry (l, 0, j) is the argument's (l, j). -/
theorem ops0_v2 (W : Valuation τ sig (Elt Ideal)) (l : Fin 2) (j : Fin 256) :
    (StableHlo.after hostOps0 W (Proc.devRef .tc main_v2) : S2x1x256.Idx → EReal) (ix3 l 0 j)
      = (W (Proc.devRef .tc main_arg5) : S2x256.Idx → EReal) (ix2 l j) := by
  rw [ops0_v2_term]
  exact cast_bias _ _ l j

/-- The self biases as [2, 1, 256]: entry (l, 0, j) is the argument's (l, j). -/
theorem ops0_v3 (W : Valuation τ sig (Elt Ideal)) (l : Fin 2) (j : Fin 256) :
    (StableHlo.after hostOps0 W (Proc.devRef .tc main_v3) : S2x1x256.Idx → EReal) (ix3 l 0 j)
      = (W (Proc.devRef .tc main_arg3) : S2x256.Idx → EReal) (ix2 l j) := by
  rw [ops0_v3_term]
  exact cast_bias _ _ l j

/-- The first round's neighbour matrix, transposed: entry (e, j) is the argument's (0, j, e). -/
theorem ops0_v5 (W : Valuation τ sig (Elt Ideal)) (e j : Fin 256) :
    (StableHlo.after hostOps0 W (Proc.devRef .tc main_v5) : S256x256.Idx → EReal) (ix2 e j)
      = (W (Proc.devRef .tc main_arg4) : S2x256x256.Idx → EReal) (ix3 0 j e) := by
  rw [ops0_v5_term]
  exact (cast_mat _ _ e j).trans ((slice0_mat _ _ e j).trans (tr_mat _ _ 0 e j))

/-- The first round's self matrix, transposed: entry (e, j) is the argument's (0, j, e). -/
theorem ops0_v9 (W : Valuation τ sig (Elt Ideal)) (e j : Fin 256) :
    (StableHlo.after hostOps0 W (Proc.devRef .tc main_v9) : S256x256.Idx → EReal) (ix2 e j)
      = (W (Proc.devRef .tc main_arg2) : S2x256x256.Idx → EReal) (ix3 0 j e) := by
  rw [ops0_v9_term]
  exact (cast_mat _ _ e j).trans ((slice0_mat _ _ e j).trans (tr_mat _ _ 0 e j))

/-- The first round's neighbour bias row: entry (0, j) is the argument's (0, j). -/
theorem ops0_v7 (W : Valuation τ sig (Elt Ideal)) (j : Fin 256) :
    (StableHlo.after hostOps0 W (Proc.devRef .tc main_v7) : S1x256.Idx → EReal) (ix2 0 j)
      = (W (Proc.devRef .tc main_arg5) : S2x256.Idx → EReal) (ix2 0 j) := by
  rw [ops0_v7_term]
  exact (cast_row _ _ j).trans ((slice0_row _ _ j).trans (cast_bias _ _ 0 j))

/-- The first round's self bias row: entry (0, j) is the argument's (0, j). -/
theorem ops0_v11 (W : Valuation τ sig (Elt Ideal)) (j : Fin 256) :
    (StableHlo.after hostOps0 W (Proc.devRef .tc main_v11) : S1x256.Idx → EReal) (ix2 0 j)
      = (W (Proc.devRef .tc main_arg3) : S2x256.Idx → EReal) (ix2 0 j) := by
  rw [ops0_v11_term]
  exact (cast_row _ _ j).trans ((slice0_row _ _ j).trans (cast_bias _ _ 0 j))

/-! ## The second stretch -/

theorem ops1_v14_term (W : Valuation τ sig (Elt Ideal)) :
    (StableHlo.after hostOps1 W (Proc.devRef .tc main_v14) : S256x256.Idx → EReal)
      = shapeCast S256x256 (extractStridedSlice S1x256x256 ![1, 0, 0] ((W (Proc.devRef .tc main_v0) : S2x256x256.Idx → EReal)) slices_S2x256x256_S1x256x256_1_0_0) shapeCasts_S1x256x256_S256x256 := by
  dsimp only [hostOps1]
  after_results
  rfl

theorem ops1_v18_term (W : Valuation τ sig (Elt Ideal)) :
    (StableHlo.after hostOps1 W (Proc.devRef .tc main_v18) : S256x256.Idx → EReal)
      = shapeCast S256x256 (extractStridedSlice S1x256x256 ![1, 0, 0] ((W (Proc.devRef .tc main_v1) : S2x256x256.Idx → EReal)) slices_S2x256x256_S1x256x256_1_0_0) shapeCasts_S1x256x256_S256x256 := by
  dsimp only [hostOps1]
  after_results
  rfl

theorem ops1_v16_term (W : Valuation τ sig (Elt Ideal)) :
    (StableHlo.after hostOps1 W (Proc.devRef .tc main_v16) : S1x256.Idx → EReal)
      = shapeCast S1x256 (extractStridedSlice S1x1x256 ![1, 0, 0] ((W (Proc.devRef .tc main_v2) : S2x1x256.Idx → EReal)) slices_S2x1x256_S1x1x256_1_0_0) shapeCasts_S1x1x256_S1x256 := by
  dsimp only [hostOps1]
  after_results
  rfl

theorem ops1_v20_term (W : Valuation τ sig (Elt Ideal)) :
    (StableHlo.after hostOps1 W (Proc.devRef .tc main_v20) : S1x256.Idx → EReal)
      = shapeCast S1x256 (extractStridedSlice S1x1x256 ![1, 0, 0] ((W (Proc.devRef .tc main_v3) : S2x1x256.Idx → EReal)) slices_S2x1x256_S1x1x256_1_0_0) shapeCasts_S1x1x256_S1x256 := by
  dsimp only [hostOps1]
  after_results
  rfl

/-- The second round's neighbour matrix: entry (e, j) is entry (1, e, j) of the transposed pair. -/
theorem ops1_v14 (W : Valuation τ sig (Elt Ideal)) (e j : Fin 256) :
    (StableHlo.after hostOps1 W (Proc.devRef .tc main_v14) : S256x256.Idx → EReal) (ix2 e j)
      = (W (Proc.devRef .tc main_v0) : S2x256x256.Idx → EReal) (ix3 1 e j) := by
  rw [ops1_v14_term]
  exact (cast_mat _ _ e j).trans (slice1_mat _ _ e j)

/-- The second round's self matrix: entry (e, j) is entry (1, e, j) of the transposed pair. -/
theorem ops1_v18 (W : Valuation τ sig (Elt Ideal)) (e j : Fin 256) :
    (StableHlo.after hostOps1 W (Proc.devRef .tc main_v18) : S256x256.Idx → EReal) (ix2 e j)
      = (W (Proc.devRef .tc main_v1) : S2x256x256.Idx → EReal) (ix3 1 e j) := by
  rw [ops1_v18_term]
  exact (cast_mat _ _ e j).trans (slice1_mat _ _ e j)

/-- The second round's neighbour bias row: entry (0, j) is entry (1, 0, j) of the recast pair. -/
theorem ops1_v16 (W : Valuation τ sig (Elt Ideal)) (j : Fin 256) :
    (StableHlo.after hostOps1 W (Proc.devRef .tc main_v16) : S1x256.Idx → EReal) (ix2 0 j)
      = (W (Proc.devRef .tc main_v2) : S2x1x256.Idx → EReal) (ix3 1 0 j) := by
  rw [ops1_v16_term]
  exact (cast_row _ _ j).trans (slice1_row _ _ j)

/-- The second round's self bias row: entry (0, j) is entry (1, 0, j) of the recast pair. -/
theorem ops1_v20 (W : Valuation τ sig (Elt Ideal)) (j : Fin 256) :
    (StableHlo.after hostOps1 W (Proc.devRef .tc main_v20) : S1x256.Idx → EReal) (ix2 0 j)
      = (W (Proc.devRef .tc main_v3) : S2x1x256.Idx → EReal) (ix3 1 0 j) := by
  rw [ops1_v20_term]
  exact (cast_row _ _ j).trans (slice1_row _ _ j)

/-! ## What a stretch does not write it leaves unchanged -/

/-- A buffer none of the first stretch's twelve operations writes holds what it held. -/
theorem ops0_keep (W : Valuation τ sig (Elt Ideal)) (r : Ref sig .tc) (h : r ∉ Gen.hostOps0_W) :
    StableHlo.after hostOps0 W (Proc.devRef .tc r) = W (Proc.devRef .tc r) :=
  StableHlo.after_of_writes_sub hostOps0 W hostOps0_writes h

/-- A buffer none of the second stretch's eight operations writes holds what it held. -/
theorem ops1_keep (W : Valuation τ sig (Elt Ideal)) (r : Ref sig .tc) (h : r ∉ Gen.hostOps1_W) :
    StableHlo.after hostOps1 W (Proc.devRef .tc r) = W (Proc.devRef .tc r) :=
  StableHlo.after_of_writes_sub hostOps1 W hostOps1_writes h

end Cert.KernelIdeal.HostVal

end
-- ==== Proof.Compose.lean ====
/-
  The two regions composed: the result buffer at the end of the program is the specification's function of the six
  argument arrays, given what each region's write-backs leave in its output array as one round in the kernel's form
  of the arrays the region is entered with. Each array a region reads is walked back to the launch memory through the
  host operations between the calls, and the kernel's form of a round is turned into the specification's.
-/
import proofs.«156158_j51213190037828_2_alg».proof.Proof.MainRun
import proofs.«156158_j51213190037828_2_alg».proof.Proof.HostReads
import proofs.«156158_j51213190037828_2_alg».proof.Proof.KSpec
import proofs.«156158_j51213190037828_2_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.HostVal
open Cert.Spec (ofArr Garr SX SA SW SB)

variable (m : (ℓ : Loc nD τ sig) → Buf (Elt Ideal) ℓ) (c : Dev nD)

/-! ## The arrays region 0 is entered with, read back to the launch memory -/

/-- The features: no host operation writes them. -/
theorem V1_arg0 : (V1 m c main_arg0 : SX.Idx → EReal) = m ((c : Thread nD τ).loc main_arg0) :=
  ops0_keep (W0 m c) main_arg0 (by decide)

/-- The adjacency: no host operation writes it. -/
theorem V1_arg1 : (V1 m c main_arg1 : SA.Idx → EReal) = m ((c : Thread nD τ).loc main_arg1) :=
  ops0_keep (W0 m c) main_arg1 (by decide)

/-- The first round's neighbour weights, transposed. -/
theorem V1_v5 (e j : Fin 256) :
    (V1 m c main_v5 : S256x256.Idx → EReal) (ix2 e j) = (m ((c : Thread nD τ).loc main_arg4) : SW.Idx → EReal) (ix3 (0 : Fin 2) j e) :=
  ops0_v5 (W0 m c) e j

/-- The first round's neighbour bias row. -/
theorem V1_v7 (j : Fin 256) :
    (V1 m c main_v7 : S1x256.Idx → EReal) (ix2 (0 : Fin 1) j) = (m ((c : Thread nD τ).loc main_arg5) : SB.Idx → EReal) (ix2 (0 : Fin 2) j) :=
  ops0_v7 (W0 m c) j

/-- The first round's self weights, transposed. -/
theorem V1_v9 (e j : Fin 256) :
    (V1 m c main_v9 : S256x256.Idx → EReal) (ix2 e j) = (m ((c : Thread nD τ).loc main_arg2) : SW.Idx → EReal) (ix3 (0 : Fin 2) j e) :=
  ops0_v9 (W0 m c) e j

/-- The first round's self bias row. -/
theorem V1_v11 (j : Fin 256) :
    (V1 m c main_v11 : S1x256.Idx → EReal) (ix2 (0 : Fin 1) j) = (m ((c : Thread nD τ).loc main_arg3) : SB.Idx → EReal) (ix2 (0 : Fin 2) j) :=
  ops0_v11 (W0 m c) j

/-! ## The arrays region 1 is entered with -/

/-- The features, for the residual: an input array of region 0, which leaves it as entered. -/
theorem V3_arg0 : (V3 m c main_arg0 : SX.Idx → EReal) = m ((c : Thread nD τ).loc main_arg0) :=
  calc (V3 m c main_arg0 : SX.Idx → EReal)
    _ = W2 m c (Proc.devRef .tc main_arg0) := ops1_keep (W2 m c) main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := V1_arg0 m c

/-- The adjacency: an input array of region 0, which leaves it as entered. -/
theorem V3_arg1 : (V3 m c main_arg1 : SA.Idx → EReal) = m ((c : Thread nD τ).loc main_arg1) :=
  calc (V3 m c main_arg1 : SA.Idx → EReal)
    _ = W2 m c (Proc.devRef .tc main_arg1) := ops1_keep (W2 m c) main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := V1_arg1 m c

/-- The first round's output: what region 0's write-backs leave. -/
theorem V3_v12 : (V3 m c main_v12 : SX.Idx → EReal) = (dat0 (V1 m) c).arrAt 6 cfg0.N :=
  (ops1_keep (W2 m c) main_v12 (by decide)).trans (W2_arr m c 6)

/-- The second round's neighbour weights, transposed: the second matrix of the pair the first stretch transposed. -/
theorem V3_v14 (e j : Fin 256) :
    (V3 m c main_v14 : S256x256.Idx → EReal) (ix2 e j) = (m ((c : Thread nD τ).loc main_arg4) : SW.Idx → EReal) (ix3 (1 : Fin 2) j e) :=
  calc (V3 m c main_v14 : S256x256.Idx → EReal) (ix2 e j)
    _ = (W2 m c (Proc.devRef .tc main_v0) : S2x256x256.Idx → EReal) (ix3 1 e j) := ops1_v14 (W2 m c) e j
    _ = (W1 m c (Proc.devRef .tc main_v0) : S2x256x256.Idx → EReal) (ix3 1 e j) := congrFun (W2_of_ne m c main_v0 (by decide)) _
    _ = _ := ops0_v0 (W0 m c) 1 e j

/-- The second round's neighbour bias row. -/
theorem V3_v16 (j : Fin 256) :
    (V3 m c main_v16 : S1x256.Idx → EReal) (ix2 (0 : Fin 1) j) = (m ((c : Thread nD τ).loc main_arg5) : SB.Idx → EReal) (ix2 (1 : Fin 2) j) :=
  calc (V3 m c main_v16 : S1x256.Idx → EReal) (ix2 (0 : Fin 1) j)
    _ = (W2 m c (Proc.devRef .tc main_v2) : S2x1x256.Idx → EReal) (ix3 1 0 j) := ops1_v16 (W2 m c) j
    _ = (W1 m c (Proc.devRef .tc main_v2) : S2x1x256.Idx → EReal) (ix3 1 0 j) := congrFun (W2_of_ne m c main_v2 (by decide)) _
    _ = _ := ops0_v2 (W0 m c) 1 j

/-- The second round's self weights, transposed. -/
theorem V3_v18 (e j : Fin 256) :
    (V3 m c main_v18 : S256x256.Idx → EReal) (ix2 e j) = (m ((c : Thread nD τ).loc main_arg2) : SW.Idx → EReal) (ix3 (1 : Fin 2) j e) :=
  calc (V3 m c main_v18 : S256x256.Idx → EReal) (ix2 e j)
    _ = (W2 m c (Proc.devRef .tc main_v1) : S2x256x256.Idx → EReal) (ix3 1 e j) := ops1_v18 (W2 m c) e j
    _ = (W1 m c (Proc.devRef .tc main_v1) : S2x256x256.Idx → EReal) (ix3 1 e j) := congrFun (W2_of_ne m c main_v1 (by decide)) _
    _ = _ := ops0_v1 (W0 m c) 1 e j

/-- The second round's self bias row. -/
theorem V3_v20 (j : Fin 256) :
    (V3 m c main_v20 : S1x256.Idx → EReal) (ix2 (0 : Fin 1) j) = (m ((c : Thread nD τ).loc main_arg3) : SB.Idx → EReal) (ix2 (1 : Fin 2) j) :=
  calc (V3 m c main_v20 : S1x256.Idx → EReal) (ix2 (0 : Fin 1) j)
    _ = (W2 m c (Proc.devRef .tc main_v3) : S2x1x256.Idx → EReal) (ix3 1 0 j) := ops1_v20 (W2 m c) j
    _ = (W1 m c (Proc.devRef .tc main_v3) : S2x1x256.Idx → EReal) (ix3 1 0 j) := congrFun (W2_of_ne m c main_v3 (by decide)) _
    _ = _ := ops0_v3 (W0 m c) 1 j

/-! ## The composition -/

open Cert.Spec (klayer layer G Feat klayer_eq_layer)

/-- An array given by coordinates, read by coordinates, is the function of the coordinates. -/
theorem ofArr_coords (f : Feat) : ofArr (fun i : SX.Idx => f (i 0) (i 1) (i 2)) = f := rfl

/-- The result buffer at the end of the program is the specification's function of the argument arrays: the first
    region's output is the first round of the features, the second region's is the features plus the second round
    of the first. -/
theorem compose
    (h0 : (dat0 (V1 m) c).arrAt 6 cfg0.N = (fun i => klayer (ofArr (V1 m c main_arg0)) (V1 m c main_arg1) (V1 m c main_v5) (V1 m c main_v7) (V1 m c main_v9) (V1 m c main_v11) (i 0) (i 1) (i 2) : Cert.Spec.SX.Idx → EReal))
    (h1 : (dat1 (V3 m) c).arrAt 7 cfg1.N = (fun i => ofArr (V3 m c main_arg0) (i 0) (i 1) (i 2) + klayer (ofArr (V3 m c main_v12)) (V3 m c main_arg1) (V3 m c main_v14) (V3 m c main_v16) (V3 m c main_v18) (V3 m c main_v20) (i 0) (i 1) (i 2) : Cert.Spec.SX.Idx → EReal)) :
    W4 m c (Proc.devRef .tc main_v21) = Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_main_v21 m c).trans (h1.trans ?_)
  -- the first round, in the specification's form
  have e0 : ofArr (V3 m c main_v12 : SX.Idx → EReal)
      = layer (m ((c : Thread nD τ).loc main_arg1)) (m ((c : Thread nD τ).loc main_arg2)) (m ((c : Thread nD τ).loc main_arg3))
          (m ((c : Thread nD τ).loc main_arg4)) (m ((c : Thread nD τ).loc main_arg5)) 0 (ofArr (m ((c : Thread nD τ).loc main_arg0))) := by
    rw [V3_v12 m c, h0, ofArr_coords, V1_arg0 m c, V1_arg1 m c]
    exact klayer_eq_layer _ _ _ _ _ _ 0 _ _ _ _ (V1_v5 m c) (V1_v7 m c) (V1_v9 m c) (V1_v11 m c)
  funext i
  rw [e0, V3_arg0 m c, V3_arg1 m c,
    klayer_eq_layer _ _ _ _ _ _ 1 _ _ _ _ (V3_v14 m c) (V3_v16 m c) (V3_v18 m c) (V3_v20 m c)]
  rfl

end Cert.KernelIdeal.Hand
-- ==== Proof.Final.lean ====
/-
  The idealized kernel's run with its result named: every weakly fair execution terminates, the result buffer ends
  holding the specification's function of the launch arrays — the second region's output array is the kernel's
  round of the first region's output, plus the node features; the first region's is the kernel's round of the node
  features; the kernel's weights are the launch weights transposed, sliced and reshaped by the host stretches — and
  the argument arrays end as launched.
-/
import proofs.«156158_j51213190037828_2_alg».proof.Proof.MainRun
import proofs.«156158_j51213190037828_2_alg».proof.Proof.Value0
import proofs.«156158_j51213190037828_2_alg».proof.Proof.Value1
import proofs.«156158_j51213190037828_2_alg».proof.Proof.Compose

noncomputable section

namespace Cert.KernelIdeal.Hand

open Idealize.ShloMosaic Idealize.ShloMosaic.TcCoe Idealize.SL.Sem
open Cert.KernelIdeal Cert.KernelIdeal.Gen

theorem kernel_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v21) = Cert.Spec.Garr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (compose m c (final0 (V1 m) c) (final1 (V3 m) c)), (h c).2⟩)
    (run_main (F := Ideal) m ρ)

end Cert.KernelIdeal.Hand

end
-- ==== Proof.RefIsG.lean ====
/-
  The reference computes the specification.

  The reference program is a chain of 53 host operations. Each operation has been read at an index (the imported
  stage lemmas): a contraction is a finite sum over its one contracted axis, the row sum of the adjacency is its initial
  value plus a finite sum, and slices, reshapes and broadcasts read their operand at a re-computed index. Here the
  chain is folded back, stage by stage, into the specification's functions of (graph, node, feature):

    * the normaliser  rowsum(A) + 1                                  (den),
    * a linear branch Σ_d x[b,n,d] · W[l,j,d] + bias[l,j]            (lin),
    * the aggregation Σ_k A[b,n,k] · y[b,k,d]                        (agg),
    * one round       relu((A·(x Wrᵀ + br) + (x W0ᵀ + b0)) / den)    (layer),

  first with the input features and the first pair of weights, then with the first round's output and the second
  pair, and last the sum with the input features. Every index is split into its literal coordinates, so that each
  re-computed index is identified with a coordinate triple or pair by evaluating its components; the only arithmetic
  is the row-major identity (j · 256 + k) / 256 % 256 = j, (j · 256 + k) % 256 = k of the weight reshape, and the
  zero initial value of the row sum (0 + s = s).
-/
import proofs.«156158_j51213190037828_2_alg».proof.Proof.Gen.ReferenceIdeal.Read
import proofs.«156158_j51213190037828_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

section Stages

variable (x0 : (⟨S8x2048x256, .f32⟩ : BufTy).Contents (Elt Ideal)) (x1 : (⟨S8x2048x2048, .f32⟩ : BufTy).Contents (Elt Ideal))
  (x2 : (⟨S2x256x256, .f32⟩ : BufTy).Contents (Elt Ideal)) (x3 : (⟨S2x256, .f32⟩ : BufTy).Contents (Elt Ideal))
  (x4 : (⟨S2x256x256, .f32⟩ : BufTy).Contents (Elt Ideal)) (x5 : (⟨S2x256, .f32⟩ : BufTy).Contents (Elt Ideal))

/-! ## The normaliser -/

/-- The row sum starts from the zero word, which is the real zero, so the normaliser at (b, n) is the adjacency row's
    sum plus the word of one. -/
theorem den_at (b : Fin 8) (n : Fin 2048) (z : Fin 1) :
    val_main_v3 (F := Ideal) x1 (ix3 b n z) = Spec.den x1 b n := by
  rw [val_main_v3_apply, val_main_v1_apply, val_main_v0_apply, val_main_cst_apply, val_main_v2_apply, val_main_cst_0_apply]
  simp only [Ideal.addf_def, Ideal.ofBits_def, Ideal.ofBits_zero_f32, zero_add]
  unfold Spec.den
  refine congrArg (· + Spec.one) (Finset.sum_congr rfl fun k _ => congrArg x1 ?_)
  funext a
  match a with
  | ⟨0, _⟩ => rfl
  | ⟨1, _⟩ => rfl
  | ⟨2, _⟩ => rfl

/-! ## Index identities

Every re-computed index of the chain, at literal coordinates, is a coordinate triple or pair. -/

/-- The weight matrix read by a contraction at output feature j and contracted feature k, through the reshape and
    the slice of the first pair: row-major position j · 256 + k of the [1, 256, 256] slice, which is entry [0, j, k]. -/
theorem w_idx0 (b : Fin 8) (n : Fin 2048) (j k : Fin 256) :
    idx_main_v4 (idx_main_v5 (ridx_main_v6 (ix3 b n j) k)) = ix3 (0 : Fin 2) j k := by
  have hj := j.isLt
  have hk := k.isLt
  funext a
  refine Fin.ext ?_
  match a with
  | ⟨0, _⟩ => rfl
  | ⟨1, _⟩ => show (j.val * 256 + k.val) / 256 % 256 = j.val; omega
  | ⟨2, _⟩ => show (j.val * 256 + k.val) % 256 = k.val; omega

/-- The same through the slice of the second pair: entry [1, j, k]. -/
theorem w_idx1 (b : Fin 8) (n : Fin 2048) (j k : Fin 256) :
    idx_main_v25 (idx_main_v26 (ridx_main_v27 (ix3 b n j) k)) = ix3 (1 : Fin 2) j k := by
  have hj := j.isLt
  have hk := k.isLt
  funext a
  refine Fin.ext ?_
  match a with
  | ⟨0, _⟩ => rfl
  | ⟨1, _⟩ => show (j.val * 256 + k.val) / 256 % 256 = j.val; omega
  | ⟨2, _⟩ => show (j.val * 256 + k.val) % 256 = k.val; omega

/-- The bias read at output feature j through the two broadcasts, the reshape and the slice of the first pair:
    entry [0, j]. -/
theorem b_idx0 (b : Fin 8) (n : Fin 2048) (j : Fin 256) :
    idx_main_v7 (idx_main_v8 (idx_main_v9 (idx_main_v10 (ix3 b n j)))) = ix2 (0 : Fin 2) j := by
  have hj := j.isLt
  funext a
  refine Fin.ext ?_
  match a with
  | ⟨0, _⟩ => rfl
  | ⟨1, _⟩ => show j.val % 256 = j.val; omega

/-- The same through the slice of the second pair: entry [1, j]. -/
theorem b_idx1 (b : Fin 8) (n : Fin 2048) (j : Fin 256) :
    idx_main_v28 (idx_main_v29 (idx_main_v30 (idx_main_v31 (ix3 b n j)))) = ix2 (1 : Fin 2) j := by
  have hj := j.isLt
  funext a
  refine Fin.ext ?_
  match a with
  | ⟨0, _⟩ => rfl
  | ⟨1, _⟩ => show j.val % 256 = j.val; omega

/-- The left operand of a feature contraction at (b, n, ·) and contracted feature k is read at (b, n, k). -/
theorem l_idx (b : Fin 8) (n : Fin 2048) (j k : Fin 256) : lidx_main_v6 (ix3 b n j) k = ix3 b n k := by
  funext a
  match a with
  | ⟨0, _⟩ => rfl
  | ⟨1, _⟩ => rfl
  | ⟨2, _⟩ => rfl

/-- The adjacency in the aggregation at (b, n, ·) and neighbour k is read at (b, n, k) … -/
theorem a_idx (b : Fin 8) (n : Fin 2048) (d : Fin 256) (k : Fin 2048) : lidx_main_v12 (ix3 b n d) k = ix3 b n k := by
  funext a
  match a with
  | ⟨0, _⟩ => rfl
  | ⟨1, _⟩ => rfl
  | ⟨2, _⟩ => rfl

/-- … and the aggregated features at (b, k, d). -/
theorem y_idx (b : Fin 8) (n : Fin 2048) (d : Fin 256) (k : Fin 2048) : ridx_main_v12 (ix3 b n d) k = ix3 b k d := by
  funext a
  match a with
  | ⟨0, _⟩ => rfl
  | ⟨1, _⟩ => rfl
  | ⟨2, _⟩ => rfl

/-- The normaliser is broadcast along the features: at (b, n, d) it is read at (b, n, 0). -/
theorem n_idx (b : Fin 8) (n : Fin 2048) (d : Fin 256) : idx_main_v22 (ix3 b n d) = ix3 b n (0 : Fin 1) := by
  funext a
  match a with
  | ⟨0, _⟩ => rfl
  | ⟨1, _⟩ => rfl
  | ⟨2, _⟩ => rfl

/-! ## The first round -/

/-- The neighbour branch of the first round: the input features through the first matrix and bias of the second
    weight pair. -/
theorem lin_r0 (b : Fin 8) (n : Fin 2048) (j : Fin 256) :
    val_main_v11 (F := Ideal) x0 x4 x5 (ix3 b n j) = Spec.lin (Spec.ofArr x0) x4 x5 0 b n j := by
  rw [val_main_v11_apply, val_main_v6_apply, val_main_v10_apply, val_main_v9_apply, val_main_v8_apply, val_main_v7_apply,
    Ideal.addf_def]
  unfold Spec.lin Spec.ofArr
  refine congr (congrArg HAdd.hAdd (Finset.sum_congr rfl fun k _ => ?_)) (congrArg x5 (b_idx0 b n j))
  rw [val_main_v5_apply, val_main_v4_apply]
  exact congr (congrArg HMul.hMul (congrArg x0 (l_idx b n j k))) (congrArg x4 (w_idx0 b n j k))

/-- The self branch of the first round: the input features through the first matrix and bias of the first weight
    pair. -/
theorem lin_s0 (b : Fin 8) (n : Fin 2048) (j : Fin 256) :
    val_main_v20 (F := Ideal) x0 x2 x3 (ix3 b n j) = Spec.lin (Spec.ofArr x0) x2 x3 0 b n j := by
  rw [val_main_v20_apply, val_main_v15_apply, val_main_v19_apply, val_main_v18_apply, val_main_v17_apply, val_main_v16_apply,
    Ideal.addf_def]
  unfold Spec.lin Spec.ofArr
  refine congr (congrArg HAdd.hAdd (Finset.sum_congr rfl fun k _ => ?_)) (congrArg x3 (b_idx0 b n j))
  rw [val_main_v14_apply, val_main_v13_apply]
  exact congr (congrArg HMul.hMul (congrArg x0 (l_idx b n j k))) (congrArg x2 (w_idx0 b n j k))

/-- The aggregation of the first round's neighbour branch over all 2048 neighbours. -/
theorem agg_r0 (b : Fin 8) (n : Fin 2048) (d : Fin 256) :
    val_main_v12 (F := Ideal) x0 x1 x4 x5 (ix3 b n d) = Spec.agg x1 (Spec.lin (Spec.ofArr x0) x4 x5 0) b n d := by
  rw [val_main_v12_apply]
  unfold Spec.agg
  refine Finset.sum_congr rfl fun k _ => ?_
  refine congr (congrArg HMul.hMul (congrArg x1 (a_idx b n d k))) ?_
  exact (congrArg (val_main_v11 (F := Ideal) x0 x4 x5) (y_idx b n d k)).trans (lin_r0 x0 x4 x5 b k d)

/-- The first round: the two branches are added, divided by the broadcast normaliser and cut at the zero word. -/
theorem layer0 (b : Fin 8) (n : Fin 2048) (d : Fin 256) :
    val_main_v24 (F := Ideal) x0 x1 x2 x3 x4 x5 (ix3 b n d)
      = Spec.layer x1 x2 x3 x4 x5 0 (Spec.ofArr x0) b n d := by
  rw [val_main_v24_apply, val_main_v23_apply, val_main_v21_apply, val_main_v22_apply, val_main_call0_v0_apply,
    val_main_call0_cst_apply, agg_r0, lin_s0, n_idx, den_at, Ideal.maximumf_def, Ideal.hostDivf_def, Ideal.addf_def,
    Ideal.ofBits_def]
  rfl

/-! ## The second round

Its input is the first round's output, and its weights are the second matrix and bias of each pair. Its index
functions are the first round's. -/

/-- The first round's output as a function of (graph, node, feature). -/
abbrev mid : Spec.Feat := Spec.layer x1 x2 x3 x4 x5 0 (Spec.ofArr x0)

/-- The neighbour branch of the second round. -/
theorem lin_r1 (b : Fin 8) (n : Fin 2048) (j : Fin 256) :
    val_main_v32 (F := Ideal) x0 x1 x2 x3 x4 x5 (ix3 b n j) = Spec.lin (mid x0 x1 x2 x3 x4 x5) x4 x5 1 b n j := by
  rw [val_main_v32_apply, val_main_v27_apply, val_main_v31_apply, val_main_v30_apply, val_main_v29_apply, val_main_v28_apply,
    Ideal.addf_def]
  unfold Spec.lin
  refine congr (congrArg HAdd.hAdd (Finset.sum_congr rfl fun k _ => ?_)) (congrArg x5 (b_idx1 b n j))
  rw [val_main_v26_apply, val_main_v25_apply]
  refine congr (congrArg HMul.hMul ?_) (congrArg x4 (w_idx1 b n j k))
  exact (congrArg (val_main_v24 (F := Ideal) x0 x1 x2 x3 x4 x5) (l_idx b n j k)).trans (layer0 x0 x1 x2 x3 x4 x5 b n k)

/-- The self branch of the second round. -/
theorem lin_s1 (b : Fin 8) (n : Fin 2048) (j : Fin 256) :
    val_main_v41 (F := Ideal) x0 x1 x2 x3 x4 x5 (ix3 b n j) = Spec.lin (mid x0 x1 x2 x3 x4 x5) x2 x3 1 b n j := by
  rw [val_main_v41_apply, val_main_v36_apply, val_main_v40_apply, val_main_v39_apply, val_main_v38_apply, val_main_v37_apply,
    Ideal.addf_def]
  unfold Spec.lin
  refine congr (congrArg HAdd.hAdd (Finset.sum_congr rfl fun k _ => ?_)) (congrArg x3 (b_idx1 b n j))
  rw [val_main_v35_apply, val_main_v34_apply]
  refine congr (congrArg HMul.hMul ?_) (congrArg x2 (w_idx1 b n j k))
  exact (congrArg (val_main_v24 (F := Ideal) x0 x1 x2 x3 x4 x5) (l_idx b n j k)).trans (layer0 x0 x1 x2 x3 x4 x5 b n k)

/-- The aggregation of the second round's neighbour branch. -/
theorem agg_r1 (b : Fin 8) (n : Fin 2048) (d : Fin 256) :
    val_main_v33 (F := Ideal) x0 x1 x2 x3 x4 x5 (ix3 b n d)
      = Spec.agg x1 (Spec.lin (mid x0 x1 x2 x3 x4 x5) x4 x5 1) b n d := by
  rw [val_main_v33_apply]
  unfold Spec.agg
  refine Finset.sum_congr rfl fun k _ => ?_
  refine congr (congrArg HMul.hMul (congrArg x1 (a_idx b n d k))) ?_
  exact (congrArg (val_main_v32 (F := Ideal) x0 x1 x2 x3 x4 x5) (y_idx b n d k)).trans (lin_r1 x0 x1 x2 x3 x4 x5 b k d)

/-- The second round, of the first round's output. -/
theorem layer1 (b : Fin 8) (n : Fin 2048) (d : Fin 256) :
    val_main_v45 (F := Ideal) x0 x1 x2 x3 x4 x5 (ix3 b n d)
      = Spec.layer x1 x2 x3 x4 x5 1 (mid x0 x1 x2 x3 x4 x5) b n d := by
  rw [val_main_v45_apply, val_main_v44_apply, val_main_v42_apply, val_main_v43_apply, val_main_call1_v0_apply,
    val_main_call1_cst_apply, agg_r1, lin_s1, (show idx_main_v43 (ix3 b n d) = ix3 b n (0 : Fin 1) from n_idx b n d), den_at,
    Ideal.maximumf_def, Ideal.hostDivf_def, Ideal.addf_def, Ideal.ofBits_def]
  rfl

end Stages

/-! ## The whole reference -/

/-- The reference's result array is the specification's: the input features plus two rounds, index by index. -/
theorem ref_is_G (x0 : (⟨S8x2048x256, .f32⟩ : BufTy).Contents (Elt Ideal)) (x1 : (⟨S8x2048x2048, .f32⟩ : BufTy).Contents (Elt Ideal)) (x2 : (⟨S2x256x256, .f32⟩ : BufTy).Contents (Elt Ideal)) (x3 : (⟨S2x256, .f32⟩ : BufTy).Contents (Elt Ideal)) (x4 : (⟨S2x256x256, .f32⟩ : BufTy).Contents (Elt Ideal)) (x5 : (⟨S2x256, .f32⟩ : BufTy).Contents (Elt Ideal)) :
    Cert.ReferenceIdeal.Read.val_main_v46 (F := Ideal) x0 x1 x2 x3 x4 x5 = Cert.Spec.Garr x0 x1 x2 x3 x4 x5 := by
  funext i
  obtain ⟨b, n, d, rfl⟩ : ∃ (b : Fin 8) (n : Fin 2048) (d : Fin 256), i = ix3 b n d := ⟨i 0, i 1, i 2, eq_ix3 i⟩
  rw [val_main_v46_apply, layer1, Ideal.addf_def]
  rfl

end Cert.ReferenceIdeal.RefValue

end
-- ==== Proof.lean ====
/-
  The certificate. Each program runs to the end without a fault and leaves its argument arrays as launched (the
  three frames: the two kernel programs through their two pipelined regions, region by region and grid point by
  grid point; the reference through its straight-line host run). The idealization rewrote nothing, so there is
  nothing to preserve. And at the extended reals the idealized kernel and the idealized reference end with equal
  results: both compute two rounds of
      x ↦ relu((A·(x Wrᵀ + br) + (x W0ᵀ + b0)) / (rowsum(A) + 1))
  followed by adding the input features — the kernel with the neighbours summed in four tiles of 512 into an
  accumulator seeded with the self term, which on the extended reals (addition commutative and associative) is the
  same sum.
-/
import proofs.«156158_j51213190037828_2_alg».proof.Defs
import proofs.«156158_j51213190037828_2_alg».proof.Proof.Gen.Kernel
import proofs.«156158_j51213190037828_2_alg».proof.Proof.Gen.KernelIdeal
import proofs.«156158_j51213190037828_2_alg».proof.Proof.Gen.ReferenceIdeal
import proofs.«156158_j51213190037828_2_alg».proof.Proof.Gen.Pre_finite_inputs
import proofs.«156158_j51213190037828_2_alg».proof.Proof.Gen.ReferenceIdeal.Run
import proofs.«156158_j51213190037828_2_alg».proof.Proof.Gen.ReferenceIdeal.Read
import proofs.«156158_j51213190037828_2_alg».proof.Proof.BMainRun
import proofs.«156158_j51213190037828_2_alg».proof.Proof.Final
import proofs.«156158_j51213190037828_2_alg».proof.Proof.RefIsG

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the specification's function of those
    arguments in their result buffers. -/
theorem algebraic : Cert.algebraic_KernelIdeal_ReferenceIdeal := by
  intro m ρ m' ρ' _ hagree
  refine ⟨fun c => Cert.Spec.Garr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.Hand.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.ref_is_G,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
